-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x86 : Shape := ⟨2, ![50000, 86]⟩
abbrev S2x800000 : Shape := ⟨2, ![2, 800000]⟩
abbrev S50000x128 : Shape := ⟨2, ![50000, 128]⟩
abbrev S50000x256 : Shape := ⟨2, ![50000, 256]⟩
abbrev S50000x512 : Shape := ⟨2, ![50000, 512]⟩
abbrev S86x128 : Shape := ⟨2, ![86, 128]⟩
abbrev S128 : Shape := ⟨1, ![128]⟩
abbrev S128x256 : Shape := ⟨2, ![128, 256]⟩
abbrev S256 : Shape := ⟨1, ![256]⟩
abbrev S256x512 : Shape := ⟨2, ![256, 512]⟩
abbrev S512 : Shape := ⟨1, ![512]⟩
abbrev S_ : Shape := ⟨0, ![]⟩

class Facts : Prop where
  bcast_S_S50000x86 : S_.BroadcastsInDim S50000x86 (![] : Fin 0 → Fin S50000x86.rank)
  reducesTo_S50000x86_S_d0_1 : S50000x86.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S50000x256 : S_.BroadcastsInDim S50000x256 (![] : Fin 0 → Fin S50000x256.rank)
  reducesTo_S50000x256_S_d0_1 : S50000x256.ReducesTo [0, 1] S_
  bcast_S_S50000x512 : S_.BroadcastsInDim S50000x512 (![] : Fin 0 → Fin S50000x512.rank)
  reducesTo_S50000x512_S_d0_1 : S50000x512.ReducesTo [0, 1] S_
  bcast_S_S86x128 : S_.BroadcastsInDim S86x128 (![] : Fin 0 → Fin S86x128.rank)
  reducesTo_S86x128_S_d0_1 : S86x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_

variable [Facts]

def fn_part6 {F : FTy → Type} [FloatOps F] (main_arg22 : FVec F S512 .f32) (main_v98 : IVec S_ 1) (main_v101 : IVec S512 1) (main_c_39 : IVec S_ 1) : IVec S_ 1 :=
  let main_v102 : IVec S_ 1 := (fun x v => Host.reduce IntOp.andi x v reducesTo_S512_S_d0 h_S_) main_v101 main_c_39
  let main_v103 : IVec S_ 1 := andi main_v98 main_v102
  let main_v104 : FVec F S512 .f32 := Host.absf main_arg22
  let main_cst_40 : FVec F S_ .f32 := constant S_ .f32 0x7F800000#32
  let main_v105 : FVec F S512 .f32 := broadcastInDim S512 ![] bcast_S_S512 main_cst_40
  let main_v106 : IVec S512 1 := cmpf .olt main_v104 main_v105
  let main_c_41 : IVec S_ 1 := constantI S_ 1 1#1
  let main_v107 : IVec S_ 1 := (fun x v => Host.reduce IntOp.andi x v reducesTo_S512_S_d0 h_S_) main_v106 main_c_41
  let main_v108 : IVec S_ 1 := andi main_v103 main_v107
  main_v108

def fn_part5 {F : FTy → Type} [FloatOps F] (main_arg19 : FVec F S512 .f32) (main_arg20 : FVec F S512 .f32) (main_arg21 : FVec F S512 .f32) (main_arg22 : FVec F S512 .f32) (main_v83 : IVec S_ 1) (main_v84 : FVec F S512 .f32) (main_cst_32 : FVec F S_ .f32) : IVec S_ 1 :=
  let main_v85 : FVec F S512 .f32 := broadcastInDim S512 ![] bcast_S_S512 main_cst_32
  let main_v86 : IVec S512 1 := cmpf .olt main_v84 main_v85
  let main_c_33 : IVec S_ 1 := constantI S_ 1 1#1
  let main_v87 : IVec S_ 1 := (fun x v => Host.reduce IntOp.andi x v reducesTo_S512_S_d0 h_S_) main_v86 main_c_33
  let main_v88 : IVec S_ 1 := andi main_v83 main_v87
  let main_v89 : FVec F S512 .f32 := Host.absf main_arg19
  let main_cst_34 : FVec F S_ .f32 := constant S_ .f32 0x7F800000#32
  let main_v90 : FVec F S512 .f32 := broadcastInDim S512 ![] bcast_S_S512 main_cst_34
  let main_v91 : IVec S512 1 := cmpf .olt main_v89 main_v90
  let main_c_35 : IVec S_ 1 := constantI S_ 1 1#1
  let main_v92 : IVec S_ 1 := (fun x v => Host.reduce IntOp.andi x v reducesTo_S512_S_d0 h_S_) main_v91 main_c_35
  let main_v93 : IVec S_ 1 := andi main_v88 main_v92
  let main_v94 : FVec F S512 .f32 := Host.absf main_arg20
  let main_cst_36 : FVec F S_ .f32 := constant S_ .f32 0x7F800000#32
  let main_v95 : FVec F S512 .f32 := broadcastInDim S512 ![] bcast_S_S512 main_cst_36
  let main_v96 : IVec S512 1 := cmpf .olt main_v94 main_v95
  let main_c_37 : IVec S_ 1 := constantI S_ 1 1#1
  let main_v97 : IVec S_ 1 := (fun x v => Host.reduce IntOp.andi x v reducesTo_S512_S_d0 h_S_) main_v96 main_c_37
  let main_v98 : IVec S_ 1 := andi main_v93 main_v97
  let main_v99 : FVec F S512 .f32 := Host.absf main_arg21
  let main_cst_38 : FVec F S_ .f32 := constant S_ .f32 0x7F800000#32
  let main_v100 : FVec F S512 .f32 := broadcastInDim S512 ![] bcast_S_S512 main_cst_38
  let main_v101 : IVec S512 1 := cmpf .olt main_v99 main_v100
  let main_c_39 : IVec S_ 1 := constantI S_ 1 1#1
  fn_part6 (F := F) main_arg22 main_v98 main_v101 main_c_39

def fn_part4 {F : FTy → Type} [FloatOps F] (main_arg15 : FVec F S256 .f32) (main_arg16 : FVec F S256 .f32) (main_arg17 : FVec F S256x512 .f32) (main_arg18 : FVec F S512 .f32) (main_arg19 : FVec F S512 .f32) (main_arg20 : FVec F S512 .f32) (main_arg21 : FVec F S512 .f32) (main_arg22 : FVec F S512 .f32) (main_v63 : IVec S_ 1) (main_v67 : IVec S_ 1) : IVec S_ 1 :=
  let main_v68 : IVec S_ 1 := andi main_v63 main_v67
  let main_v69 : FVec F S256 .f32 := Host.absf main_arg15
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256 .f32 := Host.absf main_arg16
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256x512 .f32 := Host.absf main_arg17
  let main_cst_30 : FVec F S_ .f32 := constant S_ .f32 0x7F800000#32
  let main_v80 : FVec F S256x512 .f32 := broadcastInDim S256x512 ![] bcast_S_S256x512 main_cst_30
  let main_v81 : IVec S256x512 1 := cmpf .olt main_v79 main_v80
  let main_c_31 : IVec S_ 1 := constantI S_ 1 1#1
  let main_v82 : IVec S_ 1 := (fun x v => Host.reduce IntOp.andi x v reducesTo_S256x512_S_d0_1 h_S_) main_v81 main_c_31
  let main_v83 : IVec S_ 1 := andi main_v78 main_v82
  let main_v84 : FVec F S512 .f32 := Host.absf main_arg18
  let main_cst_32 : FVec F S_ .f32 := constant S_ .f32 0x7F800000#32
  fn_part5 (F := F) main_arg19 main_arg20 main_arg21 main_arg22 main_v83 main_v84 main_cst_32

def fn_part3 {F : FTy → Type} [FloatOps F] (main_arg12 : FVec F S256 .f32) (main_arg13 : FVec F S256 .f32) (main_arg14 : FVec F S256 .f32) (main_arg15 : FVec F S256 .f32) (main_arg16 : FVec F S256 .f32) (main_arg17 : FVec F S256x512 .f32) (main_arg18 : FVec F S512 .f32) (main_arg19 : FVec F S512 .f32) (main_arg20 : FVec F S512 .f32) (main_arg21 : FVec F S512 .f32) (main_arg22 : FVec F S512 .f32) (main_v48 : IVec S_ 1) (main_v49 : FVec F S128x256 .f32) (main_v50 : FVec F S128x256 .f32) : IVec S_ 1 :=
  let main_v51 : IVec S128x256 1 := cmpf .olt main_v49 main_v50
  let main_c_19 : IVec S_ 1 := constantI S_ 1 1#1
  let main_v52 : IVec S_ 1 := (fun x v => Host.reduce IntOp.andi x v reducesTo_S128x256_S_d0_1 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg15 main_arg16 main_arg17 main_arg18 main_arg19 main_arg20 main_arg21 main_arg22 main_v63 main_v67

def fn_part2 {F : FTy → Type} [FloatOps F] (main_arg8 : FVec F S128 .f32) (main_arg9 : FVec F S128 .f32) (main_arg10 : FVec F S128 .f32) (main_arg11 : FVec F S128x256 .f32) (main_arg12 : FVec F S256 .f32) (main_arg13 : FVec F S256 .f32) (main_arg14 : FVec F S256 .f32) (main_arg15 : FVec F S256 .f32) (main_arg16 : FVec F S256 .f32) (main_arg17 : FVec F S256x512 .f32) (main_arg18 : FVec F S512 .f32) (main_arg19 : FVec F S512 .f32) (main_arg20 : FVec F S512 .f32) (main_arg21 : FVec F S512 .f32) (main_arg22 : FVec F S512 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x256 .f32 := Host.absf main_arg11
  let main_cst_18 : FVec F S_ .f32 := constant S_ .f32 0x7F800000#32
  let main_v50 : FVec F S128x256 .f32 := broadcastInDim S128x256 ![] bcast_S_S128x256 main_cst_18
  fn_part3 (F := F) main_arg12 main_arg13 main_arg14 main_arg15 main_arg16 main_arg17 main_arg18 main_arg19 main_arg20 main_arg21 main_arg22 main_v48 main_v49 main_v50

def fn_part1 {F : FTy → Type} [FloatOps F] (main_arg5 : FVec F S86x128 .f32) (main_arg6 : FVec F S128 .f32) (main_arg7 : FVec F S128 .f32) (main_arg8 : FVec F S128 .f32) (main_arg9 : FVec F S128 .f32) (main_arg10 : FVec F S128 .f32) (main_arg11 : FVec F S128x256 .f32) (main_arg12 : FVec F S256 .f32) (main_arg13 : FVec F S256 .f32) (main_arg14 : FVec F S256 .f32) (main_arg15 : FVec F S256 .f32) (main_arg16 : FVec F S256 .f32) (main_arg17 : FVec F S256x512 .f32) (main_arg18 : FVec F S512 .f32) (main_arg19 : FVec F S512 .f32) (main_arg20 : FVec F S512 .f32) (main_arg21 : FVec F S512 .f32) (main_arg22 : FVec F S512 .f32) (main_v13 : IVec S_ 1) (main_v16 : IVec S50000x512 1) : IVec S_ 1 :=
  let main_c_5 : IVec S_ 1 := constantI S_ 1 1#1
  let main_v17 : IVec S_ 1 := (fun x v => Host.reduce IntOp.andi x v reducesTo_S50000x512_S_d0_1 h_S_) main_v16 main_c_5
  let main_v18 : IVec S_ 1 := andi main_v13 main_v17
  let main_v19 : FVec F S86x128 .f32 := Host.absf main_arg5
  let main_cst_6 : FVec F S_ .f32 := constant S_ .f32 0x7F800000#32
  let main_v20 : FVec F S86x128 .f32 := broadcastInDim S86x128 ![] bcast_S_S86x128 main_cst_6
  let main_v21 : IVec S86x128 1 := cmpf .olt main_v19 main_v20
  let main_c_7 : IVec S_ 1 := constantI S_ 1 1#1
  let main_v22 : IVec S_ 1 := (fun x v => Host.reduce IntOp.andi x v reducesTo_S86x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S50000x86 .f32) (main_arg1 : IVec S2x800000 32) (main_arg2 : FVec F S50000x128 .f32) (main_arg3 : FVec F S50000x256 .f32) (main_arg4 : FVec F S50000x512 .f32) (main_arg5 : FVec F S86x128 .f32) (main_arg6 : FVec F S128 .f32) (main_arg7 : FVec F S128 .f32) (main_arg8 : FVec F S128 .f32) (main_arg9 : FVec F S128 .f32) (main_arg10 : FVec F S128 .f32) (main_arg11 : FVec F S128x256 .f32) (main_arg12 : FVec F S256 .f32) (main_arg13 : FVec F S256 .f32) (main_arg14 : FVec F S256 .f32) (main_arg15 : FVec F S256 .f32) (main_arg16 : FVec F S256 .f32) (main_arg17 : FVec F S256x512 .f32) (main_arg18 : FVec F S512 .f32) (main_arg19 : FVec F S512 .f32) (main_arg20 : FVec F S512 .f32) (main_arg21 : FVec F S512 .f32) (main_arg22 : FVec F S512 .f32) : IVec S_ 1 :=
  let main_v0 : FVec F S50000x86 .f32 := Host.absf main_arg0
  let main_cst : FVec F S_ .f32 := constant S_ .f32 0x7F800000#32
  let main_v1 : FVec F S50000x86 .f32 := broadcastInDim S50000x86 ![] bcast_S_S50000x86 main_cst
  let main_v2 : IVec S50000x86 1 := cmpf .olt main_v0 main_v1
  let main_c : IVec S_ 1 := constantI S_ 1 1#1
  let main_v3 : IVec S_ 1 := (fun x v => Host.reduce IntOp.andi x v reducesTo_S50000x86_S_d0_1 h_S_) main_v2 main_c
  let main_v4 : FVec F S50000x128 .f32 := Host.absf main_arg2
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S50000x256 .f32 := Host.absf main_arg3
  let main_cst_2 : FVec F S_ .f32 := constant S_ .f32 0x7F800000#32
  let main_v10 : FVec F S50000x256 .f32 := broadcastInDim S50000x256 ![] bcast_S_S50000x256 main_cst_2
  let main_v11 : IVec S50000x256 1 := cmpf .olt main_v9 main_v10
  let main_c_3 : IVec S_ 1 := constantI S_ 1 1#1
  let main_v12 : IVec S_ 1 := (fun x v => Host.reduce IntOp.andi x v reducesTo_S50000x256_S_d0_1 h_S_) main_v11 main_c_3
  let main_v13 : IVec S_ 1 := andi main_v8 main_v12
  let main_v14 : FVec F S50000x512 .f32 := Host.absf main_arg4
  let main_cst_4 : FVec F S_ .f32 := constant S_ .f32 0x7F800000#32
  let main_v15 : FVec F S50000x512 .f32 := broadcastInDim S50000x512 ![] bcast_S_S50000x512 main_cst_4
  let main_v16 : IVec S50000x512 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S50000x86 : Shape := ⟨2, ![50000, 86]⟩
abbrev S2x800000 : Shape := ⟨2, ![2, 800000]⟩
abbrev S50000x128 : Shape := ⟨2, ![50000, 128]⟩
abbrev S50000x256 : Shape := ⟨2, ![50000, 256]⟩
abbrev S50000x512 : Shape := ⟨2, ![50000, 512]⟩
abbrev S86x128 : Shape := ⟨2, ![86, 128]⟩
abbrev S128 : Shape := ⟨1, ![128]⟩
abbrev S128x256 : Shape := ⟨2, ![128, 256]⟩
abbrev S256 : Shape := ⟨1, ![256]⟩
abbrev S256x512 : Shape := ⟨2, ![256, 512]⟩
abbrev S512 : Shape := ⟨1, ![512]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x86 : Shape := ⟨2, ![800000, 86]⟩
abbrev S1x128 : Shape := ⟨2, ![1, 128]⟩
abbrev S1000x86 : Shape := ⟨2, ![1000, 86]⟩
abbrev S1000x128 : Shape := ⟨2, ![1000, 128]⟩
abbrev S800000x128 : Shape := ⟨2, ![800000, 128]⟩
abbrev S1x256 : Shape := ⟨2, ![1, 256]⟩
abbrev S1000x256 : Shape := ⟨2, ![1000, 256]⟩
abbrev S800000x256 : Shape := ⟨2, ![800000, 256]⟩
abbrev S1x512 : Shape := ⟨2, ![1, 512]⟩
abbrev S1000x512 : Shape := ⟨2, ![1000, 512]⟩

abbrev nBuf : Space → Nat
  | .hbm => 87
  | .vmem => 36
  | .smem => 0
  | _ => 0

abbrev bufTy : (tb : Table) → Fin (tcTables nBuf tb) → BufTy
  | .hbm, ⟨0, _⟩ => ⟨S50000x86, .f32⟩
  | .hbm, ⟨1, _⟩ => ⟨S2x800000, .i32⟩
  | .hbm, ⟨2, _⟩ => ⟨S50000x128, .f32⟩
  | .hbm, ⟨3, _⟩ => ⟨S50000x256, .f32⟩
  | .hbm, ⟨4, _⟩ => ⟨S50000x512, .f32⟩
  | .hbm, ⟨5, _⟩ => ⟨S86x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128x256, .f32⟩
  | .hbm, ⟨12, _⟩ => ⟨S256, .f32⟩
  | .hbm, ⟨13, _⟩ => ⟨S256, .f32⟩
  | .hbm, ⟨14, _⟩ => ⟨S256, .f32⟩
  | .hbm, ⟨15, _⟩ => ⟨S256, .f32⟩
  | .hbm, ⟨16, _⟩ => ⟨S256, .f32⟩
  | .hbm, ⟨17, _⟩ => ⟨S256x512, .f32⟩
  | .hbm, ⟨18, _⟩ => ⟨S512, .f32⟩
  | .hbm, ⟨19, _⟩ => ⟨S512, .f32⟩
  | .hbm, ⟨20, _⟩ => ⟨S512, .f32⟩
  | .hbm, ⟨21, _⟩ => ⟨S512, .f32⟩
  | .hbm, ⟨22, _⟩ => ⟨S512, .f32⟩
  | .hbm, ⟨23, _⟩ => ⟨S1x800000, .i32⟩
  | .hbm, ⟨24, _⟩ => ⟨S800000, .i32⟩
  | .hbm, ⟨25, _⟩ => ⟨S1x800000, .i32⟩
  | .hbm, ⟨26, _⟩ => ⟨S800000, .i32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x86, .f32⟩
  | .hbm, ⟨36, _⟩ => ⟨S_, .f32⟩
  | .hbm, ⟨37, _⟩ => ⟨S50000x86, .f32⟩
  | .hbm, ⟨38, _⟩ => ⟨S800000x1, .i32⟩
  | .hbm, ⟨39, _⟩ => ⟨S50000x86, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S1x128, .f32⟩
  | .hbm, ⟨44, _⟩ => ⟨S1x128, .f32⟩
  | .hbm, ⟨45, _⟩ => ⟨S50000x128, .f32⟩
  | .hbm, ⟨46, _⟩ => ⟨S50000x128, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x128, .f32⟩
  | .hbm, ⟨56, _⟩ => ⟨S_, .f32⟩
  | .hbm, ⟨57, _⟩ => ⟨S50000x128, .f32⟩
  | .hbm, ⟨58, _⟩ => ⟨S800000x1, .i32⟩
  | .hbm, ⟨59, _⟩ => ⟨S50000x128, .f32⟩
  | .hbm, ⟨60, _⟩ => ⟨S1x256, .f32⟩
  | .hbm, ⟨61, _⟩ => ⟨S1x256, .f32⟩
  | .hbm, ⟨62, _⟩ => ⟨S1x256, .f32⟩
  | .hbm, ⟨63, _⟩ => ⟨S1x256, .f32⟩
  | .hbm, ⟨64, _⟩ => ⟨S1x256, .f32⟩
  | .hbm, ⟨65, _⟩ => ⟨S50000x256, .f32⟩
  | .hbm, ⟨66, _⟩ => ⟨S50000x256, .f32⟩
  | .hbm, ⟨67, _⟩ => ⟨S_, .i32⟩
  | .hbm, ⟨68, _⟩ => ⟨S800000, .i32⟩
  | .hbm, ⟨69, _⟩ => ⟨S800000, .i1⟩
  | .hbm, ⟨70, _⟩ => ⟨S_, .i32⟩
  | .hbm, ⟨71, _⟩ => ⟨S800000, .i32⟩
  | .hbm, ⟨72, _⟩ => ⟨S800000, .i32⟩
  | .hbm, ⟨73, _⟩ => ⟨S800000, .i32⟩
  | .hbm, ⟨74, _⟩ => ⟨S800000x1, .i32⟩
  | .hbm, ⟨75, _⟩ => ⟨S800000x256, .f32⟩
  | .hbm, ⟨76, _⟩ => ⟨S_, .f32⟩
  | .hbm, ⟨77, _⟩ => ⟨S50000x256, .f32⟩
  | .hbm, ⟨78, _⟩ => ⟨S800000x1, .i32⟩
  | .hbm, ⟨79, _⟩ => ⟨S50000x256, .f32⟩
  | .hbm, ⟨80, _⟩ => ⟨S1x512, .f32⟩
  | .hbm, ⟨81, _⟩ => ⟨S1x512, .f32⟩
  | .hbm, ⟨82, _⟩ => ⟨S1x512, .f32⟩
  | .hbm, ⟨83, _⟩ => ⟨S1x512, .f32⟩
  | .hbm, ⟨84, _⟩ => ⟨S1x512, .f32⟩
  | .hbm, ⟨85, _⟩ => ⟨S50000x512, .f32⟩
  | .hbm, ⟨86, _⟩ => ⟨S50000x512, .f32⟩
  | .local _ .vmem, ⟨0, _⟩ => ⟨S1000x86, .f32⟩
  | .local _ .vmem, ⟨1, _⟩ => ⟨S1000x86, .f32⟩
  | .local _ .vmem, ⟨2, _⟩ => ⟨S1000x86, .f32⟩
  | .local _ .vmem, ⟨3, _⟩ => ⟨S1000x86, .f32⟩
  | .local _ .vmem, ⟨4, _⟩ => ⟨S86x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1000x128, .f32⟩
  | .local _ .vmem, ⟨11, _⟩ => ⟨S1000x128, .f32⟩
  | .local _ .vmem, ⟨12, _⟩ => ⟨S1000x128, .f32⟩
  | .local _ .vmem, ⟨13, _⟩ => ⟨S1000x128, .f32⟩
  | .local _ .vmem, ⟨14, _⟩ => ⟨S1000x128, .f32⟩
  | .local _ .vmem, ⟨15, _⟩ => ⟨S1000x128, .f32⟩
  | .local _ .vmem, ⟨16, _⟩ => ⟨S128x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S1000x256, .f32⟩
  | .local _ .vmem, ⟨23, _⟩ => ⟨S1000x256, .f32⟩
  | .local _ .vmem, ⟨24, _⟩ => ⟨S1000x256, .f32⟩
  | .local _ .vmem, ⟨25, _⟩ => ⟨S1000x256, .f32⟩
  | .local _ .vmem, ⟨26, _⟩ => ⟨S1000x256, .f32⟩
  | .local _ .vmem, ⟨27, _⟩ => ⟨S1000x256, .f32⟩
  | .local _ .vmem, ⟨28, _⟩ => ⟨S256x512, .f32⟩
  | .local _ .vmem, ⟨29, _⟩ => ⟨S1x512, .f32⟩
  | .local _ .vmem, ⟨30, _⟩ => ⟨S1x512, .f32⟩
  | .local _ .vmem, ⟨31, _⟩ => ⟨S1x512, .f32⟩
  | .local _ .vmem, ⟨32, _⟩ => ⟨S1x512, .f32⟩
  | .local _ .vmem, ⟨33, _⟩ => ⟨S1x512, .f32⟩
  | .local _ .vmem, ⟨34, _⟩ => ⟨S1000x512, .f32⟩
  | .local _ .vmem, ⟨35, _⟩ => ⟨S1000x512, .f32⟩
  | _, _ => ⟨S50000x86, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_c_1 : Ref sig .tc := ⟨.hbm, 47, rfl⟩
abbrev main_v21 : Ref sig .tc := ⟨.hbm, 48, rfl⟩
abbrev main_v22 : Ref sig .tc := ⟨.hbm, 49, rfl⟩
abbrev main_c_2 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_cst_3 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_c_4 : Ref sig .tc := ⟨.hbm, 67, rfl⟩
abbrev main_v38 : Ref sig .tc := ⟨.hbm, 68, rfl⟩
abbrev main_v39 : Ref sig .tc := ⟨.hbm, 69, rfl⟩
abbrev main_c_5 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_6 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg8_0 : Ref sig .tc := ⟨.vmem, 34, rfl⟩
abbrev cc2_stg8_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem7_0 : DmaSem sig := 33
abbrev cc2_sem8_0 : DmaSem sig := 34
abbrev cc2_sem8_1 : DmaSem sig := 35

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x86 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x86 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S86x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S1000x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x512 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x512 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S1000x512 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x86 : S_.BroadcastsInDim S50000x86 (![] : Fin 0 → Fin S50000x86.rank)
  shapeCasts_S128_S1x128 : S128.ShapeCasts S1x128
  inb_S1000x86_S1000x86_0_0 : ∀ a, (![0, 0] : Fin 2 → Nat) a + S1000x86.size a ≤ S1000x86.size a
  h_S1000x86 : 0 < S1000x86.numel
  shapeCasts_S1000x86_S1000x86 : S1000x86.ShapeCasts S1000x86
  bitsLt_bf16_f32 : FTy.bits .bf16 < FTy.bits .f32
  inb_S86x128_S86x128_0_0 : ∀ a, (![0, 0] : Fin 2 → Nat) a + S86x128.size a ≤ S86x128.size a
  h_S86x128 : 0 < S86x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S1000x128_S1000x128_0_0 : ∀ a, (![0, 0] : Fin 2 → Nat) a + S1000x128.size a ≤ S1000x128.size a
  h_S1000x128 : 0 < S1000x128.numel
  bcast_S_S50000x128 : S_.BroadcastsInDim S50000x128 (![] : Fin 0 → Fin S50000x128.rank)
  shapeCasts_S256_S1x256 : S256.ShapeCasts S1x256
  shapeCasts_S1000x128_S1000x128 : S1000x128.ShapeCasts S1000x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  inb_S1000x256_S1000x256_0_0 : ∀ a, (![0, 0] : Fin 2 → Nat) a + S1000x256.size a ≤ S1000x256.size a
  h_S1000x256 : 0 < S1000x256.numel
  bcast_S_S50000x256 : S_.BroadcastsInDim S50000x256 (![] : Fin 0 → Fin S50000x256.rank)
  shapeCasts_S512_S1x512 : S512.ShapeCasts S1x512
  shapeCasts_S1000x256_S1000x256 : S1000x256.ShapeCasts S1000x256
  inb_S256x512_S256x512_0_0 : ∀ a, (![0, 0] : Fin 2 → Nat) a + S256x512.size a ≤ S256x512.size a
  h_S256x512 : 0 < S256x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  inb_S1000x512_S1000x512_0_0 : ∀ a, (![0, 0] : Fin 2 → Nat) a + S1000x512.size a ≤ S1000x512.size a
  h_S1000x512 : 0 < S1000x512.numel
  gather_S50000x86_S800000x1_S800000x86_1_0_n_n_0_1_186_wf : GatherDims.WF S50000x86 S800000x1 S800000x86 [1] [0] [] [0] [] 1 ![1, 86]
  scatter_S50000x86_S800000x1_S800000x86_1_0_0_1_wf : ScatterDims.WF S50000x86 S800000x1 S800000x86 [1] [0] [0] 1
  dot_S1000x86_S86x128_S1000x128_1_0_0_1_n_n_wf : DotDims.WF S1000x86 S86x128 S1000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S1000x128_S128x256_S1000x256_1_0_0_1_n_n_wf : DotDims.WF S1000x128 S128x256 S1000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S1000x256_S256x512_S1000x512_1_0_0_1_n_n_wf : DotDims.WF S1000x256 S256x512 S1000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x86.size a ≤ S50000x86.size a
  hwx0_0 : ∀ i : grid0.Coords, EltTy.bits .f32 = 32 ∨ (Rect.block (s := S50000x86) S1000x86.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x86.size a ≤ S50000x86.size a
  hwx0_1 : ∀ i : grid0.Coords, EltTy.bits .f32 = 32 ∨ (Rect.block (s := S50000x86) S1000x86.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S86x128.size a ≤ S86x128.size a
  hwx0_2 : ∀ i : grid0.Coords, EltTy.bits .f32 = 32 ∨ (Rect.block (s := S86x128) S86x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1000x128.size a ≤ S50000x128.size a
  hwx0_8 : ∀ i : grid0.Coords, EltTy.bits .f32 = 32 ∨ (Rect.block (s := S50000x128) S1000x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S50000x128.size a
  hwx1_0 : ∀ i : grid1.Coords, EltTy.bits .f32 = 32 ∨ (Rect.block (s := S50000x128) S1000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x128.size a ≤ S50000x128.size a
  hwx1_1 : ∀ i : grid1.Coords, EltTy.bits .f32 = 32 ∨ (Rect.block (s := S50000x128) S1000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .f32 = 32 ∨ (Rect.block (s := S128x256) S128x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1000x256.size a ≤ S50000x256.size a
  hwx1_8 : ∀ i : grid1.Coords, EltTy.bits .f32 = 32 ∨ (Rect.block (s := S50000x256) S1000x256.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x256.size a ≤ S50000x256.size a
  hwx2_0 : ∀ i : grid2.Coords, EltTy.bits .f32 = 32 ∨ (Rect.block (s := S50000x256) S1000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x256.size a ≤ S50000x256.size a
  hwx2_1 : ∀ i : grid2.Coords, EltTy.bits .f32 = 32 ∨ (Rect.block (s := S50000x256) S1000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x512.size a ≤ S256x512.size a
  hwx2_2 : ∀ i : grid2.Coords, EltTy.bits .f32 = 32 ∨ (Rect.block (s := S256x512) S256x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x512.size a
  hwx2_3 : ∀ i : grid2.Coords, EltTy.bits .f32 = 32 ∨ (Rect.block (s := S1x512) S1x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x512.size a
  hwx2_4 : ∀ i : grid2.Coords, EltTy.bits .f32 = 32 ∨ (Rect.block (s := S1x512) S1x512.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x512.size a ≤ S1x512.size a
  hwx2_5 : ∀ i : grid2.Coords, EltTy.bits .f32 = 32 ∨ (Rect.block (s := S1x512) S1x512.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x512.size a ≤ S1x512.size a
  hwx2_6 : ∀ i : grid2.Coords, EltTy.bits .f32 = 32 ∨ (Rect.block (s := S1x512) S1x512.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x512.size a ≤ S1x512.size a
  hwx2_7 : ∀ i : grid2.Coords, EltTy.bits .f32 = 32 ∨ (Rect.block (s := S1x512) S1x512.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S1000x512.size a ≤ S50000x512.size a
  hwx2_8 : ∀ i : grid2.Coords, EltTy.bits .f32 = 32 ∨ (Rect.block (s := S50000x512) S1000x512.size (cc2_transform_8 i) (hinb2_8 i)).WholeWords (EltTy.packing .f32)

variable [Facts₀]

def gather_S50000x86_S800000x1_S800000x86_1_0_n_n_0_1_186 : GatherDims S50000x86 S800000x1 S800000x86 where
  offsetDims := [1]
  collapsedSliceDims := [0]
  operandBatchingDims := []
  startIndicesBatchingDims := []
  startIndexMap := [0]
  indexVectorDim := 1
  sliceSizes := ![1, 86]
  wf := gather_S50000x86_S800000x1_S800000x86_1_0_n_n_0_1_186_wf
def scatter_S50000x86_S800000x1_S800000x86_1_0_0_1 : ScatterDims S50000x86 S800000x1 S800000x86 where
  updateWindowDims := [1]
  insertedWindowDims := [0]
  scatterDimsToOperandDims := [0]
  indexVectorDim := 1
  wf := scatter_S50000x86_S800000x1_S800000x86_1_0_0_1_wf
def dot_S1000x86_S86x128_S1000x128_1_0_0_1_n_n : DotDims S1000x86 S86x128 S1000x128 where
  lhsContracting := [1]
  rhsContracting := [0]
  lhsNonContracting := [0]
  rhsNonContracting := [1]
  lhsBatch := []
  rhsBatch := []
  wf := dot_S1000x86_S86x128_S1000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S1000x128_S128x256_S1000x256_1_0_0_1_n_n : DotDims S1000x128 S128x256 S1000x256 where
  lhsContracting := [1]
  rhsContracting := [0]
  lhsNonContracting := [0]
  rhsNonContracting := [1]
  lhsBatch := []
  rhsBatch := []
  wf := dot_S1000x128_S128x256_S1000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S1000x256_S256x512_S1000x512_1_0_0_1_n_n : DotDims S1000x256 S256x512 S1000x512 where
  lhsContracting := [1]
  rhsContracting := [0]
  lhsNonContracting := [0]
  rhsNonContracting := [1]
  lhsBatch := []
  rhsBatch := []
  wf := dot_S1000x256_S256x512_S1000x512_1_0_0_1_n_n_wf

abbrev win0_0 : Pipeline.Window sig grid0 :=
  Pipeline.Window.ofSpec (Memref.whole main_arg0) S1000x86.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1000x86.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S86x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v19) S1000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v20) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S1000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg11) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v34) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v35) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v36) S1000x256.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v37) S1000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S1000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg17) S256x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S1x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v49) S1x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v50) S1x512.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v51) S1x512.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v52) S1x512.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v53) S1000x512.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S50000x86 : Shape := ⟨2, ![50000, 86]⟩
abbrev S2x800000 : Shape := ⟨2, ![2, 800000]⟩
abbrev S50000x128 : Shape := ⟨2, ![50000, 128]⟩
abbrev S50000x256 : Shape := ⟨2, ![50000, 256]⟩
abbrev S50000x512 : Shape := ⟨2, ![50000, 512]⟩
abbrev S86x128 : Shape := ⟨2, ![86, 128]⟩
abbrev S128 : Shape := ⟨1, ![128]⟩
abbrev S128x256 : Shape := ⟨2, ![128, 256]⟩
abbrev S256 : Shape := ⟨1, ![256]⟩
abbrev S256x512 : Shape := ⟨2, ![256, 512]⟩
abbrev S512 : Shape := ⟨1, ![512]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x86 : Shape := ⟨2, ![800000, 86]⟩
abbrev S1x128 : Shape := ⟨2, ![1, 128]⟩
abbrev S800000x128 : Shape := ⟨2, ![800000, 128]⟩
abbrev S1x256 : Shape := ⟨2, ![1, 256]⟩
abbrev S800000x256 : Shape := ⟨2, ![800000, 256]⟩
abbrev S1x512 : Shape := ⟨2, ![1, 512]⟩

abbrev nBuf : Space → Nat
  | .hbm => 141
  | .vmem => 0
  | .smem => 0
  | _ => 0

abbrev hbmTy0_0 (i : Nat) : BufTy := match i % 128 with
  | 0 => ⟨S50000x86, .f32⟩
  | 1 => ⟨S2x800000, .i32⟩
  | 2 => ⟨S50000x128, .f32⟩
  | 3 => ⟨S50000x256, .f32⟩
  | 4 => ⟨S50000x512, .f32⟩
  | 5 => ⟨S86x128, .f32⟩
  | 6 => ⟨S128, .f32⟩
  | 7 => ⟨S128, .f32⟩
  | 8 => ⟨S128, .f32⟩
  | 9 => ⟨S128, .f32⟩
  | 10 => ⟨S128, .f32⟩
  | 11 => ⟨S128x256, .f32⟩
  | 12 => ⟨S256, .f32⟩
  | 13 => ⟨S256, .f32⟩
  | 14 => ⟨S256, .f32⟩
  | 15 => ⟨S256, .f32⟩
  | 16 => ⟨S256, .f32⟩
  | 17 => ⟨S256x512, .f32⟩
  | 18 => ⟨S512, .f32⟩
  | 19 => ⟨S512, .f32⟩
  | 20 => ⟨S512, .f32⟩
  | 21 => ⟨S512, .f32⟩
  | 22 => ⟨S512, .f32⟩
  | 23 => ⟨S1x800000, .i32⟩
  | 24 => ⟨S800000, .i32⟩
  | 25 => ⟨S1x800000, .i32⟩
  | 26 => ⟨S800000, .i32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x86, .f32⟩
  | 36 => ⟨S_, .f32⟩
  | 37 => ⟨S50000x86, .f32⟩
  | 38 => ⟨S800000x1, .i32⟩
  | 39 => ⟨S50000x86, .f32⟩
  | 40 => ⟨S50000x86, .f32⟩
  | 41 => ⟨S50000x128, .f32⟩
  | 42 => ⟨S1x128, .f32⟩
  | 43 => ⟨S50000x128, .f32⟩
  | 44 => ⟨S50000x128, .f32⟩
  | 45 => ⟨S1x128, .f32⟩
  | 46 => ⟨S50000x128, .f32⟩
  | 47 => ⟨S50000x128, .f32⟩
  | 48 => ⟨S_, .f32⟩
  | 49 => ⟨S128, .f32⟩
  | 50 => ⟨S128, .f32⟩
  | 51 => ⟨S128, .f32⟩
  | 52 => ⟨S1x128, .f32⟩
  | 53 => ⟨S50000x128, .f32⟩
  | 54 => ⟨S50000x128, .f32⟩
  | 55 => ⟨S1x128, .f32⟩
  | 56 => ⟨S50000x128, .f32⟩
  | 57 => ⟨S50000x128, .f32⟩
  | 58 => ⟨S1x128, .f32⟩
  | 59 => ⟨S50000x128, .f32⟩
  | 60 => ⟨S50000x128, .f32⟩
  | 61 => ⟨S_, .f32⟩
  | 62 => ⟨S50000x128, .f32⟩
  | 63 => ⟨S50000x128, .f32⟩
  | 64 => ⟨S50000x128, .f32⟩
  | 65 => ⟨S_, .i32⟩
  | 66 => ⟨S800000, .i32⟩
  | 67 => ⟨S800000, .i1⟩
  | 68 => ⟨S_, .i32⟩
  | 69 => ⟨S800000, .i32⟩
  | 70 => ⟨S800000, .i32⟩
  | 71 => ⟨S800000, .i32⟩
  | 72 => ⟨S800000x1, .i32⟩
  | 73 => ⟨S800000x128, .f32⟩
  | 74 => ⟨S_, .f32⟩
  | 75 => ⟨S50000x128, .f32⟩
  | 76 => ⟨S800000x1, .i32⟩
  | 77 => ⟨S50000x128, .f32⟩
  | 78 => ⟨S50000x128, .f32⟩
  | 79 => ⟨S50000x256, .f32⟩
  | 80 => ⟨S1x256, .f32⟩
  | 81 => ⟨S50000x256, .f32⟩
  | 82 => ⟨S50000x256, .f32⟩
  | 83 => ⟨S1x256, .f32⟩
  | 84 => ⟨S50000x256, .f32⟩
  | 85 => ⟨S50000x256, .f32⟩
  | 86 => ⟨S_, .f32⟩
  | 87 => ⟨S256, .f32⟩
  | 88 => ⟨S256, .f32⟩
  | 89 => ⟨S256, .f32⟩
  | 90 => ⟨S1x256, .f32⟩
  | 91 => ⟨S50000x256, .f32⟩
  | 92 => ⟨S50000x256, .f32⟩
  | 93 => ⟨S1x256, .f32⟩
  | 94 => ⟨S50000x256, .f32⟩
  | 95 => ⟨S50000x256, .f32⟩
  | 96 => ⟨S1x256, .f32⟩
  | 97 => ⟨S50000x256, .f32⟩
  | 98 => ⟨S50000x256, .f32⟩
  | 99 => ⟨S_, .f32⟩
  | 100 => ⟨S50000x256, .f32⟩
  | 101 => ⟨S50000x256, .f32⟩
  | 102 => ⟨S50000x256, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S800000x256, .f32⟩
  | 112 => ⟨S_, .f32⟩
  | 113 => ⟨S50000x256, .f32⟩
  | 114 => ⟨S800000x1, .i32⟩
  | 115 => ⟨S50000x256, .f32⟩
  | 116 => ⟨S50000x256, .f32⟩
  | 117 => ⟨S50000x512, .f32⟩
  | 118 => ⟨S1x512, .f32⟩
  | 119 => ⟨S50000x512, .f32⟩
  | 120 => ⟨S50000x512, .f32⟩
  | 121 => ⟨S1x512, .f32⟩
  | 122 => ⟨S50000x512, .f32⟩
  | 123 => ⟨S50000x512, .f32⟩
  | 124 => ⟨S_, .f32⟩
  | 125 => ⟨S512, .f32⟩
  | 126 => ⟨S512, .f32⟩
  | 127 => ⟨S512, .f32⟩
  | _ => ⟨S50000x86, .f32⟩

abbrev hbmTy0_1 (i : Nat) : BufTy := match i % 128 with
  | 0 => ⟨S1x512, .f32⟩
  | 1 => ⟨S50000x512, .f32⟩
  | 2 => ⟨S50000x512, .f32⟩
  | 3 => ⟨S1x512, .f32⟩
  | 4 => ⟨S50000x512, .f32⟩
  | 5 => ⟨S50000x512, .f32⟩
  | 6 => ⟨S1x512, .f32⟩
  | 7 => ⟨S50000x512, .f32⟩
  | 8 => ⟨S50000x512, .f32⟩
  | 9 => ⟨S_, .f32⟩
  | 10 => ⟨S50000x512, .f32⟩
  | 11 => ⟨S50000x512, .f32⟩
  | 12 => ⟨S50000x512, .f32⟩
  | _ => ⟨S50000x86, .f32⟩

abbrev hbmTy (i : Nat) : BufTy := match i / 128 with
  | 0 => hbmTy0_0 i
  | 1 => hbmTy0_1 i
  | _ => ⟨S50000x86, .f32⟩

abbrev bufTy : (tb : Table) → Fin (tcTables nBuf tb) → BufTy
  | .hbm, ⟨i, _⟩ => hbmTy i
  | _, _ => ⟨S50000x86, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_cst_1 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_call0_cst : Ref sig .tc := ⟨.hbm, 61, rfl⟩
abbrev main_call0_v0 : Ref sig .tc := ⟨.hbm, 62, rfl⟩
abbrev main_v34 : Ref sig .tc := ⟨.hbm, 63, rfl⟩
abbrev main_v35 : Ref sig .tc := ⟨.hbm, 64, rfl⟩
abbrev main_c_2 : Ref sig .tc := ⟨.hbm, 65, rfl⟩
abbrev main_v36 : Ref sig .tc := ⟨.hbm, 66, rfl⟩
abbrev main_v37 : Ref sig .tc := ⟨.hbm, 67, rfl⟩
abbrev main_c_3 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_4 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_5 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_call1_cst : Ref sig .tc := ⟨.hbm, 99, rfl⟩
abbrev main_call1_v0 : Ref sig .tc := ⟨.hbm, 100, rfl⟩
abbrev main_v66 : Ref sig .tc := ⟨.hbm, 101, rfl⟩
abbrev main_v67 : Ref sig .tc := ⟨.hbm, 102, rfl⟩
abbrev main_c_6 : Ref sig .tc := ⟨.hbm, 103, rfl⟩
abbrev main_v68 : Ref sig .tc := ⟨.hbm, 104, rfl⟩
abbrev main_v69 : Ref sig .tc := ⟨.hbm, 105, rfl⟩
abbrev main_c_7 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_8 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_cst_9 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_call2_cst : Ref sig .tc := ⟨.hbm, 137, rfl⟩
abbrev main_call2_v0 : Ref sig .tc := ⟨.hbm, 138, rfl⟩
abbrev main_v98 : Ref sig .tc := ⟨.hbm, 139, rfl⟩
abbrev main_v99 : Ref sig .tc := ⟨.hbm, 140, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x86 : S_.BroadcastsInDim S50000x86 (![] : Fin 0 → Fin S50000x86.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  bcast_S_S50000x128 : S_.BroadcastsInDim S50000x128 (![] : Fin 0 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S256 : S_.BroadcastsInDim S256 (![] : Fin 0 → Fin S256.rank)
  bcast_S_S50000x256 : S_.BroadcastsInDim S50000x256 (![] : Fin 0 → Fin S50000x256.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S_S512 : S_.BroadcastsInDim S512 (![] : Fin 0 → Fin S512.rank)
  bcast_S_S50000x512 : S_.BroadcastsInDim S50000x512 (![] : Fin 0 → Fin S50000x512.rank)
  gather_S50000x86_S800000x1_S800000x86_1_0_n_n_0_1_186_wf : GatherDims.WF S50000x86 S800000x1 S800000x86 [1] [0] [] [0] [] 1 ![1, 86]
  scatter_S50000x86_S800000x1_S800000x86_1_0_0_1_wf : ScatterDims.WF S50000x86 S800000x1 S800000x86 [1] [0] [0] 1
  dot_S50000x86_S86x128_S50000x128_1_0_0_1_n_n_wf : DotDims.WF S50000x86 S86x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x512_S50000x512_1_0_0_1_n_n_wf : DotDims.WF S50000x256 S256x512 S50000x512 [1] [0] [0] [1] [] []

variable [Facts₀]

def gather_S50000x86_S800000x1_S800000x86_1_0_n_n_0_1_186 : GatherDims S50000x86 S800000x1 S800000x86 where
  offsetDims := [1]
  collapsedSliceDims := [0]
  operandBatchingDims := []
  startIndicesBatchingDims := []
  startIndexMap := [0]
  indexVectorDim := 1
  sliceSizes := ![1, 86]
  wf := gather_S50000x86_S800000x1_S800000x86_1_0_n_n_0_1_186_wf
def scatter_S50000x86_S800000x1_S800000x86_1_0_0_1 : ScatterDims S50000x86 S800000x1 S800000x86 where
  updateWindowDims := [1]
  insertedWindowDims := [0]
  scatterDimsToOperandDims := [0]
  indexVectorDim := 1
  wf := scatter_S50000x86_S800000x1_S800000x86_1_0_0_1_wf
def dot_S50000x86_S86x128_S50000x128_1_0_0_1_n_n : DotDims S50000x86 S86x128 S50000x128 where
  lhsContracting := [1]
  rhsContracting := [0]
  lhsNonContracting := [0]
  rhsNonContracting := [1]
  lhsBatch := []
  rhsBatch := []
  wf := dot_S50000x86_S86x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x512_S50000x512_1_0_0_1_n_n : DotDims S50000x256 S256x512 S50000x512 where
  lhsContracting := [1]
  rhsContracting := [0]
  lhsNonContracting := [0]
  rhsNonContracting := [1]
  lhsBatch := []
  rhsBatch := []
  wf := dot_S50000x256_S256x512_S50000x512_1_0_0_1_n_n_wf

class Facts : Prop extends Facts₀ where

variable [Facts]
-- ==== Proof.GinRun.lean ====
/-
  The idealized kernel program's run with its RESULT read: every weakly fair execution of the program ends,
  nothing faulting, with the result buffer at what the last stretch of host operations leaves there — the fold
  `W7` of the three regions' write-backs and the host operations between them, read at the result's reference —
  and with the argument arrays as launched. The argument is the frame's own: the launch over the program's
  segments, the last thread state read against the final state; the result's buffer is one more unscoped buffer
  of that state.
-/
import proofs.«178807_j81037442941188_1_alg».proof.Proof.KernelIdealFrameP

set_option maxRecDepth 16384

noncomputable section

namespace Cert.Gin.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_out : θ_run defs (onTc (τ := τ) (main (F := F))) ⟨m, fun _ => 0, ρ⟩ (fun r => ∀ c : Dev nD,
      r.2.mem ((c.tc : Thread nD τ).loc main_v54) = W7 m ρ c (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v54 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c),
       (h c _ (mem_uc main_arg14 (by decide))).trans (W7_main_arg14 m ρ c),
       (h c _ (mem_uc main_arg15 (by decide))).trans (W7_main_arg15 m ρ c),
       (h c _ (mem_uc main_arg16 (by decide))).trans (W7_main_arg16 m ρ c),
       (h c _ (mem_uc main_arg17 (by decide))).trans (W7_main_arg17 m ρ c),
       (h c _ (mem_uc main_arg18 (by decide))).trans (W7_main_arg18 m ρ c),
       (h c _ (mem_uc main_arg19 (by decide))).trans (W7_main_arg19 m ρ c),
       (h c _ (mem_uc main_arg20 (by decide))).trans (W7_main_arg20 m ρ c),
       (h c _ (mem_uc main_arg21 (by decide))).trans (W7_main_arg21 m ρ c),
       (h c _ (mem_uc main_arg22 (by decide))).trans (W7_main_arg22 m ρ c)⟩)

end Cert.Gin.Run

end
-- ==== Proof.GinSpec.lean ====
/-
  The mathematics both programs compute, stated once over the extended reals.

  One layer of the network takes a node-feature array `x : [n, din]`, the array `agg : [n, din]` of summed
  neighbour features, a weight `w : [din, dout]` and five rows `b g be mu s : [1, dout]` (bias, batch-norm
  scale, batch-norm shift, running mean, running variance) and returns the `[n, dout]` array whose entry
  `(r, q)` is
      max ( ((Σ_k (x r k + agg r k) · w k q  +  b q) − mu q) · rsqrt (s q + ε) · g q + be q , 0 ).
  No law of arithmetic is needed to identify the two programs at this function: both apply exactly these
  operations in exactly this order, entry by entry, so nothing here asks for finiteness.
-/
import Idealize.ShloMosaic.PureOps.Ideal
import Idealize.ShloMosaic.Lib.ValueIdx

noncomputable section

namespace Cert.Gin

open Idealize.ShloMosaic Idealize.ShloMosaic.ValueIdx

/-- The batch-norm epsilon: the binary32 word both programs print for `1e-5`, read as its exact value. -/
def epsW : EReal := Ideal.ofBits .f32 0x3727C5AC#32

/-- The zero the rectifier compares against. -/
def zeroW : EReal := Ideal.ofBits .f32 0x00000000#32

/-- One entry of a layer's output from the row `xa` of summed features, the column `wc` of the weight and the
    five per-column scalars. -/
def cell {din : ℕ} (xa wc : Fin din → EReal) (b g be mu s : EReal) : EReal :=
  max (((((∑ k : Fin din, xa k * wc k) + b) - mu) * Ideal.rsqrt (s + epsW)) * g + be) zeroW

/-- A length-`d` vector read as the one row of a `[1, d]` array. -/
def row {d : ℕ} (v : (⟨1, ![d]⟩ : Shape).Idx → EReal) : (⟨2, ![1, d]⟩ : Shape).Idx → EReal :=
  fun j => v (ix1 (j 1))

/-- A whole layer, entry by entry. -/
def layer (n din dout : ℕ) (x agg : (⟨2, ![n, din]⟩ : Shape).Idx → EReal)
    (w : (⟨2, ![din, dout]⟩ : Shape).Idx → EReal)
    (b g be mu s : (⟨2, ![1, dout]⟩ : Shape).Idx → EReal) : (⟨2, ![n, dout]⟩ : Shape).Idx → EReal :=
  fun j => cell (fun k => x (ix2 (j 0) k) + agg (ix2 (j 0) k)) (fun k => w (ix2 k (j 1)))
    (b (ix2 0 (j 1))) (g (ix2 0 (j 1))) (be (ix2 0 (j 1))) (mu (ix2 0 (j 1))) (s (ix2 0 (j 1)))

theorem layer_apply (n din dout : ℕ) (x agg : (⟨2, ![n, din]⟩ : Shape).Idx → EReal)
    (w : (⟨2, ![din, dout]⟩ : Shape).Idx → EReal)
    (b g be mu s : (⟨2, ![1, dout]⟩ : Shape).Idx → EReal) (r : Fin n) (q : Fin dout) :
    layer n din dout x agg w b g be mu s (ix2 r q)
      = cell (fun k => x (ix2 r k) + agg (ix2 r k)) (fun k => w (ix2 k q))
          (b (ix2 0 q)) (g (ix2 0 q)) (be (ix2 0 q)) (mu (ix2 0 q)) (s (ix2 0 q)) := rfl

theorem row_apply {d : ℕ} (v : (⟨1, ![d]⟩ : Shape).Idx → EReal) (q : Fin d) : row v (ix2 0 q) = v (ix1 q) := rfl

end Cert.Gin

end
-- ==== Proof.GinRef.lean ====
/-
  The reference program, read one layer at a time.

  Each of the reference's three layers is a chain of whole-array operations: add the summed neighbour features to
  the node features, contract with the weight, add the bias row, subtract the running mean row, multiply by the
  reciprocal square root of (running variance + ε), multiply by the scale row, add the shift row, and take the
  maximum with zero.  Every one of these acts entry by entry (the contraction: one row against one column), and the
  five rows reach the [n, dout] array through two broadcasts that only ever read column `q` of the vector.  So the
  entry (r, q) of a layer's result is literally `Cert.Gin.cell` of row `r` of (features + neighbour sum), column `q`
  of the weight and entry `q` of each of the five vectors: the same operations in the same order.  No law of
  arithmetic is used; the only work is to say which entry each broadcast and the contraction read.
-/
import proofs.«178807_j81037442941188_1_alg».proof.Proof.Gen.ReferenceIdeal.Read
import proofs.«178807_j81037442941188_1_alg».proof.Proof.GinSpec

noncomputable section

namespace Cert.Gin.Ref

open Cert.ReferenceIdeal Cert.ReferenceIdeal.Read Cert.Gin Idealize.ShloMosaic Idealize.ShloMosaic.ValueIdx

/-- The first layer: the input features `x0` and their neighbour sum (the scatter-add stage, kept as it is), the weight
    `x5`, bias `x6`, scale `x7`, shift `x8`, running mean `x9` and running variance `x10`. -/
theorem layer1 (x0 : (⟨S50000x86, .f32⟩ : BufTy).Contents (Elt Ideal)) (x1 : (⟨S2x800000, .i32⟩ : BufTy).Contents (Elt Ideal)) (x5 : (⟨S86x128, .f32⟩ : BufTy).Contents (Elt Ideal)) (x6 x7 x8 x9 x10 : (⟨S128, .f32⟩ : BufTy).Contents (Elt Ideal)) :
    val_main_v34 (F := Ideal) x0 x1 x5 x6 x7 x8 x9 x10
      = layer 50000 86 128 x0 (val_main_v13 (F := Ideal) x0 x1) x5 (row x6) (row x7) (row x8) (row x9) (row x10) := by
  funext j
  obtain ⟨r, q, rfl⟩ : ∃ (r : Fin 50000) (q : Fin 128), j = ix2 r q := ⟨j 0, j 1, eq_ix2 j⟩
  rw [layer_apply]
  -- the chain of entrywise stages, outermost first, down to the contraction and the five broadcast rows
  rw [val_main_v34_apply, val_main_v33_apply, val_main_v30_apply, val_main_v27_apply, val_main_v21_apply,
    val_main_v18_apply, val_main_v15_apply, val_main_v17_apply, val_main_v16_apply, val_main_v20_apply,
    val_main_v19_apply, val_main_v26_apply, val_main_v25_apply, val_main_v24_apply, val_main_v23_apply,
    val_main_v22_apply, val_main_cst_1_apply, val_main_v29_apply, val_main_v28_apply, val_main_v32_apply,
    val_main_v31_apply, val_main_call0_v0_apply, val_main_call0_cst_apply]
  -- the contraction reads row `r` of the left operand and column `q` of the weight
  have hl : ∀ k : Fin 86, lidx_main_v15 (ix2 r q) k = ix2 r k := fun k =>
    funext fun a => Fin.ext (by match a with | ⟨0, _⟩ => rfl | ⟨1, _⟩ => rfl)
  have hr : ∀ k : Fin 86, ridx_main_v15 (ix2 r q) k = ix2 k q := fun k =>
    funext fun a => Fin.ext (by match a with | ⟨0, _⟩ => rfl | ⟨1, _⟩ => rfl)
  -- each vector reaches entry (r, q) through [d] → [1, d] → [n, d], which reads its entry `q`
  have hb : idx_main_v16 (idx_main_v17 (ix2 r q)) = ix1 q :=
    funext fun a => Fin.ext (by match a with | ⟨0, _⟩ => rfl)
  have hmu : idx_main_v19 (idx_main_v20 (ix2 r q)) = ix1 q :=
    funext fun a => Fin.ext (by match a with | ⟨0, _⟩ => rfl)
  have hs : idx_main_v25 (idx_main_v26 (ix2 r q)) = ix1 q :=
    funext fun a => Fin.ext (by match a with | ⟨0, _⟩ => rfl)
  have hg : idx_main_v28 (idx_main_v29 (ix2 r q)) = ix1 q :=
    funext fun a => Fin.ext (by match a with | ⟨0, _⟩ => rfl)
  have hbe : idx_main_v31 (idx_main_v32 (ix2 r q)) = ix1 q :=
    funext fun a => Fin.ext (by match a with | ⟨0, _⟩ => rfl)
  simp only [hl, hr, hb, hmu, hs, hg, hbe, val_main_v14_apply]
  -- both sides are now the same expression: sum, + bias, − mean, · rsqrt (variance + ε), · scale, + shift, max 0
  rfl

/-- The second layer: its input is the first layer's result plus the array `x2` (one stage, kept folded), its neighbour
    sum the second scatter-add stage; weight `x11`, bias `x12`, scale `x13`, shift `x14`, mean `x15`, variance `x16`. -/
theorem layer2 (x0 : (⟨S50000x86, .f32⟩ : BufTy).Contents (Elt Ideal)) (x1 : (⟨S2x800000, .i32⟩ : BufTy).Contents (Elt Ideal)) (x2 : (⟨S50000x128, .f32⟩ : BufTy).Contents (Elt Ideal)) (x5 : (⟨S86x128, .f32⟩ : BufTy).Contents (Elt Ideal)) (x6 x7 x8 x9 x10 : (⟨S128, .f32⟩ : BufTy).Contents (Elt Ideal)) (x11 : (⟨S128x256, .f32⟩ : BufTy).Contents (Elt Ideal)) (x12 x13 x14 x15 x16 : (⟨S256, .f32⟩ : BufTy).Contents (Elt Ideal)) :
    val_main_v66 (F := Ideal) x0 x1 x2 x5 x6 x7 x8 x9 x10 x11 x12 x13 x14 x15 x16
      = layer 50000 128 256 (val_main_v35 (F := Ideal) x0 x1 x2 x5 x6 x7 x8 x9 x10) (val_main_v45 (F := Ideal) x0 x1 x2 x5 x6 x7 x8 x9 x10) x11 (row x12) (row x13) (row x14) (row x15) (row x16) := by
  funext j
  obtain ⟨r, q, rfl⟩ : ∃ (r : Fin 50000) (q : Fin 256), j = ix2 r q := ⟨j 0, j 1, eq_ix2 j⟩
  rw [layer_apply]
  -- the chain of entrywise stages, outermost first, down to the contraction and the five broadcast rows
  rw [val_main_v66_apply, val_main_v65_apply, val_main_v62_apply, val_main_v59_apply, val_main_v53_apply,
    val_main_v50_apply, val_main_v47_apply, val_main_v49_apply, val_main_v48_apply, val_main_v52_apply,
    val_main_v51_apply, val_main_v58_apply, val_main_v57_apply, val_main_v56_apply, val_main_v55_apply,
    val_main_v54_apply, val_main_cst_5_apply, val_main_v61_apply, val_main_v60_apply, val_main_v64_apply,
    val_main_v63_apply, val_main_call1_v0_apply, val_main_call1_cst_apply]
  -- the contraction reads row `r` of the left operand and column `q` of the weight
  have hl : ∀ k : Fin 128, lidx_main_v47 (ix2 r q) k = ix2 r k := fun k =>
    funext fun a => Fin.ext (by match a with | ⟨0, _⟩ => rfl | ⟨1, _⟩ => rfl)
  have hr : ∀ k : Fin 128, ridx_main_v47 (ix2 r q) k = ix2 k q := fun k =>
    funext fun a => Fin.ext (by match a with | ⟨0, _⟩ => rfl | ⟨1, _⟩ => rfl)
  -- each vector reaches entry (r, q) through [d] → [1, d] → [n, d], which reads its entry `q`
  have hb : idx_main_v48 (idx_main_v49 (ix2 r q)) = ix1 q :=
    funext fun a => Fin.ext (by match a with | ⟨0, _⟩ => rfl)
  have hmu : idx_main_v51 (idx_main_v52 (ix2 r q)) = ix1 q :=
    funext fun a => Fin.ext (by match a with | ⟨0, _⟩ => rfl)
  have hs : idx_main_v57 (idx_main_v58 (ix2 r q)) = ix1 q :=
    funext fun a => Fin.ext (by match a with | ⟨0, _⟩ => rfl)
  have hg : idx_main_v60 (idx_main_v61 (ix2 r q)) = ix1 q :=
    funext fun a => Fin.ext (by match a with | ⟨0, _⟩ => rfl)
  have hbe : idx_main_v63 (idx_main_v64 (ix2 r q)) = ix1 q :=
    funext fun a => Fin.ext (by match a with | ⟨0, _⟩ => rfl)
  simp only [hl, hr, hb, hmu, hs, hg, hbe, val_main_v46_apply]
  -- both sides are now the same expression: sum, + bias, − mean, · rsqrt (variance + ε), · scale, + shift, max 0
  rfl

/-- The third layer: its input is the second layer's result plus the array `x3`, its neighbour sum the third scatter-add
    stage; weight `x17`, bias `x18`, scale `x19`, shift `x20`, mean `x21`, variance `x22`. -/
theorem layer3 (x0 : (⟨S50000x86, .f32⟩ : BufTy).Contents (Elt Ideal)) (x1 : (⟨S2x800000, .i32⟩ : BufTy).Contents (Elt Ideal)) (x2 : (⟨S50000x128, .f32⟩ : BufTy).Contents (Elt Ideal)) (x3 : (⟨S50000x256, .f32⟩ : BufTy).Contents (Elt Ideal)) (x5 : (⟨S86x128, .f32⟩ : BufTy).Contents (Elt Ideal)) (x6 x7 x8 x9 x10 : (⟨S128, .f32⟩ : BufTy).Contents (Elt Ideal)) (x11 : (⟨S128x256, .f32⟩ : BufTy).Contents (Elt Ideal)) (x12 x13 x14 x15 x16 : (⟨S256, .f32⟩ : BufTy).Contents (Elt Ideal)) (x17 : (⟨S256x512, .f32⟩ : BufTy).Contents (Elt Ideal)) (x18 x19 x20 x21 x22 : (⟨S512, .f32⟩ : BufTy).Contents (Elt Ideal)) :
    val_main_v98 (F := Ideal) x0 x1 x2 x3 x5 x6 x7 x8 x9 x10 x11 x12 x13 x14 x15 x16 x17 x18 x19 x20 x21 x22
      = layer 50000 256 512 (val_main_v67 (F := Ideal) x0 x1 x2 x3 x5 x6 x7 x8 x9 x10 x11 x12 x13 x14 x15 x16) (val_main_v77 (F := Ideal) x0 x1 x2 x3 x5 x6 x7 x8 x9 x10 x11 x12 x13 x14 x15 x16) x17 (row x18) (row x19) (row x20) (row x21) (row x22) := by
  funext j
  obtain ⟨r, q, rfl⟩ : ∃ (r : Fin 50000) (q : Fin 512), j = ix2 r q := ⟨j 0, j 1, eq_ix2 j⟩
  rw [layer_apply]
  -- the chain of entrywise stages, outermost first, down to the contraction and the five broadcast rows
  rw [val_main_v98_apply, val_main_v97_apply, val_main_v94_apply, val_main_v91_apply, val_main_v85_apply,
    val_main_v82_apply, val_main_v79_apply, val_main_v81_apply, val_main_v80_apply, val_main_v84_apply,
    val_main_v83_apply, val_main_v90_apply, val_main_v89_apply, val_main_v88_apply, val_main_v87_apply,
    val_main_v86_apply, val_main_cst_9_apply, val_main_v93_apply, val_main_v92_apply, val_main_v96_apply,
    val_main_v95_apply, val_main_call2_v0_apply, val_main_call2_cst_apply]
  -- the contraction reads row `r` of the left operand and column `q` of the weight
  have hl : ∀ k : Fin 256, lidx_main_v79 (ix2 r q) k = ix2 r k := fun k =>
    funext fun a => Fin.ext (by match a with | ⟨0, _⟩ => rfl | ⟨1, _⟩ => rfl)
  have hr : ∀ k : Fin 256, ridx_main_v79 (ix2 r q) k = ix2 k q := fun k =>
    funext fun a => Fin.ext (by match a with | ⟨0, _⟩ => rfl | ⟨1, _⟩ => rfl)
  -- each vector reaches entry (r, q) through [d] → [1, d] → [n, d], which reads its entry `q`
  have hb : idx_main_v80 (idx_main_v81 (ix2 r q)) = ix1 q :=
    funext fun a => Fin.ext (by match a with | ⟨0, _⟩ => rfl)
  have hmu : idx_main_v83 (idx_main_v84 (ix2 r q)) = ix1 q :=
    funext fun a => Fin.ext (by match a with | ⟨0, _⟩ => rfl)
  have hs : idx_main_v89 (idx_main_v90 (ix2 r q)) = ix1 q :=
    funext fun a => Fin.ext (by match a with | ⟨0, _⟩ => rfl)
  have hg : idx_main_v92 (idx_main_v93 (ix2 r q)) = ix1 q :=
    funext fun a => Fin.ext (by match a with | ⟨0, _⟩ => rfl)
  have hbe : idx_main_v95 (idx_main_v96 (ix2 r q)) = ix1 q :=
    funext fun a => Fin.ext (by match a with | ⟨0, _⟩ => rfl)
  simp only [hl, hr, hb, hmu, hs, hg, hbe, val_main_v78_apply]
  -- both sides are now the same expression: sum, + bias, − mean, · rsqrt (variance + ε), · scale, + shift, max 0
  rfl

end Cert.Gin.Ref

end
-- ==== Proof.GinPayload.lean ====
/-
  Each kernel body's stored value, read at one entry of its 1000-row block: it is the layer's entry `cell`
  of the block's rows of the two feature blocks, the weight's column and the five rows.
-/
import proofs.«178807_j81037442941188_1_alg».proof.Proof.Gen.KernelIdeal.Skeleton
import proofs.«178807_j81037442941188_1_alg».proof.Proof.GinSpec
import Idealize.ShloMosaic.PureOps.Ideal.Laws
import Idealize.ShloMosaic.Lib.ValueIdx
import Idealize.ShloMosaic.Lib.ValueLayout
import Idealize.ShloMosaic.Lib.Pipeline.Value

noncomputable section

namespace Cert.Gin.Kern

open Idealize.ShloMosaic Idealize.ShloMosaic.ValueIdx Cert.KernelIdeal Cert.KernelIdeal.Gen Cert.Gin

/-- A product of an `[a, k]` block by a `[k, b]` block into the zero accumulator, read at the entry `(p, q)`:
    the sum over the one contracted axis of the row's entries times the column's. The four hypotheses say where
    the dimension numbers send the result's and the contraction's coordinates. -/
theorem matmul_zero_ix2 {a k b : ℕ} {φ₁ φ₂ : FTy}
    (D : DotDims (⟨2, ![a, k]⟩ : Shape) (⟨2, ![k, b]⟩ : Shape) (⟨2, ![a, b]⟩ : Shape))
    (hr : D.contr.rank = 1) (hs : D.contr.size ⟨0, by omega⟩ = k)
    (hl0 : ∀ (j : (⟨2, ![a, b]⟩ : Shape).Idx) (c : D.contr.Idx), (D.lhsIdx j c ⟨0, Nat.zero_lt_two⟩).val = (j ⟨0, Nat.zero_lt_two⟩).val)
    (hl1 : ∀ (j : (⟨2, ![a, b]⟩ : Shape).Idx) (c : D.contr.Idx), (D.lhsIdx j c ⟨1, Nat.one_lt_two⟩).val = (c ⟨0, by omega⟩).val)
    (hr0 : ∀ (j : (⟨2, ![a, b]⟩ : Shape).Idx) (c : D.contr.Idx), (D.rhsIdx j c ⟨0, Nat.zero_lt_two⟩).val = (c ⟨0, by omega⟩).val)
    (hr1 : ∀ (j : (⟨2, ![a, b]⟩ : Shape).Idx) (c : D.contr.Idx), (D.rhsIdx j c ⟨1, Nat.one_lt_two⟩).val = (j ⟨1, Nat.one_lt_two⟩).val)
    (prec : Option ContractPrecision)
    (lhs : FVec Ideal (⟨2, ![a, k]⟩ : Shape) φ₁) (rhs : FVec Ideal (⟨2, ![k, b]⟩ : Shape) φ₂) (p : Fin a) (q : Fin b) :
    FloatOps.matmul D prec lhs rhs (constant (F := Ideal) (⟨2, ![a, b]⟩ : Shape) .f32 0x00000000#32) (ix2 p q)
      = ∑ κ : Fin k, lhs (ix2 p κ) * rhs (ix2 κ q) := by
  rw [Ideal.matmul_constant_zero_apply, ← Equiv.sum_comp (contrEquiv1 D k hr hs).symm]
  refine Finset.sum_congr rfl fun κ _ => ?_
  have hk := contrEquiv1_symm_val D k hr hs κ
  have el : D.lhsIdx (ix2 p q) ((contrEquiv1 D k hr hs).symm κ) = ix2 p κ := funext fun ax => Fin.ext (by
    match ax with
    | ⟨0, _⟩ => exact hl0 _ _
    | ⟨1, _⟩ => exact (hl1 _ _).trans hk)
  have er : D.rhsIdx (ix2 p q) ((contrEquiv1 D k hr hs).symm κ) = ix2 κ q := funext fun ax => Fin.ext (by
    match ax with
    | ⟨0, _⟩ => exact (hr0 _ _).trans hk
    | ⟨1, _⟩ => exact hr1 _ _)
  rw [el, er]

private theorem dot_S1000x86_S86x128_S1000x128_1_0_0_1_n_n_l0 (j : S1000x128.Idx) (c : dot_S1000x86_S86x128_S1000x128_1_0_0_1_n_n.contr.Idx) :
    (dot_S1000x86_S86x128_S1000x128_1_0_0_1_n_n.lhsIdx j c ⟨0, Nat.zero_lt_two⟩).val = (j ⟨0, Nat.zero_lt_two⟩).val := by
  unfold DotDims.lhsIdx
  rw [dif_neg (show ¬(⟨0, Nat.zero_lt_two⟩ : Fin S1000x86.rank) ∈ dot_S1000x86_S86x128_S1000x128_1_0_0_1_n_n.lhsBatch by decide),
    dif_pos (show (⟨0, Nat.zero_lt_two⟩ : Fin S1000x86.rank) ∈ dot_S1000x86_S86x128_S1000x128_1_0_0_1_n_n.lhsNonContracting by decide)]
  rfl
private theorem dot_S1000x86_S86x128_S1000x128_1_0_0_1_n_n_l1 (j : S1000x128.Idx) (c : dot_S1000x86_S86x128_S1000x128_1_0_0_1_n_n.contr.Idx) :
    (dot_S1000x86_S86x128_S1000x128_1_0_0_1_n_n.lhsIdx j c ⟨1, Nat.one_lt_two⟩).val = (c ⟨0, by decide⟩).val :=
  dot_S1000x86_S86x128_S1000x128_1_0_0_1_n_n.lhsIdx_val_of_single rfl j c
private theorem dot_S1000x86_S86x128_S1000x128_1_0_0_1_n_n_r0 (j : S1000x128.Idx) (c : dot_S1000x86_S86x128_S1000x128_1_0_0_1_n_n.contr.Idx) :
    (dot_S1000x86_S86x128_S1000x128_1_0_0_1_n_n.rhsIdx j c ⟨0, Nat.zero_lt_two⟩).val = (c ⟨0, by decide⟩).val :=
  dot_S1000x86_S86x128_S1000x128_1_0_0_1_n_n.rhsIdx_val_of_single rfl j c
private theorem dot_S1000x86_S86x128_S1000x128_1_0_0_1_n_n_r1 (j : S1000x128.Idx) (c : dot_S1000x86_S86x128_S1000x128_1_0_0_1_n_n.contr.Idx) :
    (dot_S1000x86_S86x128_S1000x128_1_0_0_1_n_n.rhsIdx j c ⟨1, Nat.one_lt_two⟩).val = (j ⟨1, Nat.one_lt_two⟩).val := by
  unfold DotDims.rhsIdx
  rw [dif_neg (show ¬(⟨1, Nat.one_lt_two⟩ : Fin S86x128.rank) ∈ dot_S1000x86_S86x128_S1000x128_1_0_0_1_n_n.rhsBatch by decide),
    dif_pos (show (⟨1, Nat.one_lt_two⟩ : Fin S86x128.rank) ∈ dot_S1000x86_S86x128_S1000x128_1_0_0_1_n_n.rhsNonContracting by decide)]
  rfl

/-- The block product of this layer at an entry: the sum over the 86 contracted positions. -/
theorem mm0 (lhs : FVec Ideal S1000x86 .bf16) (rhs : FVec Ideal S86x128 .bf16) (p : Fin 1000) (q : Fin 128) :
    matmul dot_S1000x86_S86x128_S1000x128_1_0_0_1_n_n none lhs rhs (constant (F := Ideal) S1000x128 .f32 0x00000000#32) (ix2 p q)
      = ∑ κ : Fin 86, lhs (ix2 p κ) * rhs (ix2 κ q) :=
  matmul_zero_ix2 dot_S1000x86_S86x128_S1000x128_1_0_0_1_n_n rfl rfl dot_S1000x86_S86x128_S1000x128_1_0_0_1_n_n_l0 dot_S1000x86_S86x128_S1000x128_1_0_0_1_n_n_l1 dot_S1000x86_S86x128_S1000x128_1_0_0_1_n_n_r0 dot_S1000x86_S86x128_S1000x128_1_0_0_1_n_n_r1 none lhs rhs p q

private theorem dot_S1000x128_S128x256_S1000x256_1_0_0_1_n_n_l0 (j : S1000x256.Idx) (c : dot_S1000x128_S128x256_S1000x256_1_0_0_1_n_n.contr.Idx) :
    (dot_S1000x128_S128x256_S1000x256_1_0_0_1_n_n.lhsIdx j c ⟨0, Nat.zero_lt_two⟩).val = (j ⟨0, Nat.zero_lt_two⟩).val := by
  unfold DotDims.lhsIdx
  rw [dif_neg (show ¬(⟨0, Nat.zero_lt_two⟩ : Fin S1000x128.rank) ∈ dot_S1000x128_S128x256_S1000x256_1_0_0_1_n_n.lhsBatch by decide),
    dif_pos (show (⟨0, Nat.zero_lt_two⟩ : Fin S1000x128.rank) ∈ dot_S1000x128_S128x256_S1000x256_1_0_0_1_n_n.lhsNonContracting by decide)]
  rfl
private theorem dot_S1000x128_S128x256_S1000x256_1_0_0_1_n_n_l1 (j : S1000x256.Idx) (c : dot_S1000x128_S128x256_S1000x256_1_0_0_1_n_n.contr.Idx) :
    (dot_S1000x128_S128x256_S1000x256_1_0_0_1_n_n.lhsIdx j c ⟨1, Nat.one_lt_two⟩).val = (c ⟨0, by decide⟩).val :=
  dot_S1000x128_S128x256_S1000x256_1_0_0_1_n_n.lhsIdx_val_of_single rfl j c
private theorem dot_S1000x128_S128x256_S1000x256_1_0_0_1_n_n_r0 (j : S1000x256.Idx) (c : dot_S1000x128_S128x256_S1000x256_1_0_0_1_n_n.contr.Idx) :
    (dot_S1000x128_S128x256_S1000x256_1_0_0_1_n_n.rhsIdx j c ⟨0, Nat.zero_lt_two⟩).val = (c ⟨0, by decide⟩).val :=
  dot_S1000x128_S128x256_S1000x256_1_0_0_1_n_n.rhsIdx_val_of_single rfl j c
private theorem dot_S1000x128_S128x256_S1000x256_1_0_0_1_n_n_r1 (j : S1000x256.Idx) (c : dot_S1000x128_S128x256_S1000x256_1_0_0_1_n_n.contr.Idx) :
    (dot_S1000x128_S128x256_S1000x256_1_0_0_1_n_n.rhsIdx j c ⟨1, Nat.one_lt_two⟩).val = (j ⟨1, Nat.one_lt_two⟩).val := by
  unfold DotDims.rhsIdx
  rw [dif_neg (show ¬(⟨1, Nat.one_lt_two⟩ : Fin S128x256.rank) ∈ dot_S1000x128_S128x256_S1000x256_1_0_0_1_n_n.rhsBatch by decide),
    dif_pos (show (⟨1, Nat.one_lt_two⟩ : Fin S128x256.rank) ∈ dot_S1000x128_S128x256_S1000x256_1_0_0_1_n_n.rhsNonContracting by decide)]
  rfl

/-- The block product of this layer at an entry: the sum over the 128 contracted positions. -/
theorem mm1 (lhs : FVec Ideal S1000x128 .bf16) (rhs : FVec Ideal S128x256 .bf16) (p : Fin 1000) (q : Fin 256) :
    matmul dot_S1000x128_S128x256_S1000x256_1_0_0_1_n_n none lhs rhs (constant (F := Ideal) S1000x256 .f32 0x00000000#32) (ix2 p q)
      = ∑ κ : Fin 128, lhs (ix2 p κ) * rhs (ix2 κ q) :=
  matmul_zero_ix2 dot_S1000x128_S128x256_S1000x256_1_0_0_1_n_n rfl rfl dot_S1000x128_S128x256_S1000x256_1_0_0_1_n_n_l0 dot_S1000x128_S128x256_S1000x256_1_0_0_1_n_n_l1 dot_S1000x128_S128x256_S1000x256_1_0_0_1_n_n_r0 dot_S1000x128_S128x256_S1000x256_1_0_0_1_n_n_r1 none lhs rhs p q

private theorem dot_S1000x256_S256x512_S1000x512_1_0_0_1_n_n_l0 (j : S1000x512.Idx) (c : dot_S1000x256_S256x512_S1000x512_1_0_0_1_n_n.contr.Idx) :
    (dot_S1000x256_S256x512_S1000x512_1_0_0_1_n_n.lhsIdx j c ⟨0, Nat.zero_lt_two⟩).val = (j ⟨0, Nat.zero_lt_two⟩).val := by
  unfold DotDims.lhsIdx
  rw [dif_neg (show ¬(⟨0, Nat.zero_lt_two⟩ : Fin S1000x256.rank) ∈ dot_S1000x256_S256x512_S1000x512_1_0_0_1_n_n.lhsBatch by decide),
    dif_pos (show (⟨0, Nat.zero_lt_two⟩ : Fin S1000x256.rank) ∈ dot_S1000x256_S256x512_S1000x512_1_0_0_1_n_n.lhsNonContracting by decide)]
  rfl
private theorem dot_S1000x256_S256x512_S1000x512_1_0_0_1_n_n_l1 (j : S1000x512.Idx) (c : dot_S1000x256_S256x512_S1000x512_1_0_0_1_n_n.contr.Idx) :
    (dot_S1000x256_S256x512_S1000x512_1_0_0_1_n_n.lhsIdx j c ⟨1, Nat.one_lt_two⟩).val = (c ⟨0, by decide⟩).val :=
  dot_S1000x256_S256x512_S1000x512_1_0_0_1_n_n.lhsIdx_val_of_single rfl j c
private theorem dot_S1000x256_S256x512_S1000x512_1_0_0_1_n_n_r0 (j : S1000x512.Idx) (c : dot_S1000x256_S256x512_S1000x512_1_0_0_1_n_n.contr.Idx) :
    (dot_S1000x256_S256x512_S1000x512_1_0_0_1_n_n.rhsIdx j c ⟨0, Nat.zero_lt_two⟩).val = (c ⟨0, by decide⟩).val :=
  dot_S1000x256_S256x512_S1000x512_1_0_0_1_n_n.rhsIdx_val_of_single rfl j c
private theorem dot_S1000x256_S256x512_S1000x512_1_0_0_1_n_n_r1 (j : S1000x512.Idx) (c : dot_S1000x256_S256x512_S1000x512_1_0_0_1_n_n.contr.Idx) :
    (dot_S1000x256_S256x512_S1000x512_1_0_0_1_n_n.rhsIdx j c ⟨1, Nat.one_lt_two⟩).val = (j ⟨1, Nat.one_lt_two⟩).val := by
  unfold DotDims.rhsIdx
  rw [dif_neg (show ¬(⟨1, Nat.one_lt_two⟩ : Fin S256x512.rank) ∈ dot_S1000x256_S256x512_S1000x512_1_0_0_1_n_n.rhsBatch by decide),
    dif_pos (show (⟨1, Nat.one_lt_two⟩ : Fin S256x512.rank) ∈ dot_S1000x256_S256x512_S1000x512_1_0_0_1_n_n.rhsNonContracting by decide)]
  rfl

/-- The block product of this layer at an entry: the sum over the 256 contracted positions. -/
theorem mm2 (lhs : FVec Ideal S1000x256 .bf16) (rhs : FVec Ideal S256x512 .bf16) (p : Fin 1000) (q : Fin 512) :
    matmul dot_S1000x256_S256x512_S1000x512_1_0_0_1_n_n none lhs rhs (constant (F := Ideal) S1000x512 .f32 0x00000000#32) (ix2 p q)
      = ∑ κ : Fin 256, lhs (ix2 p κ) * rhs (ix2 κ q) :=
  matmul_zero_ix2 dot_S1000x256_S256x512_S1000x512_1_0_0_1_n_n rfl rfl dot_S1000x256_S256x512_S1000x512_1_0_0_1_n_n_l0 dot_S1000x256_S256x512_S1000x512_1_0_0_1_n_n_l1 dot_S1000x256_S256x512_S1000x512_1_0_0_1_n_n_r0 dot_S1000x256_S256x512_S1000x512_1_0_0_1_n_n_r1 none lhs rhs p q

theorem pay0_apply (x0 x1 : Vec Ideal S1000x86 .f32) (w : Vec Ideal S86x128 .f32) (b s mu g be : Vec Ideal S1x128 .f32)
    (p : Fin 1000) (q : Fin 128) :
    k0_pay1 (F := Ideal) x0 x1 w b s mu g be (ix2 p q)
      = cell (fun k : Fin 86 => x0 (ix2 p k) + x1 (ix2 p k)) (fun k => w (ix2 k q))
          (b (ix2 0 q)) (g (ix2 0 q)) (be (ix2 0 q)) (mu (ix2 0 q)) (s (ix2 0 q)) := by
  -- the identity shape casts drop out; every remaining operation but the block product and the row broadcasts
  -- acts entry by entry
  unfold k0_pay1
  rw [shapeCast_self x1, shapeCast_self b, shapeCast_self mu, shapeCast_self s, shapeCast_self g, shapeCast_self be]
  rw [maximumf_apply, addf_apply, mulf_apply, mulf_apply, subf_apply, addf_apply]
  -- a `[1, d]` row broadcast over the block's rows reads its one row
  rw [broadcastTo_1b_ab_apply b, broadcastTo_1b_ab_apply mu, broadcastTo_1b_ab_apply g, broadcastTo_1b_ab_apply be,
    broadcastTo_1b_ab_apply (rsqrt _)]
  -- the block product at the entry is the sum over the contracted axis; the narrowing of its operands is the
  -- identity on extended reals, and what is left is `cell` unfolded
  rw [mm0]
  rfl

theorem pay1_apply (x0 x1 : Vec Ideal S1000x128 .f32) (w : Vec Ideal S128x256 .f32) (b s mu g be : Vec Ideal S1x256 .f32)
    (p : Fin 1000) (q : Fin 256) :
    k1_pay1 (F := Ideal) x0 x1 w b s mu g be (ix2 p q)
      = cell (fun k : Fin 128 => x0 (ix2 p k) + x1 (ix2 p k)) (fun k => w (ix2 k q))
          (b (ix2 0 q)) (g (ix2 0 q)) (be (ix2 0 q)) (mu (ix2 0 q)) (s (ix2 0 q)) := by
  -- the identity shape casts drop out; every remaining operation but the block product and the row broadcasts
  -- acts entry by entry
  unfold k1_pay1
  rw [shapeCast_self x0, shapeCast_self x1, shapeCast_self b, shapeCast_self mu, shapeCast_self s, shapeCast_self g, shapeCast_self be]
  rw [maximumf_apply, addf_apply, mulf_apply, mulf_apply, subf_apply, addf_apply]
  -- a `[1, d]` row broadcast over the block's rows reads its one row
  rw [broadcastTo_1b_ab_apply b, broadcastTo_1b_ab_apply mu, broadcastTo_1b_ab_apply g, broadcastTo_1b_ab_apply be,
    broadcastTo_1b_ab_apply (rsqrt _)]
  -- the block product at the entry is the sum over the contracted axis; the narrowing of its operands is the
  -- identity on extended reals, and what is left is `cell` unfolded
  rw [mm1]
  rfl

theorem pay2_apply (x0 x1 : Vec Ideal S1000x256 .f32) (w : Vec Ideal S256x512 .f32) (b s mu g be : Vec Ideal S1x512 .f32)
    (p : Fin 1000) (q : Fin 512) :
    k2_pay1 (F := Ideal) x0 x1 w b s mu g be (ix2 p q)
      = cell (fun k : Fin 256 => x0 (ix2 p k) + x1 (ix2 p k)) (fun k => w (ix2 k q))
          (b (ix2 0 q)) (g (ix2 0 q)) (be (ix2 0 q)) (mu (ix2 0 q)) (s (ix2 0 q)) := by
  -- the identity shape casts drop out; every remaining operation but the block product and the row broadcasts
  -- acts entry by entry
  unfold k2_pay1
  rw [shapeCast_self x0, shapeCast_self x1, shapeCast_self b, shapeCast_self mu, shapeCast_self s, shapeCast_self g, shapeCast_self be]
  rw [maximumf_apply, addf_apply, mulf_apply, mulf_apply, subf_apply, addf_apply]
  -- a `[1, d]` row broadcast over the block's rows reads its one row
  rw [broadcastTo_1b_ab_apply b, broadcastTo_1b_ab_apply mu, broadcastTo_1b_ab_apply g, broadcastTo_1b_ab_apply be,
    broadcastTo_1b_ab_apply (rsqrt _)]
  -- the block product at the entry is the sum over the contracted axis; the narrowing of its operands is the
  -- identity on extended reals, and what is left is `cell` unfolded
  rw [mm2]
  rfl

end Cert.Gin.Kern

end
-- ==== Proof.GinRegion0.lean ====
/-
  The first layer's kernel, from its fifty row blocks to the whole output array.

  The kernel runs over a grid of 50 points. Point t is handed rows 1000·t … 1000·t + 999 of the node features and of the
  summed neighbour features, the whole weight and the five whole rows (bias, scale, shift, mean, variance), and writes
  back rows 1000·t … 1000·t + 999 of the output. Entry (p, q) of what point t writes is the layer's entry function
  of row p of the two feature blocks, column q of the weight and entry q of each of the five rows. Row p of point t's
  feature block is row 1000·t + p of the feature array, and the weight's and the rows' blocks are their arrays, so what
  point t writes is its block of the layer of the arrays as the kernel finds them. Row r of the output lies in
  the block of point r / 1000: the fifty blocks cover the output, which therefore ends holding the layer of those arrays.
-/
import proofs.«178807_j81037442941188_1_alg».proof.Proof.KernelIdealFrameP
import proofs.«178807_j81037442941188_1_alg».proof.Proof.GinSpec
import proofs.«178807_j81037442941188_1_alg».proof.Proof.GinPayload
import Idealize.ShloMosaic.Lib.Pipeline.Value
import Idealize.ShloMosaic.Lib.ValueIdx

noncomputable section

namespace Cert.Gin.Kern

open Cert.KernelIdeal Cert.KernelIdeal.Gen Cert.Gin
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a load or store of a whole block. -/
theorem zeros0 : (![0, 0] : Fin 2 → Nat) = fun _ => 0 := funext fun a => by fin_cases a <;> rfl

/-- Two entries of the layer agree when their ingredients agree one by one. -/
theorem cell_congr0 {din : ℕ} {xa xa' wc wc' : Fin din → EReal} {b b' g g' be be' mu mu' s s' : EReal}
    (hx : ∀ k, xa k = xa' k) (hw : ∀ k, wc k = wc' k) (hb : b = b') (hg : g = g') (hbe : be = be')
    (hmu : mu = mu') (hs : s = s') : cell xa wc b g be mu s = cell xa' wc' b' g' be' mu' s' := by
  obtain rfl : xa = xa' := funext hx
  obtain rfl : wc = wc' := funext hw
  subst hb hg hbe hmu hs
  rfl

/-- The block indices of the row-blocked windows (the two feature arrays and the output): point t's block is row
    block t, column block 0. -/
theorem rowBlocks0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_8.index t (0 : Fin 2) = t.val ∧ win0_8.index t (1 : Fin 2) = 0 :=
  (by decide +kernel : ∀ t : Fin grid0.N, _)

/-- The block indices of the weight and of the five rows: every point's block is block (0, 0), the whole array. -/
theorem wholeBlocks0 : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- Row p of point t's block of the node features is row 1000·t + p of the array. -/
theorem feat0_apply (c : Dev nD) (t : Fin cfg0.N) (p : Fin 1000) (k : Fin 86) (r : Fin 50000)
    (hr : r.val = t.val * 1000 + p.val) :
    (iblk0 (F := Ideal) V c 0 t : Vec Ideal S1000x86 .f32) (ix2 p k) = (V c main_arg0 : S50000x86.Idx → EReal) (ix2 r k) := by
  obtain ⟨a0, a1, b0, b1, o0, o1⟩ := rowBlocks0 t
  unfold iblk0
  rw [View.read_apply]
  show V c main_arg0 _ = V c main_arg0 _
  refine congrArg (V c main_arg0) ?_
  funext a
  apply Fin.ext
  match a with
  | ⟨0, _⟩ => show win0_0.index t (0 : Fin 2) * 1000 + 1 * p.val = r.val; omega
  | ⟨1, _⟩ => show win0_0.index t (1 : Fin 2) * 86 + 1 * k.val = k.val; omega

/-- Row p of point t's block of the summed neighbour features is row 1000·t + p of the array. -/
theorem agg0_apply (c : Dev nD) (t : Fin cfg0.N) (p : Fin 1000) (k : Fin 86) (r : Fin 50000)
    (hr : r.val = t.val * 1000 + p.val) :
    (iblk0 (F := Ideal) V c 1 t : Vec Ideal S1000x86 .f32) (ix2 p k) = (V c main_v13 : S50000x86.Idx → EReal) (ix2 r k) := by
  obtain ⟨a0, a1, b0, b1, o0, o1⟩ := rowBlocks0 t
  unfold iblk0
  rw [View.read_apply]
  show V c main_v13 _ = V c main_v13 _
  refine congrArg (V c main_v13) ?_
  funext a
  apply Fin.ext
  match a with
  | ⟨0, _⟩ => show win0_1.index t (0 : Fin 2) * 1000 + 1 * p.val = r.val; omega
  | ⟨1, _⟩ => show win0_1.index t (1 : Fin 2) * 86 + 1 * k.val = k.val; omega

/-- Every point's block of the weight is the weight. -/
theorem weight0_apply (c : Dev nD) (t : Fin cfg0.N) (x : S86x128.Idx) :
    (iblk0 (F := Ideal) V c 2 t : Vec Ideal S86x128 .f32) x = (V c main_arg5 : S86x128.Idx → EReal) x := by
  obtain ⟨w0, w1, b0, b1, g0, g1, be0, be1, mu0, mu1, s0, s1⟩ := wholeBlocks0 t
  unfold iblk0
  rw [View.read_apply]
  show V c main_arg5 _ = V c main_arg5 _
  refine congrArg (V c main_arg5) ?_
  funext a
  apply Fin.ext
  match a with
  | ⟨0, _⟩ => show win0_2.index t (0 : Fin 2) * 86 + 1 * (x 0).val = (x 0).val; omega
  | ⟨1, _⟩ => show win0_2.index t (1 : Fin 2) * 128 + 1 * (x 1).val = (x 1).val; omega

/-- Every point's block of the bias row is the row. -/
theorem bias0_apply (c : Dev nD) (t : Fin cfg0.N) (x : S1x128.Idx) :
    (iblk0 (F := Ideal) V c 3 t : Vec Ideal S1x128 .f32) x = (V c main_v14 : S1x128.Idx → EReal) x := by
  obtain ⟨w0, w1, b0, b1, g0, g1, be0, be1, mu0, mu1, s0, s1⟩ := wholeBlocks0 t
  unfold iblk0
  rw [View.read_apply]
  show V c main_v14 _ = V c main_v14 _
  refine congrArg (V c main_v14) ?_
  funext a
  apply Fin.ext
  match a with
  | ⟨0, _⟩ => show win0_3.index t (0 : Fin 2) * 1 + 1 * (x 0).val = (x 0).val; omega
  | ⟨1, _⟩ => show win0_3.index t (1 : Fin 2) * 128 + 1 * (x 1).val = (x 1).val; omega

/-- Every point's block of the batch-norm scale row is the row. -/
theorem scale0_apply (c : Dev nD) (t : Fin cfg0.N) (x : S1x128.Idx) :
    (iblk0 (F := Ideal) V c 4 t : Vec Ideal S1x128 .f32) x = (V c main_v15 : S1x128.Idx → EReal) x := by
  obtain ⟨w0, w1, b0, b1, g0, g1, be0, be1, mu0, mu1, s0, s1⟩ := wholeBlocks0 t
  unfold iblk0
  rw [View.read_apply]
  show V c main_v15 _ = V c main_v15 _
  refine congrArg (V c main_v15) ?_
  funext a
  apply Fin.ext
  match a with
  | ⟨0, _⟩ => show win0_4.index t (0 : Fin 2) * 1 + 1 * (x 0).val = (x 0).val; omega
  | ⟨1, _⟩ => show win0_4.index t (1 : Fin 2) * 128 + 1 * (x 1).val = (x 1).val; omega

/-- Every point's block of the batch-norm shift row is the row. -/
theorem shift0_apply (c : Dev nD) (t : Fin cfg0.N) (x : S1x128.Idx) :
    (iblk0 (F := Ideal) V c 5 t : Vec Ideal S1x128 .f32) x = (V c main_v16 : S1x128.Idx → EReal) x := by
  obtain ⟨w0, w1, b0, b1, g0, g1, be0, be1, mu0, mu1, s0, s1⟩ := wholeBlocks0 t
  unfold iblk0
  rw [View.read_apply]
  show V c main_v16 _ = V c main_v16 _
  refine congrArg (V c main_v16) ?_
  funext a
  apply Fin.ext
  match a with
  | ⟨0, _⟩ => show win0_5.index t (0 : Fin 2) * 1 + 1 * (x 0).val = (x 0).val; omega
  | ⟨1, _⟩ => show win0_5.index t (1 : Fin 2) * 128 + 1 * (x 1).val = (x 1).val; omega

/-- Every point's block of the running-mean row is the row. -/
theorem mean0_apply (c : Dev nD) (t : Fin cfg0.N) (x : S1x128.Idx) :
    (iblk0 (F := Ideal) V c 6 t : Vec Ideal S1x128 .f32) x = (V c main_v17 : S1x128.Idx → EReal) x := by
  obtain ⟨w0, w1, b0, b1, g0, g1, be0, be1, mu0, mu1, s0, s1⟩ := wholeBlocks0 t
  unfold iblk0
  rw [View.read_apply]
  show V c main_v17 _ = V c main_v17 _
  refine congrArg (V c main_v17) ?_
  funext a
  apply Fin.ext
  match a with
  | ⟨0, _⟩ => show win0_6.index t (0 : Fin 2) * 1 + 1 * (x 0).val = (x 0).val; omega
  | ⟨1, _⟩ => show win0_6.index t (1 : Fin 2) * 128 + 1 * (x 1).val = (x 1).val; omega

/-- Every point's block of the running-variance row is the row. -/
theorem var0_apply (c : Dev nD) (t : Fin cfg0.N) (x : S1x128.Idx) :
    (iblk0 (F := Ideal) V c 7 t : Vec Ideal S1x128 .f32) x = (V c main_v18 : S1x128.Idx → EReal) x := by
  obtain ⟨w0, w1, b0, b1, g0, g1, be0, be1, mu0, mu1, s0, s1⟩ := wholeBlocks0 t
  unfold iblk0
  rw [View.read_apply]
  show V c main_v18 _ = V c main_v18 _
  refine congrArg (V c main_v18) ?_
  funext a
  apply Fin.ext
  match a with
  | ⟨0, _⟩ => show win0_7.index t (0 : Fin 2) * 1 + 1 * (x 0).val = (x 0).val; omega
  | ⟨1, _⟩ => show win0_7.index t (1 : Fin 2) * 128 + 1 * (x 1).val = (x 1).val; omega

/-- What point t writes back is its block (rows 1000·t … 1000·t + 999) of the layer of the arrays. -/
theorem flushed0_eq (c : Dev nD) (t : Fin cfg0.N) :
    (dat0 (F := Ideal) V c).flushed 8 t
      = ((cfg0.win 8).blk t).view.read (Elt Ideal)
          (layer 50000 86 128 (V c main_arg0) (V c main_v13) (V c main_arg5) (V c main_v14) (V c main_v15)
            (V c main_v16) (V c main_v17) (V c main_v18)) := by
  show (cfg0.win 8).cut (grid0.coords t) ((dat0 V c).after 8 t) = _
  rw [after0_8]
  unfold out0_8
  rw [View.canon_unit_zero zeros0]
  simp only [View.ld_unit_zero (S := S1000x86) zeros0, View.ld_unit_zero (S := S86x128) zeros0,
    View.ld_unit_zero (S := S1x128) zeros0]
  funext y
  obtain ⟨p, q, rfl⟩ : ∃ (p : Fin 1000) (q : Fin 128), y = ix2 p q := ⟨y 0, y 1, eq_ix2 y⟩
  obtain ⟨a0, a1, b0, b1, o0, o1⟩ := rowBlocks0 t
  have ht : t.val < 50 := Nat.lt_of_lt_of_eq t.isLt N_0
  obtain ⟨r, hr⟩ : ∃ r : Fin 50000, r.val = t.val * 1000 + p.val := ⟨⟨t.val * 1000 + p.val, by omega⟩, rfl⟩
  have hemb : ((cfg0.win 8).blk t).view.emb (ix2 p q : S1000x128.Idx) = (ix2 r q : S50000x128.Idx) := by
    funext a
    apply Fin.ext
    match a with
    | ⟨0, _⟩ => show win0_8.index t (0 : Fin 2) * 1000 + 1 * p.val = r.val; omega
    | ⟨1, _⟩ => show win0_8.index t (1 : Fin 2) * 128 + 1 * q.val = q.val; omega
  rw [View.read_apply]
  refine (pay0_apply (iblk0 V c 0 t) (iblk0 V c 1 t) (iblk0 V c 2 t) (iblk0 V c 3 t) (iblk0 V c 7 t) (iblk0 V c 6 t)
    (iblk0 V c 4 t) (iblk0 V c 5 t) p q).trans ?_
  refine Eq.trans ?_ (congrArg (layer 50000 86 128 (V c main_arg0) (V c main_v13) (V c main_arg5) (V c main_v14)
    (V c main_v15) (V c main_v16) (V c main_v17) (V c main_v18)) hemb.symm)
  rw [layer_apply]
  refine cell_congr0 (fun k => ?_) (fun k => ?_) ?_ ?_ ?_ ?_ ?_
  · rw [feat0_apply V c t p k r hr, agg0_apply V c t p k r hr]
  · exact weight0_apply V c t (ix2 k q)
  · exact bias0_apply V c t (ix2 0 q)
  · exact scale0_apply V c t (ix2 0 q)
  · exact shift0_apply V c t (ix2 0 q)
  · exact mean0_apply V c t (ix2 0 q)
  · exact var0_apply V c t (ix2 0 q)

/-- A row-and-column index of the output lies in point t's block exactly when its row is among the block's 1000 rows
    (and its column among all 128). -/
theorem mem_blk0 (t : Fin cfg0.N) (i : S50000x128.Idx) :
    i ∈ ((cfg0.win 8).blk t).view.set ↔ ∀ a : Fin 2, win0_8.index t a * S1000x128.size a ≤ (i a).val
      ∧ (i a).val < win0_8.index t a * S1000x128.size a + S1000x128.size a := by
  show i ∈ ((View.whole main_v19).slice (win0_8.rect t)).set ↔ _
  rw [View.set_slice_whole, Rect.mem_set_unit]
  exact Iff.rfl

/-- Every entry of the output is written back by some point: row r by point r / 1000. -/
theorem cover0 (i : S50000x128.Idx) :
    ∃ t : Fin cfg0.N, (cfg0.win 8).flush t = true ∧ i ∈ ((cfg0.win 8).blk t).view.set := by
  have hi0 : (i 0).val < 50000 := (i 0).isLt
  have hi1 : (i 1).val < 128 := (i 1).isLt
  obtain ⟨t, ht⟩ : ∃ t : Fin cfg0.N, t.val = (i 0).val / 1000 :=
    ⟨⟨(i 0).val / 1000, Nat.lt_of_lt_of_eq (by omega : (i 0).val / 1000 < 50) N_0.symm⟩, rfl⟩
  obtain ⟨a0, a1, b0, b1, o0, o1⟩ := rowBlocks0 t
  refine ⟨t, flush0_8 t, ?_⟩
  rw [mem_blk0]
  intro a
  match a with
  | ⟨0, _⟩ =>
    show win0_8.index t (0 : Fin 2) * 1000 ≤ (i 0).val ∧ (i 0).val < win0_8.index t (0 : Fin 2) * 1000 + 1000
    omega
  | ⟨1, _⟩ =>
    show win0_8.index t (1 : Fin 2) * 128 ≤ (i 1).val ∧ (i 1).val < win0_8.index t (1 : Fin 2) * 128 + 128
    omega

/-- The first layer's output array after the kernel has run: the layer of the arrays as the kernel finds them. -/
theorem region0_out (c : Dev nD) :
    (dat0 (F := Ideal) V c).arrAt 8 cfg0.N
      = layer 50000 86 128 (V c main_arg0) (V c main_v13) (V c main_arg5) (V c main_v14) (V c main_v15)
          (V c main_v16) (V c main_v17) (V c main_v18) :=
  (dat0 (F := Ideal) V c).arrAt_eq_of_cover 8
    (layer 50000 86 128 (V c main_arg0) (V c main_v13) (V c main_arg5) (V c main_v14) (V c main_v15)
      (V c main_v16) (V c main_v17) (V c main_v18))
    (fun t _ => flushed0_eq V c t) cover0

end Cert.Gin.Kern

end
-- ==== Proof.GinRegion1.lean ====
/-
  The second layer's kernel, from its fifty row blocks to the whole output array.

  The kernel runs over a grid of 50 points. Point t is handed rows 1000·t … 1000·t + 999 of the node features and of the
  summed neighbour features, the whole weight and the five whole rows (bias, scale, shift, mean, variance), and writes
  back rows 1000·t … 1000·t + 999 of the output. Entry (p, q) of what point t writes is the layer's entry function
  of row p of the two feature blocks, column q of the weight and entry q of each of the five rows. Row p of point t's
  feature block is row 1000·t + p of the feature array, and the weight's and the rows' blocks are their arrays, so what
  point t writes is its block of the layer of the arrays as the kernel finds them. Row r of the output lies in
  the block of point r / 1000: the fifty blocks cover the output, which therefore ends holding the layer of those arrays.
-/
import proofs.«178807_j81037442941188_1_alg».proof.Proof.KernelIdealFrameP
import proofs.«178807_j81037442941188_1_alg».proof.Proof.GinSpec
import proofs.«178807_j81037442941188_1_alg».proof.Proof.GinPayload
import Idealize.ShloMosaic.Lib.Pipeline.Value
import Idealize.ShloMosaic.Lib.ValueIdx

noncomputable section

namespace Cert.Gin.Kern

open Cert.KernelIdeal Cert.KernelIdeal.Gen Cert.Gin
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a load or store of a whole block. -/
theorem zeros1 : (![0, 0] : Fin 2 → Nat) = fun _ => 0 := funext fun a => by fin_cases a <;> rfl

/-- Two entries of the layer agree when their ingredients agree one by one. -/
theorem cell_congr1 {din : ℕ} {xa xa' wc wc' : Fin din → EReal} {b b' g g' be be' mu mu' s s' : EReal}
    (hx : ∀ k, xa k = xa' k) (hw : ∀ k, wc k = wc' k) (hb : b = b') (hg : g = g') (hbe : be = be')
    (hmu : mu = mu') (hs : s = s') : cell xa wc b g be mu s = cell xa' wc' b' g' be' mu' s' := by
  obtain rfl : xa = xa' := funext hx
  obtain rfl : wc = wc' := funext hw
  subst hb hg hbe hmu hs
  rfl

/-- The block indices of the row-blocked windows (the two feature arrays and the output): point t's block is row
    block t, column block 0. -/
theorem rowBlocks1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_8.index t (0 : Fin 2) = t.val ∧ win1_8.index t (1 : Fin 2) = 0 :=
  (by decide +kernel : ∀ t : Fin grid1.N, _)

/-- The block indices of the weight and of the five rows: every point's block is block (0, 0), the whole array. -/
theorem wholeBlocks1 : ∀ t : Fin cfg1.N,
    win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0 :=
  (by decide +kernel : ∀ t : Fin grid1.N, _)

/-- Row p of point t's block of the node features is row 1000·t + p of the array. -/
theorem feat1_apply (c : Dev nD) (t : Fin cfg1.N) (p : Fin 1000) (k : Fin 128) (r : Fin 50000)
    (hr : r.val = t.val * 1000 + p.val) :
    (iblk1 (F := Ideal) V c 0 t : Vec Ideal S1000x128 .f32) (ix2 p k) = (V c main_v20 : S50000x128.Idx → EReal) (ix2 r k) := by
  obtain ⟨a0, a1, b0, b1, o0, o1⟩ := rowBlocks1 t
  unfold iblk1
  rw [View.read_apply]
  show V c main_v20 _ = V c main_v20 _
  refine congrArg (V c main_v20) ?_
  funext a
  apply Fin.ext
  match a with
  | ⟨0, _⟩ => show win1_0.index t (0 : Fin 2) * 1000 + 1 * p.val = r.val; omega
  | ⟨1, _⟩ => show win1_0.index t (1 : Fin 2) * 128 + 1 * k.val = k.val; omega

/-- Row p of point t's block of the summed neighbour features is row 1000·t + p of the array. -/
theorem agg1_apply (c : Dev nD) (t : Fin cfg1.N) (p : Fin 1000) (k : Fin 128) (r : Fin 50000)
    (hr : r.val = t.val * 1000 + p.val) :
    (iblk1 (F := Ideal) V c 1 t : Vec Ideal S1000x128 .f32) (ix2 p k) = (V c main_v30 : S50000x128.Idx → EReal) (ix2 r k) := by
  obtain ⟨a0, a1, b0, b1, o0, o1⟩ := rowBlocks1 t
  unfold iblk1
  rw [View.read_apply]
  show V c main_v30 _ = V c main_v30 _
  refine congrArg (V c main_v30) ?_
  funext a
  apply Fin.ext
  match a with
  | ⟨0, _⟩ => show win1_1.index t (0 : Fin 2) * 1000 + 1 * p.val = r.val; omega
  | ⟨1, _⟩ => show win1_1.index t (1 : Fin 2) * 128 + 1 * k.val = k.val; omega

/-- Every point's block of the weight is the weight. -/
theorem weight1_apply (c : Dev nD) (t : Fin cfg1.N) (x : S128x256.Idx) :
    (iblk1 (F := Ideal) V c 2 t : Vec Ideal S128x256 .f32) x = (V c main_arg11 : S128x256.Idx → EReal) x := by
  obtain ⟨w0, w1, b0, b1, g0, g1, be0, be1, mu0, mu1, s0, s1⟩ := wholeBlocks1 t
  unfold iblk1
  rw [View.read_apply]
  show V c main_arg11 _ = V c main_arg11 _
  refine congrArg (V c main_arg11) ?_
  funext a
  apply Fin.ext
  match a with
  | ⟨0, _⟩ => show win1_2.index t (0 : Fin 2) * 128 + 1 * (x 0).val = (x 0).val; omega
  | ⟨1, _⟩ => show win1_2.index t (1 : Fin 2) * 256 + 1 * (x 1).val = (x 1).val; omega

/-- Every point's block of the bias row is the row. -/
theorem bias1_apply (c : Dev nD) (t : Fin cfg1.N) (x : S1x256.Idx) :
    (iblk1 (F := Ideal) V c 3 t : Vec Ideal S1x256 .f32) x = (V c main_v31 : S1x256.Idx → EReal) x := by
  obtain ⟨w0, w1, b0, b1, g0, g1, be0, be1, mu0, mu1, s0, s1⟩ := wholeBlocks1 t
  unfold iblk1
  rw [View.read_apply]
  show V c main_v31 _ = V c main_v31 _
  refine congrArg (V c main_v31) ?_
  funext a
  apply Fin.ext
  match a with
  | ⟨0, _⟩ => show win1_3.index t (0 : Fin 2) * 1 + 1 * (x 0).val = (x 0).val; omega
  | ⟨1, _⟩ => show win1_3.index t (1 : Fin 2) * 256 + 1 * (x 1).val = (x 1).val; omega

/-- Every point's block of the batch-norm scale row is the row. -/
theorem scale1_apply (c : Dev nD) (t : Fin cfg1.N) (x : S1x256.Idx) :
    (iblk1 (F := Ideal) V c 4 t : Vec Ideal S1x256 .f32) x = (V c main_v32 : S1x256.Idx → EReal) x := by
  obtain ⟨w0, w1, b0, b1, g0, g1, be0, be1, mu0, mu1, s0, s1⟩ := wholeBlocks1 t
  unfold iblk1
  rw [View.read_apply]
  show V c main_v32 _ = V c main_v32 _
  refine congrArg (V c main_v32) ?_
  funext a
  apply Fin.ext
  match a with
  | ⟨0, _⟩ => show win1_4.index t (0 : Fin 2) * 1 + 1 * (x 0).val = (x 0).val; omega
  | ⟨1, _⟩ => show win1_4.index t (1 : Fin 2) * 256 + 1 * (x 1).val = (x 1).val; omega

/-- Every point's block of the batch-norm shift row is the row. -/
theorem shift1_apply (c : Dev nD) (t : Fin cfg1.N) (x : S1x256.Idx) :
    (iblk1 (F := Ideal) V c 5 t : Vec Ideal S1x256 .f32) x = (V c main_v33 : S1x256.Idx → EReal) x := by
  obtain ⟨w0, w1, b0, b1, g0, g1, be0, be1, mu0, mu1, s0, s1⟩ := wholeBlocks1 t
  unfold iblk1
  rw [View.read_apply]
  show V c main_v33 _ = V c main_v33 _
  refine congrArg (V c main_v33) ?_
  funext a
  apply Fin.ext
  match a with
  | ⟨0, _⟩ => show win1_5.index t (0 : Fin 2) * 1 + 1 * (x 0).val = (x 0).val; omega
  | ⟨1, _⟩ => show win1_5.index t (1 : Fin 2) * 256 + 1 * (x 1).val = (x 1).val; omega

/-- Every point's block of the running-mean row is the row. -/
theorem mean1_apply (c : Dev nD) (t : Fin cfg1.N) (x : S1x256.Idx) :
    (iblk1 (F := Ideal) V c 6 t : Vec Ideal S1x256 .f32) x = (V c main_v34 : S1x256.Idx → EReal) x := by
  obtain ⟨w0, w1, b0, b1, g0, g1, be0, be1, mu0, mu1, s0, s1⟩ := wholeBlocks1 t
  unfold iblk1
  rw [View.read_apply]
  show V c main_v34 _ = V c main_v34 _
  refine congrArg (V c main_v34) ?_
  funext a
  apply Fin.ext
  match a with
  | ⟨0, _⟩ => show win1_6.index t (0 : Fin 2) * 1 + 1 * (x 0).val = (x 0).val; omega
  | ⟨1, _⟩ => show win1_6.index t (1 : Fin 2) * 256 + 1 * (x 1).val = (x 1).val; omega

/-- Every point's block of the running-variance row is the row. -/
theorem var1_apply (c : Dev nD) (t : Fin cfg1.N) (x : S1x256.Idx) :
    (iblk1 (F := Ideal) V c 7 t : Vec Ideal S1x256 .f32) x = (V c main_v35 : S1x256.Idx → EReal) x := by
  obtain ⟨w0, w1, b0, b1, g0, g1, be0, be1, mu0, mu1, s0, s1⟩ := wholeBlocks1 t
  unfold iblk1
  rw [View.read_apply]
  show V c main_v35 _ = V c main_v35 _
  refine congrArg (V c main_v35) ?_
  funext a
  apply Fin.ext
  match a with
  | ⟨0, _⟩ => show win1_7.index t (0 : Fin 2) * 1 + 1 * (x 0).val = (x 0).val; omega
  | ⟨1, _⟩ => show win1_7.index t (1 : Fin 2) * 256 + 1 * (x 1).val = (x 1).val; omega

/-- What point t writes back is its block (rows 1000·t … 1000·t + 999) of the layer of the arrays. -/
theorem flushed1_eq (c : Dev nD) (t : Fin cfg1.N) :
    (dat1 (F := Ideal) V c).flushed 8 t
      = ((cfg1.win 8).blk t).view.read (Elt Ideal)
          (layer 50000 128 256 (V c main_v20) (V c main_v30) (V c main_arg11) (V c main_v31) (V c main_v32)
            (V c main_v33) (V c main_v34) (V c main_v35)) := by
  show (cfg1.win 8).cut (grid1.coords t) ((dat1 V c).after 8 t) = _
  rw [after1_8]
  unfold out1_8
  rw [View.canon_unit_zero zeros1]
  simp only [View.ld_unit_zero (S := S1000x128) zeros1, View.ld_unit_zero (S := S128x256) zeros1,
    View.ld_unit_zero (S := S1x256) zeros1]
  funext y
  obtain ⟨p, q, rfl⟩ : ∃ (p : Fin 1000) (q : Fin 256), y = ix2 p q := ⟨y 0, y 1, eq_ix2 y⟩
  obtain ⟨a0, a1, b0, b1, o0, o1⟩ := rowBlocks1 t
  have ht : t.val < 50 := Nat.lt_of_lt_of_eq t.isLt N_1
  obtain ⟨r, hr⟩ : ∃ r : Fin 50000, r.val = t.val * 1000 + p.val := ⟨⟨t.val * 1000 + p.val, by omega⟩, rfl⟩
  have hemb : ((cfg1.win 8).blk t).view.emb (ix2 p q : S1000x256.Idx) = (ix2 r q : S50000x256.Idx) := by
    funext a
    apply Fin.ext
    match a with
    | ⟨0, _⟩ => show win1_8.index t (0 : Fin 2) * 1000 + 1 * p.val = r.val; omega
    | ⟨1, _⟩ => show win1_8.index t (1 : Fin 2) * 256 + 1 * q.val = q.val; omega
  rw [View.read_apply]
  refine (pay1_apply (iblk1 V c 0 t) (iblk1 V c 1 t) (iblk1 V c 2 t) (iblk1 V c 3 t) (iblk1 V c 7 t) (iblk1 V c 6 t)
    (iblk1 V c 4 t) (iblk1 V c 5 t) p q).trans ?_
  refine Eq.trans ?_ (congrArg (layer 50000 128 256 (V c main_v20) (V c main_v30) (V c main_arg11) (V c main_v31)
    (V c main_v32) (V c main_v33) (V c main_v34) (V c main_v35)) hemb.symm)
  rw [layer_apply]
  refine cell_congr1 (fun k => ?_) (fun k => ?_) ?_ ?_ ?_ ?_ ?_
  · rw [feat1_apply V c t p k r hr, agg1_apply V c t p k r hr]
  · exact weight1_apply V c t (ix2 k q)
  · exact bias1_apply V c t (ix2 0 q)
  · exact scale1_apply V c t (ix2 0 q)
  · exact shift1_apply V c t (ix2 0 q)
  · exact mean1_apply V c t (ix2 0 q)
  · exact var1_apply V c t (ix2 0 q)

/-- A row-and-column index of the output lies in point t's block exactly when its row is among the block's 1000 rows
    (and its column among all 256). -/
theorem mem_blk1 (t : Fin cfg1.N) (i : S50000x256.Idx) :
    i ∈ ((cfg1.win 8).blk t).view.set ↔ ∀ a : Fin 2, win1_8.index t a * S1000x256.size a ≤ (i a).val
      ∧ (i a).val < win1_8.index t a * S1000x256.size a + S1000x256.size a := by
  show i ∈ ((View.whole main_v36).slice (win1_8.rect t)).set ↔ _
  rw [View.set_slice_whole, Rect.mem_set_unit]
  exact Iff.rfl

/-- Every entry of the output is written back by some point: row r by point r / 1000. -/
theorem cover1 (i : S50000x256.Idx) :
    ∃ t : Fin cfg1.N, (cfg1.win 8).flush t = true ∧ i ∈ ((cfg1.win 8).blk t).view.set := by
  have hi0 : (i 0).val < 50000 := (i 0).isLt
  have hi1 : (i 1).val < 256 := (i 1).isLt
  obtain ⟨t, ht⟩ : ∃ t : Fin cfg1.N, t.val = (i 0).val / 1000 :=
    ⟨⟨(i 0).val / 1000, Nat.lt_of_lt_of_eq (by omega : (i 0).val / 1000 < 50) N_1.symm⟩, rfl⟩
  obtain ⟨a0, a1, b0, b1, o0, o1⟩ := rowBlocks1 t
  refine ⟨t, flush1_8 t, ?_⟩
  rw [mem_blk1]
  intro a
  match a with
  | ⟨0, _⟩ =>
    show win1_8.index t (0 : Fin 2) * 1000 ≤ (i 0).val ∧ (i 0).val < win1_8.index t (0 : Fin 2) * 1000 + 1000
    omega
  | ⟨1, _⟩ =>
    show win1_8.index t (1 : Fin 2) * 256 ≤ (i 1).val ∧ (i 1).val < win1_8.index t (1 : Fin 2) * 256 + 256
    omega

/-- The second layer's output array after the kernel has run: the layer of the arrays as the kernel finds them. -/
theorem region1_out (c : Dev nD) :
    (dat1 (F := Ideal) V c).arrAt 8 cfg1.N
      = layer 50000 128 256 (V c main_v20) (V c main_v30) (V c main_arg11) (V c main_v31) (V c main_v32)
          (V c main_v33) (V c main_v34) (V c main_v35) :=
  (dat1 (F := Ideal) V c).arrAt_eq_of_cover 8
    (layer 50000 128 256 (V c main_v20) (V c main_v30) (V c main_arg11) (V c main_v31) (V c main_v32)
      (V c main_v33) (V c main_v34) (V c main_v35))
    (fun t _ => flushed1_eq V c t) cover1

end Cert.Gin.Kern

end
-- ==== Proof.GinRegion2.lean ====
/-
  The third layer's kernel, from its fifty row blocks to the whole output array.

  The kernel runs over a grid of 50 points. Point t is handed rows 1000·t … 1000·t + 999 of the node features and of the
  summed neighbour features, the whole weight and the five whole rows (bias, scale, shift, mean, variance), and writes
  back rows 1000·t … 1000·t + 999 of the output. Entry (p, q) of what point t writes is the layer's entry function
  of row p of the two feature blocks, column q of the weight and entry q of each of the five rows. Row p of point t's
  feature block is row 1000·t + p of the feature array, and the weight's and the rows' blocks are their arrays, so what
  point t writes is its block of the layer of the arrays as the kernel finds them. Row r of the output lies in
  the block of point r / 1000: the fifty blocks cover the output, which therefore ends holding the layer of those arrays.
-/
import proofs.«178807_j81037442941188_1_alg».proof.Proof.KernelIdealFrameP
import proofs.«178807_j81037442941188_1_alg».proof.Proof.GinSpec
import proofs.«178807_j81037442941188_1_alg».proof.Proof.GinPayload
import Idealize.ShloMosaic.Lib.Pipeline.Value
import Idealize.ShloMosaic.Lib.ValueIdx

noncomputable section

namespace Cert.Gin.Kern

open Cert.KernelIdeal Cert.KernelIdeal.Gen Cert.Gin
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a load or store of a whole block. -/
theorem zeros2 : (![0, 0] : Fin 2 → Nat) = fun _ => 0 := funext fun a => by fin_cases a <;> rfl

/-- Two entries of the layer agree when their ingredients agree one by one. -/
theorem cell_congr2 {din : ℕ} {xa xa' wc wc' : Fin din → EReal} {b b' g g' be be' mu mu' s s' : EReal}
    (hx : ∀ k, xa k = xa' k) (hw : ∀ k, wc k = wc' k) (hb : b = b') (hg : g = g') (hbe : be = be')
    (hmu : mu = mu') (hs : s = s') : cell xa wc b g be mu s = cell xa' wc' b' g' be' mu' s' := by
  obtain rfl : xa = xa' := funext hx
  obtain rfl : wc = wc' := funext hw
  subst hb hg hbe hmu hs
  rfl

/-- The block indices of the row-blocked windows (the two feature arrays and the output): point t's block is row
    block t, column block 0. -/
theorem rowBlocks2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_8.index t (0 : Fin 2) = t.val ∧ win2_8.index t (1 : Fin 2) = 0 :=
  (by decide +kernel : ∀ t : Fin grid2.N, _)

/-- The block indices of the weight and of the five rows: every point's block is block (0, 0), the whole array. -/
theorem wholeBlocks2 : ∀ t : Fin cfg2.N,
    win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0 :=
  (by decide +kernel : ∀ t : Fin grid2.N, _)

/-- Row p of point t's block of the node features is row 1000·t + p of the array. -/
theorem feat2_apply (c : Dev nD) (t : Fin cfg2.N) (p : Fin 1000) (k : Fin 256) (r : Fin 50000)
    (hr : r.val = t.val * 1000 + p.val) :
    (iblk2 (F := Ideal) V c 0 t : Vec Ideal S1000x256 .f32) (ix2 p k) = (V c main_v37 : S50000x256.Idx → EReal) (ix2 r k) := by
  obtain ⟨a0, a1, b0, b1, o0, o1⟩ := rowBlocks2 t
  unfold iblk2
  rw [View.read_apply]
  show V c main_v37 _ = V c main_v37 _
  refine congrArg (V c main_v37) ?_
  funext a
  apply Fin.ext
  match a with
  | ⟨0, _⟩ => show win2_0.index t (0 : Fin 2) * 1000 + 1 * p.val = r.val; omega
  | ⟨1, _⟩ => show win2_0.index t (1 : Fin 2) * 256 + 1 * k.val = k.val; omega

/-- Row p of point t's block of the summed neighbour features is row 1000·t + p of the array. -/
theorem agg2_apply (c : Dev nD) (t : Fin cfg2.N) (p : Fin 1000) (k : Fin 256) (r : Fin 50000)
    (hr : r.val = t.val * 1000 + p.val) :
    (iblk2 (F := Ideal) V c 1 t : Vec Ideal S1000x256 .f32) (ix2 p k) = (V c main_v47 : S50000x256.Idx → EReal) (ix2 r k) := by
  obtain ⟨a0, a1, b0, b1, o0, o1⟩ := rowBlocks2 t
  unfold iblk2
  rw [View.read_apply]
  show V c main_v47 _ = V c main_v47 _
  refine congrArg (V c main_v47) ?_
  funext a
  apply Fin.ext
  match a with
  | ⟨0, _⟩ => show win2_1.index t (0 : Fin 2) * 1000 + 1 * p.val = r.val; omega
  | ⟨1, _⟩ => show win2_1.index t (1 : Fin 2) * 256 + 1 * k.val = k.val; omega

/-- Every point's block of the weight is the weight. -/
theorem weight2_apply (c : Dev nD) (t : Fin cfg2.N) (x : S256x512.Idx) :
    (iblk2 (F := Ideal) V c 2 t : Vec Ideal S256x512 .f32) x = (V c main_arg17 : S256x512.Idx → EReal) x := by
  obtain ⟨w0, w1, b0, b1, g0, g1, be0, be1, mu0, mu1, s0, s1⟩ := wholeBlocks2 t
  unfold iblk2
  rw [View.read_apply]
  show V c main_arg17 _ = V c main_arg17 _
  refine congrArg (V c main_arg17) ?_
  funext a
  apply Fin.ext
  match a with
  | ⟨0, _⟩ => show win2_2.index t (0 : Fin 2) * 256 + 1 * (x 0).val = (x 0).val; omega
  | ⟨1, _⟩ => show win2_2.index t (1 : Fin 2) * 512 + 1 * (x 1).val = (x 1).val; omega

/-- Every point's block of the bias row is the row. -/
theorem bias2_apply (c : Dev nD) (t : Fin cfg2.N) (x : S1x512.Idx) :
    (iblk2 (F := Ideal) V c 3 t : Vec Ideal S1x512 .f32) x = (V c main_v48 : S1x512.Idx → EReal) x := by
  obtain ⟨w0, w1, b0, b1, g0, g1, be0, be1, mu0, mu1, s0, s1⟩ := wholeBlocks2 t
  unfold iblk2
  rw [View.read_apply]
  show V c main_v48 _ = V c main_v48 _
  refine congrArg (V c main_v48) ?_
  funext a
  apply Fin.ext
  match a with
  | ⟨0, _⟩ => show win2_3.index t (0 : Fin 2) * 1 + 1 * (x 0).val = (x 0).val; omega
  | ⟨1, _⟩ => show win2_3.index t (1 : Fin 2) * 512 + 1 * (x 1).val = (x 1).val; omega

/-- Every point's block of the batch-norm scale row is the row. -/
theorem scale2_apply (c : Dev nD) (t : Fin cfg2.N) (x : S1x512.Idx) :
    (iblk2 (F := Ideal) V c 4 t : Vec Ideal S1x512 .f32) x = (V c main_v49 : S1x512.Idx → EReal) x := by
  obtain ⟨w0, w1, b0, b1, g0, g1, be0, be1, mu0, mu1, s0, s1⟩ := wholeBlocks2 t
  unfold iblk2
  rw [View.read_apply]
  show V c main_v49 _ = V c main_v49 _
  refine congrArg (V c main_v49) ?_
  funext a
  apply Fin.ext
  match a with
  | ⟨0, _⟩ => show win2_4.index t (0 : Fin 2) * 1 + 1 * (x 0).val = (x 0).val; omega
  | ⟨1, _⟩ => show win2_4.index t (1 : Fin 2) * 512 + 1 * (x 1).val = (x 1).val; omega

/-- Every point's block of the batch-norm shift row is the row. -/
theorem shift2_apply (c : Dev nD) (t : Fin cfg2.N) (x : S1x512.Idx) :
    (iblk2 (F := Ideal) V c 5 t : Vec Ideal S1x512 .f32) x = (V c main_v50 : S1x512.Idx → EReal) x := by
  obtain ⟨w0, w1, b0, b1, g0, g1, be0, be1, mu0, mu1, s0, s1⟩ := wholeBlocks2 t
  unfold iblk2
  rw [View.read_apply]
  show V c main_v50 _ = V c main_v50 _
  refine congrArg (V c main_v50) ?_
  funext a
  apply Fin.ext
  match a with
  | ⟨0, _⟩ => show win2_5.index t (0 : Fin 2) * 1 + 1 * (x 0).val = (x 0).val; omega
  | ⟨1, _⟩ => show win2_5.index t (1 : Fin 2) * 512 + 1 * (x 1).val = (x 1).val; omega

/-- Every point's block of the running-mean row is the row. -/
theorem mean2_apply (c : Dev nD) (t : Fin cfg2.N) (x : S1x512.Idx) :
    (iblk2 (F := Ideal) V c 6 t : Vec Ideal S1x512 .f32) x = (V c main_v51 : S1x512.Idx → EReal) x := by
  obtain ⟨w0, w1, b0, b1, g0, g1, be0, be1, mu0, mu1, s0, s1⟩ := wholeBlocks2 t
  unfold iblk2
  rw [View.read_apply]
  show V c main_v51 _ = V c main_v51 _
  refine congrArg (V c main_v51) ?_
  funext a
  apply Fin.ext
  match a with
  | ⟨0, _⟩ => show win2_6.index t (0 : Fin 2) * 1 + 1 * (x 0).val = (x 0).val; omega
  | ⟨1, _⟩ => show win2_6.index t (1 : Fin 2) * 512 + 1 * (x 1).val = (x 1).val; omega

/-- Every point's block of the running-variance row is the row. -/
theorem var2_apply (c : Dev nD) (t : Fin cfg2.N) (x : S1x512.Idx) :
    (iblk2 (F := Ideal) V c 7 t : Vec Ideal S1x512 .f32) x = (V c main_v52 : S1x512.Idx → EReal) x := by
  obtain ⟨w0, w1, b0, b1, g0, g1, be0, be1, mu0, mu1, s0, s1⟩ := wholeBlocks2 t
  unfold iblk2
  rw [View.read_apply]
  show V c main_v52 _ = V c main_v52 _
  refine congrArg (V c main_v52) ?_
  funext a
  apply Fin.ext
  match a with
  | ⟨0, _⟩ => show win2_7.index t (0 : Fin 2) * 1 + 1 * (x 0).val = (x 0).val; omega
  | ⟨1, _⟩ => show win2_7.index t (1 : Fin 2) * 512 + 1 * (x 1).val = (x 1).val; omega

/-- What point t writes back is its block (rows 1000·t … 1000·t + 999) of the layer of the arrays. -/
theorem flushed2_eq (c : Dev nD) (t : Fin cfg2.N) :
    (dat2 (F := Ideal) V c).flushed 8 t
      = ((cfg2.win 8).blk t).view.read (Elt Ideal)
          (layer 50000 256 512 (V c main_v37) (V c main_v47) (V c main_arg17) (V c main_v48) (V c main_v49)
            (V c main_v50) (V c main_v51) (V c main_v52)) := by
  show (cfg2.win 8).cut (grid2.coords t) ((dat2 V c).after 8 t) = _
  rw [after2_8]
  unfold out2_8
  rw [View.canon_unit_zero zeros2]
  simp only [View.ld_unit_zero (S := S1000x256) zeros2, View.ld_unit_zero (S := S256x512) zeros2,
    View.ld_unit_zero (S := S1x512) zeros2]
  funext y
  obtain ⟨p, q, rfl⟩ : ∃ (p : Fin 1000) (q : Fin 512), y = ix2 p q := ⟨y 0, y 1, eq_ix2 y⟩
  obtain ⟨a0, a1, b0, b1, o0, o1⟩ := rowBlocks2 t
  have ht : t.val < 50 := Nat.lt_of_lt_of_eq t.isLt N_2
  obtain ⟨r, hr⟩ : ∃ r : Fin 50000, r.val = t.val * 1000 + p.val := ⟨⟨t.val * 1000 + p.val, by omega⟩, rfl⟩
  have hemb : ((cfg2.win 8).blk t).view.emb (ix2 p q : S1000x512.Idx) = (ix2 r q : S50000x512.Idx) := by
    funext a
    apply Fin.ext
    match a with
    | ⟨0, _⟩ => show win2_8.index t (0 : Fin 2) * 1000 + 1 * p.val = r.val; omega
    | ⟨1, _⟩ => show win2_8.index t (1 : Fin 2) * 512 + 1 * q.val = q.val; omega
  rw [View.read_apply]
  refine (pay2_apply (iblk2 V c 0 t) (iblk2 V c 1 t) (iblk2 V c 2 t) (iblk2 V c 3 t) (iblk2 V c 7 t) (iblk2 V c 6 t)
    (iblk2 V c 4 t) (iblk2 V c 5 t) p q).trans ?_
  refine Eq.trans ?_ (congrArg (layer 50000 256 512 (V c main_v37) (V c main_v47) (V c main_arg17) (V c main_v48)
    (V c main_v49) (V c main_v50) (V c main_v51) (V c main_v52)) hemb.symm)
  rw [layer_apply]
  refine cell_congr2 (fun k => ?_) (fun k => ?_) ?_ ?_ ?_ ?_ ?_
  · rw [feat2_apply V c t p k r hr, agg2_apply V c t p k r hr]
  · exact weight2_apply V c t (ix2 k q)
  · exact bias2_apply V c t (ix2 0 q)
  · exact scale2_apply V c t (ix2 0 q)
  · exact shift2_apply V c t (ix2 0 q)
  · exact mean2_apply V c t (ix2 0 q)
  · exact var2_apply V c t (ix2 0 q)

/-- A row-and-column index of the output lies in point t's block exactly when its row is among the block's 1000 rows
    (and its column among all 512). -/
theorem mem_blk2 (t : Fin cfg2.N) (i : S50000x512.Idx) :
    i ∈ ((cfg2.win 8).blk t).view.set ↔ ∀ a : Fin 2, win2_8.index t a * S1000x512.size a ≤ (i a).val
      ∧ (i a).val < win2_8.index t a * S1000x512.size a + S1000x512.size a := by
  show i ∈ ((View.whole main_v53).slice (win2_8.rect t)).set ↔ _
  rw [View.set_slice_whole, Rect.mem_set_unit]
  exact Iff.rfl

/-- Every entry of the output is written back by some point: row r by point r / 1000. -/
theorem cover2 (i : S50000x512.Idx) :
    ∃ t : Fin cfg2.N, (cfg2.win 8).flush t = true ∧ i ∈ ((cfg2.win 8).blk t).view.set := by
  have hi0 : (i 0).val < 50000 := (i 0).isLt
  have hi1 : (i 1).val < 512 := (i 1).isLt
  obtain ⟨t, ht⟩ : ∃ t : Fin cfg2.N, t.val = (i 0).val / 1000 :=
    ⟨⟨(i 0).val / 1000, Nat.lt_of_lt_of_eq (by omega : (i 0).val / 1000 < 50) N_2.symm⟩, rfl⟩
  obtain ⟨a0, a1, b0, b1, o0, o1⟩ := rowBlocks2 t
  refine ⟨t, flush2_8 t, ?_⟩
  rw [mem_blk2]
  intro a
  match a with
  | ⟨0, _⟩ =>
    show win2_8.index t (0 : Fin 2) * 1000 ≤ (i 0).val ∧ (i 0).val < win2_8.index t (0 : Fin 2) * 1000 + 1000
    omega
  | ⟨1, _⟩ =>
    show win2_8.index t (1 : Fin 2) * 512 ≤ (i 1).val ∧ (i 1).val < win2_8.index t (1 : Fin 2) * 512 + 512
    omega

/-- The third layer's output array after the kernel has run: the layer of the arrays as the kernel finds them. -/
theorem region2_out (c : Dev nD) :
    (dat2 (F := Ideal) V c).arrAt 8 cfg2.N
      = layer 50000 256 512 (V c main_v37) (V c main_v47) (V c main_arg17) (V c main_v48) (V c main_v49)
          (V c main_v50) (V c main_v51) (V c main_v52) :=
  (dat2 (F := Ideal) V c).arrAt_eq_of_cover 8
    (layer 50000 256 512 (V c main_v37) (V c main_v47) (V c main_arg17) (V c main_v48) (V c main_v49)
      (V c main_v50) (V c main_v51) (V c main_v52))
    (fun t _ => flushed2_eq V c t) cover2

end Cert.Gin.Kern

end
-- ==== Proof.GinHost0.lean ====
/-
  The host operations before the first kernel region, read: what each buffer the region (or a later stretch) takes
  holds when the region is entered, as a function of the argument arrays at launch. The arguments pass through
  unchanged (no operation writes one); the two index vectors are the rows of the edge array; the summed
  neighbour features are the reference's own scatter-add of gathered rows, the same operations in the same order;
  each per-column vector enters the region as the one row of a [1, d] array.
-/
import proofs.«178807_j81037442941188_1_alg».proof.Proof.KernelIdealFrameP
import proofs.«178807_j81037442941188_1_alg».proof.Proof.Gen.ReferenceIdeal.Read
import proofs.«178807_j81037442941188_1_alg».proof.Proof.GinSpec
import Idealize.ShloMosaic.Lib.StableHlo.Run
import Idealize.ShloMosaic.Lib.ValueLayout
import Idealize.ShloMosaic.Lib.ValueIdx

set_option maxRecDepth 16384

noncomputable section

namespace Cert.Gin.Host

open Cert.KernelIdeal Cert.KernelIdeal.Gen Cert.Gin
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-- A length-`a` vector cast to `[1, a]` is its one row. -/
theorem shapeCast_row {a : ℕ} (x : (⟨1, ![a]⟩ : Shape).Idx → EReal) (h : (⟨1, ![a]⟩ : Shape).ShapeCasts ⟨2, ![1, a]⟩) :
    shapeCast ⟨2, ![1, a]⟩ x h = row x := by
  funext j
  obtain ⟨u, i, rfl⟩ : ∃ (u : Fin 1) (i : Fin a), j = ix2 u i := ⟨j 0, j 1, eq_ix2 j⟩
  exact shapeCast_a_1a_apply x h u i

/-- The source-node index of every edge: row 0 of the edge array. -/
def srcV (e : (⟨S2x800000, .i32⟩ : BufTy).Contents (Elt Ideal)) : (⟨S800000, .i32⟩ : BufTy).Contents (Elt Ideal) :=
  shapeCast _ (extractStridedSlice S1x800000 ![0, 0] e slices_S2x800000_S1x800000_0_0) shapeCasts_S1x800000_S800000

/-- The target-node index of every edge: row 1 of the edge array. -/
def dstV (e : (⟨S2x800000, .i32⟩ : BufTy).Contents (Elt Ideal)) : (⟨S800000, .i32⟩ : BufTy).Contents (Elt Ideal) :=
  shapeCast _ (extractStridedSlice S1x800000 ![1, 0] e slices_S2x800000_S1x800000_1_0) shapeCasts_S1x800000_S800000

theorem W1_arg0 : W1 m ρ c (Proc.devRef .tc main_arg0) = (m ((c : Thread nD τ).loc main_arg0)) := by
  show StableHlo.after hostOps0 (W0 m ρ c) (Proc.devRef .tc main_arg0) = _
  dsimp only [hostOps0]
  after_results_simp <;> rfl

theorem W1_arg2 : W1 m ρ c (Proc.devRef .tc main_arg2) = (m ((c : Thread nD τ).loc main_arg2)) := by
  show StableHlo.after hostOps0 (W0 m ρ c) (Proc.devRef .tc main_arg2) = _
  dsimp only [hostOps0]
  after_results_simp <;> rfl

theorem W1_arg3 : W1 m ρ c (Proc.devRef .tc main_arg3) = (m ((c : Thread nD τ).loc main_arg3)) := by
  show StableHlo.after hostOps0 (W0 m ρ c) (Proc.devRef .tc main_arg3) = _
  dsimp only [hostOps0]
  after_results_simp <;> rfl

theorem W1_arg4 : W1 m ρ c (Proc.devRef .tc main_arg4) = (m ((c : Thread nD τ).loc main_arg4)) := by
  show StableHlo.after hostOps0 (W0 m ρ c) (Proc.devRef .tc main_arg4) = _
  dsimp only [hostOps0]
  after_results_simp <;> rfl

theorem W1_arg5 : W1 m ρ c (Proc.devRef .tc main_arg5) = (m ((c : Thread nD τ).loc main_arg5)) := by
  show StableHlo.after hostOps0 (W0 m ρ c) (Proc.devRef .tc main_arg5) = _
  dsimp only [hostOps0]
  after_results_simp <;> rfl

theorem W1_arg11 : W1 m ρ c (Proc.devRef .tc main_arg11) = (m ((c : Thread nD τ).loc main_arg11)) := by
  show StableHlo.after hostOps0 (W0 m ρ c) (Proc.devRef .tc main_arg11) = _
  dsimp only [hostOps0]
  after_results_simp <;> rfl

theorem W1_arg12 : W1 m ρ c (Proc.devRef .tc main_arg12) = (m ((c : Thread nD τ).loc main_arg12)) := by
  show StableHlo.after hostOps0 (W0 m ρ c) (Proc.devRef .tc main_arg12) = _
  dsimp only [hostOps0]
  after_results_simp <;> rfl

theorem W1_arg13 : W1 m ρ c (Proc.devRef .tc main_arg13) = (m ((c : Thread nD τ).loc main_arg13)) := by
  show StableHlo.after hostOps0 (W0 m ρ c) (Proc.devRef .tc main_arg13) = _
  dsimp only [hostOps0]
  after_results_simp <;> rfl

theorem W1_arg14 : W1 m ρ c (Proc.devRef .tc main_arg14) = (m ((c : Thread nD τ).loc main_arg14)) := by
  show StableHlo.after hostOps0 (W0 m ρ c) (Proc.devRef .tc main_arg14) = _
  dsimp only [hostOps0]
  after_results_simp <;> rfl

theorem W1_arg15 : W1 m ρ c (Proc.devRef .tc main_arg15) = (m ((c : Thread nD τ).loc main_arg15)) := by
  show StableHlo.after hostOps0 (W0 m ρ c) (Proc.devRef .tc main_arg15) = _
  dsimp only [hostOps0]
  after_results_simp <;> rfl

theorem W1_arg16 : W1 m ρ c (Proc.devRef .tc main_arg16) = (m ((c : Thread nD τ).loc main_arg16)) := by
  show StableHlo.after hostOps0 (W0 m ρ c) (Proc.devRef .tc main_arg16) = _
  dsimp only [hostOps0]
  after_results_simp <;> rfl

theorem W1_arg17 : W1 m ρ c (Proc.devRef .tc main_arg17) = (m ((c : Thread nD τ).loc main_arg17)) := by
  show StableHlo.after hostOps0 (W0 m ρ c) (Proc.devRef .tc main_arg17) = _
  dsimp only [hostOps0]
  after_results_simp <;> rfl

theorem W1_arg18 : W1 m ρ c (Proc.devRef .tc main_arg18) = (m ((c : Thread nD τ).loc main_arg18)) := by
  show StableHlo.after hostOps0 (W0 m ρ c) (Proc.devRef .tc main_arg18) = _
  dsimp only [hostOps0]
  after_results_simp <;> rfl

theorem W1_arg19 : W1 m ρ c (Proc.devRef .tc main_arg19) = (m ((c : Thread nD τ).loc main_arg19)) := by
  show StableHlo.after hostOps0 (W0 m ρ c) (Proc.devRef .tc main_arg19) = _
  dsimp only [hostOps0]
  after_results_simp <;> rfl

theorem W1_arg20 : W1 m ρ c (Proc.devRef .tc main_arg20) = (m ((c : Thread nD τ).loc main_arg20)) := by
  show StableHlo.after hostOps0 (W0 m ρ c) (Proc.devRef .tc main_arg20) = _
  dsimp only [hostOps0]
  after_results_simp <;> rfl

theorem W1_arg21 : W1 m ρ c (Proc.devRef .tc main_arg21) = (m ((c : Thread nD τ).loc main_arg21)) := by
  show StableHlo.after hostOps0 (W0 m ρ c) (Proc.devRef .tc main_arg21) = _
  dsimp only [hostOps0]
  after_results_simp <;> rfl

theorem W1_arg22 : W1 m ρ c (Proc.devRef .tc main_arg22) = (m ((c : Thread nD τ).loc main_arg22)) := by
  show StableHlo.after hostOps0 (W0 m ρ c) (Proc.devRef .tc main_arg22) = _
  dsimp only [hostOps0]
  after_results_simp <;> rfl

theorem W1_v1 : W1 m ρ c (Proc.devRef .tc main_v1) = srcV (m ((c : Thread nD τ).loc main_arg1)) := by
  show StableHlo.after hostOps0 (W0 m ρ c) (Proc.devRef .tc main_v1) = _
  dsimp only [hostOps0]
  after_results_simp <;> rfl

theorem W1_v3 : W1 m ρ c (Proc.devRef .tc main_v3) = dstV (m ((c : Thread nD τ).loc main_arg1)) := by
  show StableHlo.after hostOps0 (W0 m ρ c) (Proc.devRef .tc main_v3) = _
  dsimp only [hostOps0]
  after_results_simp <;> rfl

/-- The first layer's summed neighbour features are the reference's: the same scatter-add of the same gathered rows. -/
theorem W1_v13 : W1 m ρ c (Proc.devRef .tc main_v13)
    = Cert.ReferenceIdeal.Read.val_main_v13 (F := Ideal) (m ((c : Thread nD τ).loc main_arg0)) (m ((c : Thread nD τ).loc main_arg1)) := by
  show StableHlo.after hostOps0 (W0 m ρ c) (Proc.devRef .tc main_v13) = _
  dsimp only [hostOps0]
  after_results_simp
  rfl

theorem W1_v14 : W1 m ρ c (Proc.devRef .tc main_v14) = row (m ((c : Thread nD τ).loc main_arg6)) := by
  show StableHlo.after hostOps0 (W0 m ρ c) (Proc.devRef .tc main_v14) = _
  dsimp only [hostOps0]
  after_results_simp
  exact shapeCast_row _ _

theorem W1_v15 : W1 m ρ c (Proc.devRef .tc main_v15) = row (m ((c : Thread nD τ).loc main_arg7)) := by
  show StableHlo.after hostOps0 (W0 m ρ c) (Proc.devRef .tc main_v15) = _
  dsimp only [hostOps0]
  after_results_simp
  exact shapeCast_row _ _

theorem W1_v16 : W1 m ρ c (Proc.devRef .tc main_v16) = row (m ((c : Thread nD τ).loc main_arg8)) := by
  show StableHlo.after hostOps0 (W0 m ρ c) (Proc.devRef .tc main_v16) = _
  dsimp only [hostOps0]
  after_results_simp
  exact shapeCast_row _ _

theorem W1_v17 : W1 m ρ c (Proc.devRef .tc main_v17) = row (m ((c : Thread nD τ).loc main_arg9)) := by
  show StableHlo.after hostOps0 (W0 m ρ c) (Proc.devRef .tc main_v17) = _
  dsimp only [hostOps0]
  after_results_simp
  exact shapeCast_row _ _

theorem W1_v18 : W1 m ρ c (Proc.devRef .tc main_v18) = row (m ((c : Thread nD τ).loc main_arg10)) := by
  show StableHlo.after hostOps0 (W0 m ρ c) (Proc.devRef .tc main_v18) = _
  dsimp only [hostOps0]
  after_results_simp
  exact shapeCast_row _ _

end Cert.Gin.Host

end
-- ==== Proof.GinHost1.lean ====
/-
  Layer 1's region and the host operations up to layer 2's region, read: the first region leaves the layer
  function of its entry arrays in its output array, which is the reference's first rectified stage; the next
  stretch adds the residual argument, gathers and scatter-adds over the same index vectors, and re-lays the
  second layer's per-column vectors as rows. Each buffer a later stretch needs is followed through unchanged.
-/
import proofs.«178807_j81037442941188_1_alg».proof.Proof.GinHost0

set_option maxRecDepth 16384

noncomputable section

namespace Cert.Gin.Host

open Cert.KernelIdeal Cert.KernelIdeal.Gen Cert.Gin
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-- Layer 1's output array after its region: the layer function of the region's entry arrays, which is the
    reference's stage. -/
theorem W2_v19 (hK0 : ∀ (V : (c : Dev nD) → (b : Ref sig .tc) → Buf (Elt Ideal) ((c : Thread nD τ).loc b)) (c : Dev nD), (dat0 (F := Ideal) V c).arrAt 8 cfg0.N = layer 50000 86 128 (V c main_arg0) (V c main_v13) (V c main_arg5) (V c main_v14) (V c main_v15) (V c main_v16) (V c main_v17) (V c main_v18)) (hR1 : ∀ (x0 : (⟨Cert.ReferenceIdeal.S50000x86, .f32⟩ : BufTy).Contents (Elt Ideal)) (x1 : (⟨Cert.ReferenceIdeal.S2x800000, .i32⟩ : BufTy).Contents (Elt Ideal)) (x5 : (⟨Cert.ReferenceIdeal.S86x128, .f32⟩ : BufTy).Contents (Elt Ideal)) (x6 : (⟨Cert.ReferenceIdeal.S128, .f32⟩ : BufTy).Contents (Elt Ideal)) (x7 : (⟨Cert.ReferenceIdeal.S128, .f32⟩ : BufTy).Contents (Elt Ideal)) (x8 : (⟨Cert.ReferenceIdeal.S128, .f32⟩ : BufTy).Contents (Elt Ideal)) (x9 : (⟨Cert.ReferenceIdeal.S128, .f32⟩ : BufTy).Contents (Elt Ideal)) (x10 : (⟨Cert.ReferenceIdeal.S128, .f32⟩ : BufTy).Contents (Elt Ideal)), Cert.ReferenceIdeal.Read.val_main_v34 (F := Ideal) x0 x1 x5 x6 x7 x8 x9 x10 = layer 50000 86 128 x0 (Cert.ReferenceIdeal.Read.val_main_v13 (F := Ideal) x0 x1) x5 (row x6) (row x7) (row x8) (row x9) (row x10)) :
    W2 m ρ c (Proc.devRef .tc main_v19) = Cert.ReferenceIdeal.Read.val_main_v34 (F := Ideal) (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W2_arr m ρ c 8).trans ?_
  rw [hK0 (V1 m ρ) c, hR1]
  show layer 50000 86 128 (W1 m ρ c (Proc.devRef .tc main_arg0)) (W1 m ρ c (Proc.devRef .tc main_v13)) (W1 m ρ c (Proc.devRef .tc main_arg5)) (W1 m ρ c (Proc.devRef .tc main_v14)) (W1 m ρ c (Proc.devRef .tc main_v15)) (W1 m ρ c (Proc.devRef .tc main_v16)) (W1 m ρ c (Proc.devRef .tc main_v17)) (W1 m ρ c (Proc.devRef .tc main_v18)) = _
  rw [W1_arg0, W1_v13, W1_arg5, W1_v14, W1_v15, W1_v16, W1_v17, W1_v18]

theorem W2_arg2 : W2 m ρ c (Proc.devRef .tc main_arg2) = (m ((c : Thread nD τ).loc main_arg2)) :=
  (W2_of_ne m ρ c main_arg2 (by decide)).trans (W1_arg2 m ρ c)

theorem W2_arg3 : W2 m ρ c (Proc.devRef .tc main_arg3) = (m ((c : Thread nD τ).loc main_arg3)) :=
  (W2_of_ne m ρ c main_arg3 (by decide)).trans (W1_arg3 m ρ c)

theorem W2_arg4 : W2 m ρ c (Proc.devRef .tc main_arg4) = (m ((c : Thread nD τ).loc main_arg4)) :=
  (W2_of_ne m ρ c main_arg4 (by decide)).trans (W1_arg4 m ρ c)

theorem W2_arg11 : W2 m ρ c (Proc.devRef .tc main_arg11) = (m ((c : Thread nD τ).loc main_arg11)) :=
  (W2_of_ne m ρ c main_arg11 (by decide)).trans (W1_arg11 m ρ c)

theorem W2_arg12 : W2 m ρ c (Proc.devRef .tc main_arg12) = (m ((c : Thread nD τ).loc main_arg12)) :=
  (W2_of_ne m ρ c main_arg12 (by decide)).trans (W1_arg12 m ρ c)

theorem W2_arg13 : W2 m ρ c (Proc.devRef .tc main_arg13) = (m ((c : Thread nD τ).loc main_arg13)) :=
  (W2_of_ne m ρ c main_arg13 (by decide)).trans (W1_arg13 m ρ c)

theorem W2_arg14 : W2 m ρ c (Proc.devRef .tc main_arg14) = (m ((c : Thread nD τ).loc main_arg14)) :=
  (W2_of_ne m ρ c main_arg14 (by decide)).trans (W1_arg14 m ρ c)

theorem W2_arg15 : W2 m ρ c (Proc.devRef .tc main_arg15) = (m ((c : Thread nD τ).loc main_arg15)) :=
  (W2_of_ne m ρ c main_arg15 (by decide)).trans (W1_arg15 m ρ c)

theorem W2_arg16 : W2 m ρ c (Proc.devRef .tc main_arg16) = (m ((c : Thread nD τ).loc main_arg16)) :=
  (W2_of_ne m ρ c main_arg16 (by decide)).trans (W1_arg16 m ρ c)

theorem W2_arg17 : W2 m ρ c (Proc.devRef .tc main_arg17) = (m ((c : Thread nD τ).loc main_arg17)) :=
  (W2_of_ne m ρ c main_arg17 (by decide)).trans (W1_arg17 m ρ c)

theorem W2_arg18 : W2 m ρ c (Proc.devRef .tc main_arg18) = (m ((c : Thread nD τ).loc main_arg18)) :=
  (W2_of_ne m ρ c main_arg18 (by decide)).trans (W1_arg18 m ρ c)

theorem W2_arg19 : W2 m ρ c (Proc.devRef .tc main_arg19) = (m ((c : Thread nD τ).loc main_arg19)) :=
  (W2_of_ne m ρ c main_arg19 (by decide)).trans (W1_arg19 m ρ c)

theorem W2_arg20 : W2 m ρ c (Proc.devRef .tc main_arg20) = (m ((c : Thread nD τ).loc main_arg20)) :=
  (W2_of_ne m ρ c main_arg20 (by decide)).trans (W1_arg20 m ρ c)

theorem W2_arg21 : W2 m ρ c (Proc.devRef .tc main_arg21) = (m ((c : Thread nD τ).loc main_arg21)) :=
  (W2_of_ne m ρ c main_arg21 (by decide)).trans (W1_arg21 m ρ c)

theorem W2_arg22 : W2 m ρ c (Proc.devRef .tc main_arg22) = (m ((c : Thread nD τ).loc main_arg22)) :=
  (W2_of_ne m ρ c main_arg22 (by decide)).trans (W1_arg22 m ρ c)

theorem W2_v1 : W2 m ρ c (Proc.devRef .tc main_v1) = srcV (m ((c : Thread nD τ).loc main_arg1)) :=
  (W2_of_ne m ρ c main_v1 (by decide)).trans (W1_v1 m ρ c)

theorem W2_v3 : W2 m ρ c (Proc.devRef .tc main_v3) = dstV (m ((c : Thread nD τ).loc main_arg1)) :=
  (W2_of_ne m ρ c main_v3 (by decide)).trans (W1_v3 m ρ c)

/-- The node features entering layer 2: the previous layer's output plus its residual argument. -/
theorem W3_v20 (hK0 : ∀ (V : (c : Dev nD) → (b : Ref sig .tc) → Buf (Elt Ideal) ((c : Thread nD τ).loc b)) (c : Dev nD), (dat0 (F := Ideal) V c).arrAt 8 cfg0.N = layer 50000 86 128 (V c main_arg0) (V c main_v13) (V c main_arg5) (V c main_v14) (V c main_v15) (V c main_v16) (V c main_v17) (V c main_v18)) (hR1 : ∀ (x0 : (⟨Cert.ReferenceIdeal.S50000x86, .f32⟩ : BufTy).Contents (Elt Ideal)) (x1 : (⟨Cert.ReferenceIdeal.S2x800000, .i32⟩ : BufTy).Contents (Elt Ideal)) (x5 : (⟨Cert.ReferenceIdeal.S86x128, .f32⟩ : BufTy).Contents (Elt Ideal)) (x6 : (⟨Cert.ReferenceIdeal.S128, .f32⟩ : BufTy).Contents (Elt Ideal)) (x7 : (⟨Cert.ReferenceIdeal.S128, .f32⟩ : BufTy).Contents (Elt Ideal)) (x8 : (⟨Cert.ReferenceIdeal.S128, .f32⟩ : BufTy).Contents (Elt Ideal)) (x9 : (⟨Cert.ReferenceIdeal.S128, .f32⟩ : BufTy).Contents (Elt Ideal)) (x10 : (⟨Cert.ReferenceIdeal.S128, .f32⟩ : BufTy).Contents (Elt Ideal)), Cert.ReferenceIdeal.Read.val_main_v34 (F := Ideal) x0 x1 x5 x6 x7 x8 x9 x10 = layer 50000 86 128 x0 (Cert.ReferenceIdeal.Read.val_main_v13 (F := Ideal) x0 x1) x5 (row x6) (row x7) (row x8) (row x9) (row x10)) :
    W3 m ρ c (Proc.devRef .tc main_v20) = Cert.ReferenceIdeal.Read.val_main_v35 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after hostOps1 (W2 m ρ c) (Proc.devRef .tc main_v20) = _
  dsimp only [hostOps1]
  after_results_simp
  rw [W2_v19 m ρ c hK0 hR1, W2_arg2]
  rfl

/-- Their neighbour sums: the reference's scatter-add of the same gathered rows. -/
theorem W3_v30 (hK0 : ∀ (V : (c : Dev nD) → (b : Ref sig .tc) → Buf (Elt Ideal) ((c : Thread nD τ).loc b)) (c : Dev nD), (dat0 (F := Ideal) V c).arrAt 8 cfg0.N = layer 50000 86 128 (V c main_arg0) (V c main_v13) (V c main_arg5) (V c main_v14) (V c main_v15) (V c main_v16) (V c main_v17) (V c main_v18)) (hR1 : ∀ (x0 : (⟨Cert.ReferenceIdeal.S50000x86, .f32⟩ : BufTy).Contents (Elt Ideal)) (x1 : (⟨Cert.ReferenceIdeal.S2x800000, .i32⟩ : BufTy).Contents (Elt Ideal)) (x5 : (⟨Cert.ReferenceIdeal.S86x128, .f32⟩ : BufTy).Contents (Elt Ideal)) (x6 : (⟨Cert.ReferenceIdeal.S128, .f32⟩ : BufTy).Contents (Elt Ideal)) (x7 : (⟨Cert.ReferenceIdeal.S128, .f32⟩ : BufTy).Contents (Elt Ideal)) (x8 : (⟨Cert.ReferenceIdeal.S128, .f32⟩ : BufTy).Contents (Elt Ideal)) (x9 : (⟨Cert.ReferenceIdeal.S128, .f32⟩ : BufTy).Contents (Elt Ideal)) (x10 : (⟨Cert.ReferenceIdeal.S128, .f32⟩ : BufTy).Contents (Elt Ideal)), Cert.ReferenceIdeal.Read.val_main_v34 (F := Ideal) x0 x1 x5 x6 x7 x8 x9 x10 = layer 50000 86 128 x0 (Cert.ReferenceIdeal.Read.val_main_v13 (F := Ideal) x0 x1) x5 (row x6) (row x7) (row x8) (row x9) (row x10)) :
    W3 m ρ c (Proc.devRef .tc main_v30) = Cert.ReferenceIdeal.Read.val_main_v45 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after hostOps1 (W2 m ρ c) (Proc.devRef .tc main_v30) = _
  dsimp only [hostOps1]
  after_results_simp
  rw [W2_v19 m ρ c hK0 hR1, W2_arg2, W2_v1, W2_v3]
  rfl

theorem W3_arg11 : W3 m ρ c (Proc.devRef .tc main_arg11) = (m ((c : Thread nD τ).loc main_arg11)) := by
  show StableHlo.after hostOps1 (W2 m ρ c) (Proc.devRef .tc main_arg11) = _
  dsimp only [hostOps1]
  after_results_simp
  exact W2_arg11 m ρ c

theorem W3_v31 : W3 m ρ c (Proc.devRef .tc main_v31) = row (m ((c : Thread nD τ).loc main_arg12)) := by
  show StableHlo.after hostOps1 (W2 m ρ c) (Proc.devRef .tc main_v31) = _
  dsimp only [hostOps1]
  after_results_simp
  rw [W2_arg12]
  exact shapeCast_row _ _

theorem W3_v32 : W3 m ρ c (Proc.devRef .tc main_v32) = row (m ((c : Thread nD τ).loc main_arg13)) := by
  show StableHlo.after hostOps1 (W2 m ρ c) (Proc.devRef .tc main_v32) = _
  dsimp only [hostOps1]
  after_results_simp
  rw [W2_arg13]
  exact shapeCast_row _ _

theorem W3_v33 : W3 m ρ c (Proc.devRef .tc main_v33) = row (m ((c : Thread nD τ).loc main_arg14)) := by
  show StableHlo.after hostOps1 (W2 m ρ c) (Proc.devRef .tc main_v33) = _
  dsimp only [hostOps1]
  after_results_simp
  rw [W2_arg14]
  exact shapeCast_row _ _

theorem W3_v34 : W3 m ρ c (Proc.devRef .tc main_v34) = row (m ((c : Thread nD τ).loc main_arg15)) := by
  show StableHlo.after hostOps1 (W2 m ρ c) (Proc.devRef .tc main_v34) = _
  dsimp only [hostOps1]
  after_results_simp
  rw [W2_arg15]
  exact shapeCast_row _ _

theorem W3_v35 : W3 m ρ c (Proc.devRef .tc main_v35) = row (m ((c : Thread nD τ).loc main_arg16)) := by
  show StableHlo.after hostOps1 (W2 m ρ c) (Proc.devRef .tc main_v35) = _
  dsimp only [hostOps1]
  after_results_simp
  rw [W2_arg16]
  exact shapeCast_row _ _

theorem W3_arg3 : W3 m ρ c (Proc.devRef .tc main_arg3) = (m ((c : Thread nD τ).loc main_arg3)) := by
  show StableHlo.after hostOps1 (W2 m ρ c) (Proc.devRef .tc main_arg3) = _
  dsimp only [hostOps1]
  after_results_simp
  exact W2_arg3 m ρ c

theorem W3_arg4 : W3 m ρ c (Proc.devRef .tc main_arg4) = (m ((c : Thread nD τ).loc main_arg4)) := by
  show StableHlo.after hostOps1 (W2 m ρ c) (Proc.devRef .tc main_arg4) = _
  dsimp only [hostOps1]
  after_results_simp
  exact W2_arg4 m ρ c

theorem W3_arg17 : W3 m ρ c (Proc.devRef .tc main_arg17) = (m ((c : Thread nD τ).loc main_arg17)) := by
  show StableHlo.after hostOps1 (W2 m ρ c) (Proc.devRef .tc main_arg17) = _
  dsimp only [hostOps1]
  after_results_simp
  exact W2_arg17 m ρ c

theorem W3_arg18 : W3 m ρ c (Proc.devRef .tc main_arg18) = (m ((c : Thread nD τ).loc main_arg18)) := by
  show StableHlo.after hostOps1 (W2 m ρ c) (Proc.devRef .tc main_arg18) = _
  dsimp only [hostOps1]
  after_results_simp
  exact W2_arg18 m ρ c

theorem W3_arg19 : W3 m ρ c (Proc.devRef .tc main_arg19) = (m ((c : Thread nD τ).loc main_arg19)) := by
  show StableHlo.after hostOps1 (W2 m ρ c) (Proc.devRef .tc main_arg19) = _
  dsimp only [hostOps1]
  after_results_simp
  exact W2_arg19 m ρ c

theorem W3_arg20 : W3 m ρ c (Proc.devRef .tc main_arg20) = (m ((c : Thread nD τ).loc main_arg20)) := by
  show StableHlo.after hostOps1 (W2 m ρ c) (Proc.devRef .tc main_arg20) = _
  dsimp only [hostOps1]
  after_results_simp
  exact W2_arg20 m ρ c

theorem W3_arg21 : W3 m ρ c (Proc.devRef .tc main_arg21) = (m ((c : Thread nD τ).loc main_arg21)) := by
  show StableHlo.after hostOps1 (W2 m ρ c) (Proc.devRef .tc main_arg21) = _
  dsimp only [hostOps1]
  after_results_simp
  exact W2_arg21 m ρ c

theorem W3_arg22 : W3 m ρ c (Proc.devRef .tc main_arg22) = (m ((c : Thread nD τ).loc main_arg22)) := by
  show StableHlo.after hostOps1 (W2 m ρ c) (Proc.devRef .tc main_arg22) = _
  dsimp only [hostOps1]
  after_results_simp
  exact W2_arg22 m ρ c

theorem W3_v1 : W3 m ρ c (Proc.devRef .tc main_v1) = srcV (m ((c : Thread nD τ).loc main_arg1)) := by
  show StableHlo.after hostOps1 (W2 m ρ c) (Proc.devRef .tc main_v1) = _
  dsimp only [hostOps1]
  after_results_simp
  exact W2_v1 m ρ c

theorem W3_v3 : W3 m ρ c (Proc.devRef .tc main_v3) = dstV (m ((c : Thread nD τ).loc main_arg1)) := by
  show StableHlo.after hostOps1 (W2 m ρ c) (Proc.devRef .tc main_v3) = _
  dsimp only [hostOps1]
  after_results_simp
  exact W2_v3 m ρ c

end Cert.Gin.Host

end
-- ==== Proof.GinHost2.lean ====
/-
  Layer 2's region and the host operations up to layer 3's region, read as the stretch before: the region leaves
  the layer function of its entry arrays, the reference's second rectified stage; the next stretch adds the
  residual argument, forms the neighbour sums and re-lays the third layer's per-column vectors as rows.
-/
import proofs.«178807_j81037442941188_1_alg».proof.Proof.GinHost1

set_option maxRecDepth 16384

noncomputable section

namespace Cert.Gin.Host

open Cert.KernelIdeal Cert.KernelIdeal.Gen Cert.Gin
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-- Layer 2's output array after its region: the layer function of the region's entry arrays, which is the
    reference's stage. -/
theorem W4_v36 (hK0 : ∀ (V : (c : Dev nD) → (b : Ref sig .tc) → Buf (Elt Ideal) ((c : Thread nD τ).loc b)) (c : Dev nD), (dat0 (F := Ideal) V c).arrAt 8 cfg0.N = layer 50000 86 128 (V c main_arg0) (V c main_v13) (V c main_arg5) (V c main_v14) (V c main_v15) (V c main_v16) (V c main_v17) (V c main_v18)) (hR1 : ∀ (x0 : (⟨Cert.ReferenceIdeal.S50000x86, .f32⟩ : BufTy).Contents (Elt Ideal)) (x1 : (⟨Cert.ReferenceIdeal.S2x800000, .i32⟩ : BufTy).Contents (Elt Ideal)) (x5 : (⟨Cert.ReferenceIdeal.S86x128, .f32⟩ : BufTy).Contents (Elt Ideal)) (x6 : (⟨Cert.ReferenceIdeal.S128, .f32⟩ : BufTy).Contents (Elt Ideal)) (x7 : (⟨Cert.ReferenceIdeal.S128, .f32⟩ : BufTy).Contents (Elt Ideal)) (x8 : (⟨Cert.ReferenceIdeal.S128, .f32⟩ : BufTy).Contents (Elt Ideal)) (x9 : (⟨Cert.ReferenceIdeal.S128, .f32⟩ : BufTy).Contents (Elt Ideal)) (x10 : (⟨Cert.ReferenceIdeal.S128, .f32⟩ : BufTy).Contents (Elt Ideal)), Cert.ReferenceIdeal.Read.val_main_v34 (F := Ideal) x0 x1 x5 x6 x7 x8 x9 x10 = layer 50000 86 128 x0 (Cert.ReferenceIdeal.Read.val_main_v13 (F := Ideal) x0 x1) x5 (row x6) (row x7) (row x8) (row x9) (row x10))
    (hK1 : ∀ (V : (c : Dev nD) → (b : Ref sig .tc) → Buf (Elt Ideal) ((c : Thread nD τ).loc b)) (c : Dev nD), (dat1 (F := Ideal) V c).arrAt 8 cfg1.N = layer 50000 128 256 (V c main_v20) (V c main_v30) (V c main_arg11) (V c main_v31) (V c main_v32) (V c main_v33) (V c main_v34) (V c main_v35)) (hR2 : ∀ (x0 : (⟨Cert.ReferenceIdeal.S50000x86, .f32⟩ : BufTy).Contents (Elt Ideal)) (x1 : (⟨Cert.ReferenceIdeal.S2x800000, .i32⟩ : BufTy).Contents (Elt Ideal)) (x2 : (⟨Cert.ReferenceIdeal.S50000x128, .f32⟩ : BufTy).Contents (Elt Ideal)) (x5 : (⟨Cert.ReferenceIdeal.S86x128, .f32⟩ : BufTy).Contents (Elt Ideal)) (x6 : (⟨Cert.ReferenceIdeal.S128, .f32⟩ : BufTy).Contents (Elt Ideal)) (x7 : (⟨Cert.ReferenceIdeal.S128, .f32⟩ : BufTy).Contents (Elt Ideal)) (x8 : (⟨Cert.ReferenceIdeal.S128, .f32⟩ : BufTy).Contents (Elt Ideal)) (x9 : (⟨Cert.ReferenceIdeal.S128, .f32⟩ : BufTy).Contents (Elt Ideal)) (x10 : (⟨Cert.ReferenceIdeal.S128, .f32⟩ : BufTy).Contents (Elt Ideal)) (x11 : (⟨Cert.ReferenceIdeal.S128x256, .f32⟩ : BufTy).Contents (Elt Ideal)) (x12 : (⟨Cert.ReferenceIdeal.S256, .f32⟩ : BufTy).Contents (Elt Ideal)) (x13 : (⟨Cert.ReferenceIdeal.S256, .f32⟩ : BufTy).Contents (Elt Ideal)) (x14 : (⟨Cert.ReferenceIdeal.S256, .f32⟩ : BufTy).Contents (Elt Ideal)) (x15 : (⟨Cert.ReferenceIdeal.S256, .f32⟩ : BufTy).Contents (Elt Ideal)) (x16 : (⟨Cert.ReferenceIdeal.S256, .f32⟩ : BufTy).Contents (Elt Ideal)), Cert.ReferenceIdeal.Read.val_main_v66 (F := Ideal) x0 x1 x2 x5 x6 x7 x8 x9 x10 x11 x12 x13 x14 x15 x16 = layer 50000 128 256 (Cert.ReferenceIdeal.Read.val_main_v35 (F := Ideal) x0 x1 x2 x5 x6 x7 x8 x9 x10) (Cert.ReferenceIdeal.Read.val_main_v45 (F := Ideal) x0 x1 x2 x5 x6 x7 x8 x9 x10) x11 (row x12) (row x13) (row x14) (row x15) (row x16)) :
    W4 m ρ c (Proc.devRef .tc main_v36) = Cert.ReferenceIdeal.Read.val_main_v66 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (W4_arr m ρ c 8).trans ?_
  rw [hK1 (V3 m ρ) c, hR2]
  show layer 50000 128 256 (W3 m ρ c (Proc.devRef .tc main_v20)) (W3 m ρ c (Proc.devRef .tc main_v30)) (W3 m ρ c (Proc.devRef .tc main_arg11)) (W3 m ρ c (Proc.devRef .tc main_v31)) (W3 m ρ c (Proc.devRef .tc main_v32)) (W3 m ρ c (Proc.devRef .tc main_v33)) (W3 m ρ c (Proc.devRef .tc main_v34)) (W3 m ρ c (Proc.devRef .tc main_v35)) = _
  rw [W3_v20 m ρ c hK0 hR1, W3_v30 m ρ c hK0 hR1, W3_arg11, W3_v31, W3_v32, W3_v33, W3_v34, W3_v35]

theorem W4_arg3 : W4 m ρ c (Proc.devRef .tc main_arg3) = (m ((c : Thread nD τ).loc main_arg3)) :=
  (W4_of_ne m ρ c main_arg3 (by decide)).trans (W3_arg3 m ρ c)

theorem W4_arg4 : W4 m ρ c (Proc.devRef .tc main_arg4) = (m ((c : Thread nD τ).loc main_arg4)) :=
  (W4_of_ne m ρ c main_arg4 (by decide)).trans (W3_arg4 m ρ c)

theorem W4_arg17 : W4 m ρ c (Proc.devRef .tc main_arg17) = (m ((c : Thread nD τ).loc main_arg17)) :=
  (W4_of_ne m ρ c main_arg17 (by decide)).trans (W3_arg17 m ρ c)

theorem W4_arg18 : W4 m ρ c (Proc.devRef .tc main_arg18) = (m ((c : Thread nD τ).loc main_arg18)) :=
  (W4_of_ne m ρ c main_arg18 (by decide)).trans (W3_arg18 m ρ c)

theorem W4_arg19 : W4 m ρ c (Proc.devRef .tc main_arg19) = (m ((c : Thread nD τ).loc main_arg19)) :=
  (W4_of_ne m ρ c main_arg19 (by decide)).trans (W3_arg19 m ρ c)

theorem W4_arg20 : W4 m ρ c (Proc.devRef .tc main_arg20) = (m ((c : Thread nD τ).loc main_arg20)) :=
  (W4_of_ne m ρ c main_arg20 (by decide)).trans (W3_arg20 m ρ c)

theorem W4_arg21 : W4 m ρ c (Proc.devRef .tc main_arg21) = (m ((c : Thread nD τ).loc main_arg21)) :=
  (W4_of_ne m ρ c main_arg21 (by decide)).trans (W3_arg21 m ρ c)

theorem W4_arg22 : W4 m ρ c (Proc.devRef .tc main_arg22) = (m ((c : Thread nD τ).loc main_arg22)) :=
  (W4_of_ne m ρ c main_arg22 (by decide)).trans (W3_arg22 m ρ c)

theorem W4_v1 : W4 m ρ c (Proc.devRef .tc main_v1) = srcV (m ((c : Thread nD τ).loc main_arg1)) :=
  (W4_of_ne m ρ c main_v1 (by decide)).trans (W3_v1 m ρ c)

theorem W4_v3 : W4 m ρ c (Proc.devRef .tc main_v3) = dstV (m ((c : Thread nD τ).loc main_arg1)) :=
  (W4_of_ne m ρ c main_v3 (by decide)).trans (W3_v3 m ρ c)

/-- The node features entering layer 3: the previous layer's output plus its residual argument. -/
theorem W5_v37 (hK0 : ∀ (V : (c : Dev nD) → (b : Ref sig .tc) → Buf (Elt Ideal) ((c : Thread nD τ).loc b)) (c : Dev nD), (dat0 (F := Ideal) V c).arrAt 8 cfg0.N = layer 50000 86 128 (V c main_arg0) (V c main_v13) (V c main_arg5) (V c main_v14) (V c main_v15) (V c main_v16) (V c main_v17) (V c main_v18)) (hR1 : ∀ (x0 : (⟨Cert.ReferenceIdeal.S50000x86, .f32⟩ : BufTy).Contents (Elt Ideal)) (x1 : (⟨Cert.ReferenceIdeal.S2x800000, .i32⟩ : BufTy).Contents (Elt Ideal)) (x5 : (⟨Cert.ReferenceIdeal.S86x128, .f32⟩ : BufTy).Contents (Elt Ideal)) (x6 : (⟨Cert.ReferenceIdeal.S128, .f32⟩ : BufTy).Contents (Elt Ideal)) (x7 : (⟨Cert.ReferenceIdeal.S128, .f32⟩ : BufTy).Contents (Elt Ideal)) (x8 : (⟨Cert.ReferenceIdeal.S128, .f32⟩ : BufTy).Contents (Elt Ideal)) (x9 : (⟨Cert.ReferenceIdeal.S128, .f32⟩ : BufTy).Contents (Elt Ideal)) (x10 : (⟨Cert.ReferenceIdeal.S128, .f32⟩ : BufTy).Contents (Elt Ideal)), Cert.ReferenceIdeal.Read.val_main_v34 (F := Ideal) x0 x1 x5 x6 x7 x8 x9 x10 = layer 50000 86 128 x0 (Cert.ReferenceIdeal.Read.val_main_v13 (F := Ideal) x0 x1) x5 (row x6) (row x7) (row x8) (row x9) (row x10))
    (hK1 : ∀ (V : (c : Dev nD) → (b : Ref sig .tc) → Buf (Elt Ideal) ((c : Thread nD τ).loc b)) (c : Dev nD), (dat1 (F := Ideal) V c).arrAt 8 cfg1.N = layer 50000 128 256 (V c main_v20) (V c main_v30) (V c main_arg11) (V c main_v31) (V c main_v32) (V c main_v33) (V c main_v34) (V c main_v35)) (hR2 : ∀ (x0 : (⟨Cert.ReferenceIdeal.S50000x86, .f32⟩ : BufTy).Contents (Elt Ideal)) (x1 : (⟨Cert.ReferenceIdeal.S2x800000, .i32⟩ : BufTy).Contents (Elt Ideal)) (x2 : (⟨Cert.ReferenceIdeal.S50000x128, .f32⟩ : BufTy).Contents (Elt Ideal)) (x5 : (⟨Cert.ReferenceIdeal.S86x128, .f32⟩ : BufTy).Contents (Elt Ideal)) (x6 : (⟨Cert.ReferenceIdeal.S128, .f32⟩ : BufTy).Contents (Elt Ideal)) (x7 : (⟨Cert.ReferenceIdeal.S128, .f32⟩ : BufTy).Contents (Elt Ideal)) (x8 : (⟨Cert.ReferenceIdeal.S128, .f32⟩ : BufTy).Contents (Elt Ideal)) (x9 : (⟨Cert.ReferenceIdeal.S128, .f32⟩ : BufTy).Contents (Elt Ideal)) (x10 : (⟨Cert.ReferenceIdeal.S128, .f32⟩ : BufTy).Contents (Elt Ideal)) (x11 : (⟨Cert.ReferenceIdeal.S128x256, .f32⟩ : BufTy).Contents (Elt Ideal)) (x12 : (⟨Cert.ReferenceIdeal.S256, .f32⟩ : BufTy).Contents (Elt Ideal)) (x13 : (⟨Cert.ReferenceIdeal.S256, .f32⟩ : BufTy).Contents (Elt Ideal)) (x14 : (⟨Cert.ReferenceIdeal.S256, .f32⟩ : BufTy).Contents (Elt Ideal)) (x15 : (⟨Cert.ReferenceIdeal.S256, .f32⟩ : BufTy).Contents (Elt Ideal)) (x16 : (⟨Cert.ReferenceIdeal.S256, .f32⟩ : BufTy).Contents (Elt Ideal)), Cert.ReferenceIdeal.Read.val_main_v66 (F := Ideal) x0 x1 x2 x5 x6 x7 x8 x9 x10 x11 x12 x13 x14 x15 x16 = layer 50000 128 256 (Cert.ReferenceIdeal.Read.val_main_v35 (F := Ideal) x0 x1 x2 x5 x6 x7 x8 x9 x10) (Cert.ReferenceIdeal.Read.val_main_v45 (F := Ideal) x0 x1 x2 x5 x6 x7 x8 x9 x10) x11 (row x12) (row x13) (row x14) (row x15) (row x16)) :
    W5 m ρ c (Proc.devRef .tc main_v37) = Cert.ReferenceIdeal.Read.val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  show StableHlo.after hostOps2 (W4 m ρ c) (Proc.devRef .tc main_v37) = _
  dsimp only [hostOps2]
  after_results_simp
  rw [W4_v36 m ρ c hK0 hR1 hK1 hR2, W4_arg3]
  rfl

/-- Their neighbour sums: the reference's scatter-add of the same gathered rows. -/
theorem W5_v47 (hK0 : ∀ (V : (c : Dev nD) → (b : Ref sig .tc) → Buf (Elt Ideal) ((c : Thread nD τ).loc b)) (c : Dev nD), (dat0 (F := Ideal) V c).arrAt 8 cfg0.N = layer 50000 86 128 (V c main_arg0) (V c main_v13) (V c main_arg5) (V c main_v14) (V c main_v15) (V c main_v16) (V c main_v17) (V c main_v18)) (hR1 : ∀ (x0 : (⟨Cert.ReferenceIdeal.S50000x86, .f32⟩ : BufTy).Contents (Elt Ideal)) (x1 : (⟨Cert.ReferenceIdeal.S2x800000, .i32⟩ : BufTy).Contents (Elt Ideal)) (x5 : (⟨Cert.ReferenceIdeal.S86x128, .f32⟩ : BufTy).Contents (Elt Ideal)) (x6 : (⟨Cert.ReferenceIdeal.S128, .f32⟩ : BufTy).Contents (Elt Ideal)) (x7 : (⟨Cert.ReferenceIdeal.S128, .f32⟩ : BufTy).Contents (Elt Ideal)) (x8 : (⟨Cert.ReferenceIdeal.S128, .f32⟩ : BufTy).Contents (Elt Ideal)) (x9 : (⟨Cert.ReferenceIdeal.S128, .f32⟩ : BufTy).Contents (Elt Ideal)) (x10 : (⟨Cert.ReferenceIdeal.S128, .f32⟩ : BufTy).Contents (Elt Ideal)), Cert.ReferenceIdeal.Read.val_main_v34 (F := Ideal) x0 x1 x5 x6 x7 x8 x9 x10 = layer 50000 86 128 x0 (Cert.ReferenceIdeal.Read.val_main_v13 (F := Ideal) x0 x1) x5 (row x6) (row x7) (row x8) (row x9) (row x10))
    (hK1 : ∀ (V : (c : Dev nD) → (b : Ref sig .tc) → Buf (Elt Ideal) ((c : Thread nD τ).loc b)) (c : Dev nD), (dat1 (F := Ideal) V c).arrAt 8 cfg1.N = layer 50000 128 256 (V c main_v20) (V c main_v30) (V c main_arg11) (V c main_v31) (V c main_v32) (V c main_v33) (V c main_v34) (V c main_v35)) (hR2 : ∀ (x0 : (⟨Cert.ReferenceIdeal.S50000x86, .f32⟩ : BufTy).Contents (Elt Ideal)) (x1 : (⟨Cert.ReferenceIdeal.S2x800000, .i32⟩ : BufTy).Contents (Elt Ideal)) (x2 : (⟨Cert.ReferenceIdeal.S50000x128, .f32⟩ : BufTy).Contents (Elt Ideal)) (x5 : (⟨Cert.ReferenceIdeal.S86x128, .f32⟩ : BufTy).Contents (Elt Ideal)) (x6 : (⟨Cert.ReferenceIdeal.S128, .f32⟩ : BufTy).Contents (Elt Ideal)) (x7 : (⟨Cert.ReferenceIdeal.S128, .f32⟩ : BufTy).Contents (Elt Ideal)) (x8 : (⟨Cert.ReferenceIdeal.S128, .f32⟩ : BufTy).Contents (Elt Ideal)) (x9 : (⟨Cert.ReferenceIdeal.S128, .f32⟩ : BufTy).Contents (Elt Ideal)) (x10 : (⟨Cert.ReferenceIdeal.S128, .f32⟩ : BufTy).Contents (Elt Ideal)) (x11 : (⟨Cert.ReferenceIdeal.S128x256, .f32⟩ : BufTy).Contents (Elt Ideal)) (x12 : (⟨Cert.ReferenceIdeal.S256, .f32⟩ : BufTy).Contents (Elt Ideal)) (x13 : (⟨Cert.ReferenceIdeal.S256, .f32⟩ : BufTy).Contents (Elt Ideal)) (x14 : (⟨Cert.ReferenceIdeal.S256, .f32⟩ : BufTy).Contents (Elt Ideal)) (x15 : (⟨Cert.ReferenceIdeal.S256, .f32⟩ : BufTy).Contents (Elt Ideal)) (x16 : (⟨Cert.ReferenceIdeal.S256, .f32⟩ : BufTy).Contents (Elt Ideal)), Cert.ReferenceIdeal.Read.val_main_v66 (F := Ideal) x0 x1 x2 x5 x6 x7 x8 x9 x10 x11 x12 x13 x14 x15 x16 = layer 50000 128 256 (Cert.ReferenceIdeal.Read.val_main_v35 (F := Ideal) x0 x1 x2 x5 x6 x7 x8 x9 x10) (Cert.ReferenceIdeal.Read.val_main_v45 (F := Ideal) x0 x1 x2 x5 x6 x7 x8 x9 x10) x11 (row x12) (row x13) (row x14) (row x15) (row x16)) :
    W5 m ρ c (Proc.devRef .tc main_v47) = Cert.ReferenceIdeal.Read.val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  show StableHlo.after hostOps2 (W4 m ρ c) (Proc.devRef .tc main_v47) = _
  dsimp only [hostOps2]
  after_results_simp
  rw [W4_v36 m ρ c hK0 hR1 hK1 hR2, W4_arg3, W4_v1, W4_v3]
  rfl

theorem W5_arg17 : W5 m ρ c (Proc.devRef .tc main_arg17) = (m ((c : Thread nD τ).loc main_arg17)) := by
  show StableHlo.after hostOps2 (W4 m ρ c) (Proc.devRef .tc main_arg17) = _
  dsimp only [hostOps2]
  after_results_simp
  exact W4_arg17 m ρ c

theorem W5_v48 : W5 m ρ c (Proc.devRef .tc main_v48) = row (m ((c : Thread nD τ).loc main_arg18)) := by
  show StableHlo.after hostOps2 (W4 m ρ c) (Proc.devRef .tc main_v48) = _
  dsimp only [hostOps2]
  after_results_simp
  rw [W4_arg18]
  exact shapeCast_row _ _

theorem W5_v49 : W5 m ρ c (Proc.devRef .tc main_v49) = row (m ((c : Thread nD τ).loc main_arg19)) := by
  show StableHlo.after hostOps2 (W4 m ρ c) (Proc.devRef .tc main_v49) = _
  dsimp only [hostOps2]
  after_results_simp
  rw [W4_arg19]
  exact shapeCast_row _ _

theorem W5_v50 : W5 m ρ c (Proc.devRef .tc main_v50) = row (m ((c : Thread nD τ).loc main_arg20)) := by
  show StableHlo.after hostOps2 (W4 m ρ c) (Proc.devRef .tc main_v50) = _
  dsimp only [hostOps2]
  after_results_simp
  rw [W4_arg20]
  exact shapeCast_row _ _

theorem W5_v51 : W5 m ρ c (Proc.devRef .tc main_v51) = row (m ((c : Thread nD τ).loc main_arg21)) := by
  show StableHlo.after hostOps2 (W4 m ρ c) (Proc.devRef .tc main_v51) = _
  dsimp only [hostOps2]
  after_results_simp
  rw [W4_arg21]
  exact shapeCast_row _ _

theorem W5_v52 : W5 m ρ c (Proc.devRef .tc main_v52) = row (m ((c : Thread nD τ).loc main_arg22)) := by
  show StableHlo.after hostOps2 (W4 m ρ c) (Proc.devRef .tc main_v52) = _
  dsimp only [hostOps2]
  after_results_simp
  rw [W4_arg22]
  exact shapeCast_row _ _

theorem W5_arg4 : W5 m ρ c (Proc.devRef .tc main_arg4) = (m ((c : Thread nD τ).loc main_arg4)) := by
  show StableHlo.after hostOps2 (W4 m ρ c) (Proc.devRef .tc main_arg4) = _
  dsimp only [hostOps2]
  after_results_simp
  exact W4_arg4 m ρ c

end Cert.Gin.Host

end
-- ==== Proof.GinHost3.lean ====
/-
  Layer 3's region and the last host operation, read: the region leaves the reference's third rectified stage, and
  the program's result is that array plus the last residual argument — the reference's result term.
-/
import proofs.«178807_j81037442941188_1_alg».proof.Proof.GinHost2

set_option maxRecDepth 16384

noncomputable section

namespace Cert.Gin.Host

open Cert.KernelIdeal Cert.KernelIdeal.Gen Cert.Gin
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-- Layer 3's output array after its region: the layer function of the region's entry arrays, which is the
    reference's stage. -/
theorem W6_v53 (hK0 : ∀ (V : (c : Dev nD) → (b : Ref sig .tc) → Buf (Elt Ideal) ((c : Thread nD τ).loc b)) (c : Dev nD), (dat0 (F := Ideal) V c).arrAt 8 cfg0.N = layer 50000 86 128 (V c main_arg0) (V c main_v13) (V c main_arg5) (V c main_v14) (V c main_v15) (V c main_v16) (V c main_v17) (V c main_v18)) (hR1 : ∀ (x0 : (⟨Cert.ReferenceIdeal.S50000x86, .f32⟩ : BufTy).Contents (Elt Ideal)) (x1 : (⟨Cert.ReferenceIdeal.S2x800000, .i32⟩ : BufTy).Contents (Elt Ideal)) (x5 : (⟨Cert.ReferenceIdeal.S86x128, .f32⟩ : BufTy).Contents (Elt Ideal)) (x6 : (⟨Cert.ReferenceIdeal.S128, .f32⟩ : BufTy).Contents (Elt Ideal)) (x7 : (⟨Cert.ReferenceIdeal.S128, .f32⟩ : BufTy).Contents (Elt Ideal)) (x8 : (⟨Cert.ReferenceIdeal.S128, .f32⟩ : BufTy).Contents (Elt Ideal)) (x9 : (⟨Cert.ReferenceIdeal.S128, .f32⟩ : BufTy).Contents (Elt Ideal)) (x10 : (⟨Cert.ReferenceIdeal.S128, .f32⟩ : BufTy).Contents (Elt Ideal)), Cert.ReferenceIdeal.Read.val_main_v34 (F := Ideal) x0 x1 x5 x6 x7 x8 x9 x10 = layer 50000 86 128 x0 (Cert.ReferenceIdeal.Read.val_main_v13 (F := Ideal) x0 x1) x5 (row x6) (row x7) (row x8) (row x9) (row x10))
    (hK1 : ∀ (V : (c : Dev nD) → (b : Ref sig .tc) → Buf (Elt Ideal) ((c : Thread nD τ).loc b)) (c : Dev nD), (dat1 (F := Ideal) V c).arrAt 8 cfg1.N = layer 50000 128 256 (V c main_v20) (V c main_v30) (V c main_arg11) (V c main_v31) (V c main_v32) (V c main_v33) (V c main_v34) (V c main_v35)) (hR2 : ∀ (x0 : (⟨Cert.ReferenceIdeal.S50000x86, .f32⟩ : BufTy).Contents (Elt Ideal)) (x1 : (⟨Cert.ReferenceIdeal.S2x800000, .i32⟩ : BufTy).Contents (Elt Ideal)) (x2 : (⟨Cert.ReferenceIdeal.S50000x128, .f32⟩ : BufTy).Contents (Elt Ideal)) (x5 : (⟨Cert.ReferenceIdeal.S86x128, .f32⟩ : BufTy).Contents (Elt Ideal)) (x6 : (⟨Cert.ReferenceIdeal.S128, .f32⟩ : BufTy).Contents (Elt Ideal)) (x7 : (⟨Cert.ReferenceIdeal.S128, .f32⟩ : BufTy).Contents (Elt Ideal)) (x8 : (⟨Cert.ReferenceIdeal.S128, .f32⟩ : BufTy).Contents (Elt Ideal)) (x9 : (⟨Cert.ReferenceIdeal.S128, .f32⟩ : BufTy).Contents (Elt Ideal)) (x10 : (⟨Cert.ReferenceIdeal.S128, .f32⟩ : BufTy).Contents (Elt Ideal)) (x11 : (⟨Cert.ReferenceIdeal.S128x256, .f32⟩ : BufTy).Contents (Elt Ideal)) (x12 : (⟨Cert.ReferenceIdeal.S256, .f32⟩ : BufTy).Contents (Elt Ideal)) (x13 : (⟨Cert.ReferenceIdeal.S256, .f32⟩ : BufTy).Contents (Elt Ideal)) (x14 : (⟨Cert.ReferenceIdeal.S256, .f32⟩ : BufTy).Contents (Elt Ideal)) (x15 : (⟨Cert.ReferenceIdeal.S256, .f32⟩ : BufTy).Contents (Elt Ideal)) (x16 : (⟨Cert.ReferenceIdeal.S256, .f32⟩ : BufTy).Contents (Elt Ideal)), Cert.ReferenceIdeal.Read.val_main_v66 (F := Ideal) x0 x1 x2 x5 x6 x7 x8 x9 x10 x11 x12 x13 x14 x15 x16 = layer 50000 128 256 (Cert.ReferenceIdeal.Read.val_main_v35 (F := Ideal) x0 x1 x2 x5 x6 x7 x8 x9 x10) (Cert.ReferenceIdeal.Read.val_main_v45 (F := Ideal) x0 x1 x2 x5 x6 x7 x8 x9 x10) x11 (row x12) (row x13) (row x14) (row x15) (row x16))
    (hK2 : ∀ (V : (c : Dev nD) → (b : Ref sig .tc) → Buf (Elt Ideal) ((c : Thread nD τ).loc b)) (c : Dev nD), (dat2 (F := Ideal) V c).arrAt 8 cfg2.N = layer 50000 256 512 (V c main_v37) (V c main_v47) (V c main_arg17) (V c main_v48) (V c main_v49) (V c main_v50) (V c main_v51) (V c main_v52)) (hR3 : ∀ (x0 : (⟨Cert.ReferenceIdeal.S50000x86, .f32⟩ : BufTy).Contents (Elt Ideal)) (x1 : (⟨Cert.ReferenceIdeal.S2x800000, .i32⟩ : BufTy).Contents (Elt Ideal)) (x2 : (⟨Cert.ReferenceIdeal.S50000x128, .f32⟩ : BufTy).Contents (Elt Ideal)) (x3 : (⟨Cert.ReferenceIdeal.S50000x256, .f32⟩ : BufTy).Contents (Elt Ideal)) (x5 : (⟨Cert.ReferenceIdeal.S86x128, .f32⟩ : BufTy).Contents (Elt Ideal)) (x6 : (⟨Cert.ReferenceIdeal.S128, .f32⟩ : BufTy).Contents (Elt Ideal)) (x7 : (⟨Cert.ReferenceIdeal.S128, .f32⟩ : BufTy).Contents (Elt Ideal)) (x8 : (⟨Cert.ReferenceIdeal.S128, .f32⟩ : BufTy).Contents (Elt Ideal)) (x9 : (⟨Cert.ReferenceIdeal.S128, .f32⟩ : BufTy).Contents (Elt Ideal)) (x10 : (⟨Cert.ReferenceIdeal.S128, .f32⟩ : BufTy).Contents (Elt Ideal)) (x11 : (⟨Cert.ReferenceIdeal.S128x256, .f32⟩ : BufTy).Contents (Elt Ideal)) (x12 : (⟨Cert.ReferenceIdeal.S256, .f32⟩ : BufTy).Contents (Elt Ideal)) (x13 : (⟨Cert.ReferenceIdeal.S256, .f32⟩ : BufTy).Contents (Elt Ideal)) (x14 : (⟨Cert.ReferenceIdeal.S256, .f32⟩ : BufTy).Contents (Elt Ideal)) (x15 : (⟨Cert.ReferenceIdeal.S256, .f32⟩ : BufTy).Contents (Elt Ideal)) (x16 : (⟨Cert.ReferenceIdeal.S256, .f32⟩ : BufTy).Contents (Elt Ideal)) (x17 : (⟨Cert.ReferenceIdeal.S256x512, .f32⟩ : BufTy).Contents (Elt Ideal)) (x18 : (⟨Cert.ReferenceIdeal.S512, .f32⟩ : BufTy).Contents (Elt Ideal)) (x19 : (⟨Cert.ReferenceIdeal.S512, .f32⟩ : BufTy).Contents (Elt Ideal)) (x20 : (⟨Cert.ReferenceIdeal.S512, .f32⟩ : BufTy).Contents (Elt Ideal)) (x21 : (⟨Cert.ReferenceIdeal.S512, .f32⟩ : BufTy).Contents (Elt Ideal)) (x22 : (⟨Cert.ReferenceIdeal.S512, .f32⟩ : BufTy).Contents (Elt Ideal)), Cert.ReferenceIdeal.Read.val_main_v98 (F := Ideal) x0 x1 x2 x3 x5 x6 x7 x8 x9 x10 x11 x12 x13 x14 x15 x16 x17 x18 x19 x20 x21 x22 = layer 50000 256 512 (Cert.ReferenceIdeal.Read.val_main_v67 (F := Ideal) x0 x1 x2 x3 x5 x6 x7 x8 x9 x10 x11 x12 x13 x14 x15 x16) (Cert.ReferenceIdeal.Read.val_main_v77 (F := Ideal) x0 x1 x2 x3 x5 x6 x7 x8 x9 x10 x11 x12 x13 x14 x15 x16) x17 (row x18) (row x19) (row x20) (row x21) (row x22)) :
    W6 m ρ c (Proc.devRef .tc main_v53) = Cert.ReferenceIdeal.Read.val_main_v98 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) := by
  refine (W6_arr m ρ c 8).trans ?_
  rw [hK2 (V5 m ρ) c, hR3]
  show layer 50000 256 512 (W5 m ρ c (Proc.devRef .tc main_v37)) (W5 m ρ c (Proc.devRef .tc main_v47)) (W5 m ρ c (Proc.devRef .tc main_arg17)) (W5 m ρ c (Proc.devRef .tc main_v48)) (W5 m ρ c (Proc.devRef .tc main_v49)) (W5 m ρ c (Proc.devRef .tc main_v50)) (W5 m ρ c (Proc.devRef .tc main_v51)) (W5 m ρ c (Proc.devRef .tc main_v52)) = _
  rw [W5_v37 m ρ c hK0 hR1 hK1 hR2, W5_v47 m ρ c hK0 hR1 hK1 hR2, W5_arg17, W5_v48, W5_v49, W5_v50, W5_v51, W5_v52]

theorem W6_arg4 : W6 m ρ c (Proc.devRef .tc main_arg4) = (m ((c : Thread nD τ).loc main_arg4)) :=
  (W6_of_ne m ρ c main_arg4 (by decide)).trans (W5_arg4 m ρ c)

/-- THE RESULT: what the last stretch leaves in the result buffer is the reference's result term of the launch
    arguments — the third layer's output plus its residual argument. -/
theorem W7_v54 (hK0 : ∀ (V : (c : Dev nD) → (b : Ref sig .tc) → Buf (Elt Ideal) ((c : Thread nD τ).loc b)) (c : Dev nD), (dat0 (F := Ideal) V c).arrAt 8 cfg0.N = layer 50000 86 128 (V c main_arg0) (V c main_v13) (V c main_arg5) (V c main_v14) (V c main_v15) (V c main_v16) (V c main_v17) (V c main_v18)) (hR1 : ∀ (x0 : (⟨Cert.ReferenceIdeal.S50000x86, .f32⟩ : BufTy).Contents (Elt Ideal)) (x1 : (⟨Cert.ReferenceIdeal.S2x800000, .i32⟩ : BufTy).Contents (Elt Ideal)) (x5 : (⟨Cert.ReferenceIdeal.S86x128, .f32⟩ : BufTy).Contents (Elt Ideal)) (x6 : (⟨Cert.ReferenceIdeal.S128, .f32⟩ : BufTy).Contents (Elt Ideal)) (x7 : (⟨Cert.ReferenceIdeal.S128, .f32⟩ : BufTy).Contents (Elt Ideal)) (x8 : (⟨Cert.ReferenceIdeal.S128, .f32⟩ : BufTy).Contents (Elt Ideal)) (x9 : (⟨Cert.ReferenceIdeal.S128, .f32⟩ : BufTy).Contents (Elt Ideal)) (x10 : (⟨Cert.ReferenceIdeal.S128, .f32⟩ : BufTy).Contents (Elt Ideal)), Cert.ReferenceIdeal.Read.val_main_v34 (F := Ideal) x0 x1 x5 x6 x7 x8 x9 x10 = layer 50000 86 128 x0 (Cert.ReferenceIdeal.Read.val_main_v13 (F := Ideal) x0 x1) x5 (row x6) (row x7) (row x8) (row x9) (row x10))
    (hK1 : ∀ (V : (c : Dev nD) → (b : Ref sig .tc) → Buf (Elt Ideal) ((c : Thread nD τ).loc b)) (c : Dev nD), (dat1 (F := Ideal) V c).arrAt 8 cfg1.N = layer 50000 128 256 (V c main_v20) (V c main_v30) (V c main_arg11) (V c main_v31) (V c main_v32) (V c main_v33) (V c main_v34) (V c main_v35)) (hR2 : ∀ (x0 : (⟨Cert.ReferenceIdeal.S50000x86, .f32⟩ : BufTy).Contents (Elt Ideal)) (x1 : (⟨Cert.ReferenceIdeal.S2x800000, .i32⟩ : BufTy).Contents (Elt Ideal)) (x2 : (⟨Cert.ReferenceIdeal.S50000x128, .f32⟩ : BufTy).Contents (Elt Ideal)) (x5 : (⟨Cert.ReferenceIdeal.S86x128, .f32⟩ : BufTy).Contents (Elt Ideal)) (x6 : (⟨Cert.ReferenceIdeal.S128, .f32⟩ : BufTy).Contents (Elt Ideal)) (x7 : (⟨Cert.ReferenceIdeal.S128, .f32⟩ : BufTy).Contents (Elt Ideal)) (x8 : (⟨Cert.ReferenceIdeal.S128, .f32⟩ : BufTy).Contents (Elt Ideal)) (x9 : (⟨Cert.ReferenceIdeal.S128, .f32⟩ : BufTy).Contents (Elt Ideal)) (x10 : (⟨Cert.ReferenceIdeal.S128, .f32⟩ : BufTy).Contents (Elt Ideal)) (x11 : (⟨Cert.ReferenceIdeal.S128x256, .f32⟩ : BufTy).Contents (Elt Ideal)) (x12 : (⟨Cert.ReferenceIdeal.S256, .f32⟩ : BufTy).Contents (Elt Ideal)) (x13 : (⟨Cert.ReferenceIdeal.S256, .f32⟩ : BufTy).Contents (Elt Ideal)) (x14 : (⟨Cert.ReferenceIdeal.S256, .f32⟩ : BufTy).Contents (Elt Ideal)) (x15 : (⟨Cert.ReferenceIdeal.S256, .f32⟩ : BufTy).Contents (Elt Ideal)) (x16 : (⟨Cert.ReferenceIdeal.S256, .f32⟩ : BufTy).Contents (Elt Ideal)), Cert.ReferenceIdeal.Read.val_main_v66 (F := Ideal) x0 x1 x2 x5 x6 x7 x8 x9 x10 x11 x12 x13 x14 x15 x16 = layer 50000 128 256 (Cert.ReferenceIdeal.Read.val_main_v35 (F := Ideal) x0 x1 x2 x5 x6 x7 x8 x9 x10) (Cert.ReferenceIdeal.Read.val_main_v45 (F := Ideal) x0 x1 x2 x5 x6 x7 x8 x9 x10) x11 (row x12) (row x13) (row x14) (row x15) (row x16))
    (hK2 : ∀ (V : (c : Dev nD) → (b : Ref sig .tc) → Buf (Elt Ideal) ((c : Thread nD τ).loc b)) (c : Dev nD), (dat2 (F := Ideal) V c).arrAt 8 cfg2.N = layer 50000 256 512 (V c main_v37) (V c main_v47) (V c main_arg17) (V c main_v48) (V c main_v49) (V c main_v50) (V c main_v51) (V c main_v52)) (hR3 : ∀ (x0 : (⟨Cert.ReferenceIdeal.S50000x86, .f32⟩ : BufTy).Contents (Elt Ideal)) (x1 : (⟨Cert.ReferenceIdeal.S2x800000, .i32⟩ : BufTy).Contents (Elt Ideal)) (x2 : (⟨Cert.ReferenceIdeal.S50000x128, .f32⟩ : BufTy).Contents (Elt Ideal)) (x3 : (⟨Cert.ReferenceIdeal.S50000x256, .f32⟩ : BufTy).Contents (Elt Ideal)) (x5 : (⟨Cert.ReferenceIdeal.S86x128, .f32⟩ : BufTy).Contents (Elt Ideal)) (x6 : (⟨Cert.ReferenceIdeal.S128, .f32⟩ : BufTy).Contents (Elt Ideal)) (x7 : (⟨Cert.ReferenceIdeal.S128, .f32⟩ : BufTy).Contents (Elt Ideal)) (x8 : (⟨Cert.ReferenceIdeal.S128, .f32⟩ : BufTy).Contents (Elt Ideal)) (x9 : (⟨Cert.ReferenceIdeal.S128, .f32⟩ : BufTy).Contents (Elt Ideal)) (x10 : (⟨Cert.ReferenceIdeal.S128, .f32⟩ : BufTy).Contents (Elt Ideal)) (x11 : (⟨Cert.ReferenceIdeal.S128x256, .f32⟩ : BufTy).Contents (Elt Ideal)) (x12 : (⟨Cert.ReferenceIdeal.S256, .f32⟩ : BufTy).Contents (Elt Ideal)) (x13 : (⟨Cert.ReferenceIdeal.S256, .f32⟩ : BufTy).Contents (Elt Ideal)) (x14 : (⟨Cert.ReferenceIdeal.S256, .f32⟩ : BufTy).Contents (Elt Ideal)) (x15 : (⟨Cert.ReferenceIdeal.S256, .f32⟩ : BufTy).Contents (Elt Ideal)) (x16 : (⟨Cert.ReferenceIdeal.S256, .f32⟩ : BufTy).Contents (Elt Ideal)) (x17 : (⟨Cert.ReferenceIdeal.S256x512, .f32⟩ : BufTy).Contents (Elt Ideal)) (x18 : (⟨Cert.ReferenceIdeal.S512, .f32⟩ : BufTy).Contents (Elt Ideal)) (x19 : (⟨Cert.ReferenceIdeal.S512, .f32⟩ : BufTy).Contents (Elt Ideal)) (x20 : (⟨Cert.ReferenceIdeal.S512, .f32⟩ : BufTy).Contents (Elt Ideal)) (x21 : (⟨Cert.ReferenceIdeal.S512, .f32⟩ : BufTy).Contents (Elt Ideal)) (x22 : (⟨Cert.ReferenceIdeal.S512, .f32⟩ : BufTy).Contents (Elt Ideal)), Cert.ReferenceIdeal.Read.val_main_v98 (F := Ideal) x0 x1 x2 x3 x5 x6 x7 x8 x9 x10 x11 x12 x13 x14 x15 x16 x17 x18 x19 x20 x21 x22 = layer 50000 256 512 (Cert.ReferenceIdeal.Read.val_main_v67 (F := Ideal) x0 x1 x2 x3 x5 x6 x7 x8 x9 x10 x11 x12 x13 x14 x15 x16) (Cert.ReferenceIdeal.Read.val_main_v77 (F := Ideal) x0 x1 x2 x3 x5 x6 x7 x8 x9 x10 x11 x12 x13 x14 x15 x16) x17 (row x18) (row x19) (row x20) (row x21) (row x22)) :
    W7 m ρ c (Proc.devRef .tc main_v54) = Cert.ReferenceIdeal.Read.val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) := by
  show StableHlo.after hostOps3 (W6 m ρ c) (Proc.devRef .tc main_v54) = _
  dsimp only [hostOps3]
  after_results_simp
  rw [W6_v53 m ρ c hK0 hR1 hK1 hR2 hK2 hR3, W6_arg4]
  rfl

end Cert.Gin.Host

end
-- ==== Proof.lean ====
/-
  The certificate of a three-layer graph network: per layer, every node's features plus the sum of its
  neighbours' features (a scatter-add of gathered rows over the edge list) pass through a linear map, a
  batch normalisation with fixed statistics and a rectifier; each layer's output plus a residual argument feeds
  the next. The kernel program computes the linear map, normalisation and rectifier of each layer in a
  grid of fifty 1000-row blocks, between host stretches that form the neighbour sums; the reference computes the
  same on whole arrays.

  At the ideal instance a float is an extended real and every operation the exact one, so a change of float
  format on the way into the matrix product is the identity, and the two programs apply, entry by entry, the same
  operations in the same order: entry (r, q) of a layer is
      max ( ((Σ_k (x r k + agg r k) · w k q + b q) − mu q) · rsqrt (s q + ε) · g q + be q , 0 )
  on both sides (`Cert.Gin.layer`). Nothing is distributed, cancelled or reordered, so no entry has to be finite
  and the precondition is never opened. The proof reads each side at an index:
    · the reference, stage by stage, is `layer` of its previous stages (Proof/GinRef.lean);
    · each kernel body's stored block, at an entry, is `Cert.Gin.cell` of the block's rows (Proof/GinPayload.lean), and
      the fifty blocks tile the output array, so the region leaves `layer` of its entry arrays
      (Proof/GinRegion0.lean, GinRegion1.lean, GinRegion2.lean);
    · the host stretches between the regions are the reference's own operations on equal operands
      (Proof/GinHost0.lean … GinHost3.lean), so the program's result buffer ends at the reference's result term of
      the launch arguments;
    · the run of the idealized kernel program with its result read (Proof/GinRun.lean).
  The ideal pass rewrote nothing, so `preserves` is trivial; the three frames are the programs' runs with the
  result dropped.
-/
import proofs.«178807_j81037442941188_1_alg».proof.Defs
import proofs.«178807_j81037442941188_1_alg».proof.Proof.Gen.Kernel
import proofs.«178807_j81037442941188_1_alg».proof.Proof.Gen.KernelIdeal
import proofs.«178807_j81037442941188_1_alg».proof.Proof.Gen.ReferenceIdeal
import proofs.«178807_j81037442941188_1_alg».proof.Proof.Gen.Pre_finite_inputs
import proofs.«178807_j81037442941188_1_alg».proof.Proof.Gen.ReferenceIdeal.Run
import proofs.«178807_j81037442941188_1_alg».proof.Proof.Gen.ReferenceIdeal.Read
import proofs.«178807_j81037442941188_1_alg».proof.Proof.KernelFrameP
import proofs.«178807_j81037442941188_1_alg».proof.Proof.KernelIdealFrameP
import proofs.«178807_j81037442941188_1_alg».proof.Proof.GinRun
import proofs.«178807_j81037442941188_1_alg».proof.Proof.GinRef
import proofs.«178807_j81037442941188_1_alg».proof.Proof.GinRegion0
import proofs.«178807_j81037442941188_1_alg».proof.Proof.GinRegion1
import proofs.«178807_j81037442941188_1_alg».proof.Proof.GinRegion2
import proofs.«178807_j81037442941188_1_alg».proof.Proof.GinHost3
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

set_option maxHeartbeats 1000000 in
/-- From memories that agree on the arguments both idealized programs end with the reference's result term of those
    arguments in their result buffers. -/
theorem algebraic : Cert.algebraic_KernelIdeal_ReferenceIdeal := by
  intro m ρ m' ρ' _ hagree
  refine ⟨fun c => Cert.ReferenceIdeal.Read.val_main_v99 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)), ?_, ?_⟩
  · exact (θ_run Cert.KernelIdeal.defs _ _).mono
      (fun r h c => ⟨(h c).1.trans (Cert.Gin.Host.W7_v54 m ρ c
          Cert.Gin.Kern.region0_out Cert.Gin.Ref.layer1 Cert.Gin.Kern.region1_out Cert.Gin.Ref.layer2
          Cert.Gin.Kern.region2_out Cert.Gin.Ref.layer3), (h c).2⟩)
      (Cert.Gin.Run.run_out m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14, e15, e16, e17, e18, e19, e20, e21, e22⟩ := hagree c
    rw [Cert.ReferenceIdeal.Read.val_main_v99_eq]
    simp only [e0, e1, e2, e3, e4, e5, e6, e7, e8, e9, e10, e11, e12, e13, e14, e15, e16, e17, e18, e19, e20, e21, e22]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
